-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128x40 : Shape := ⟨2, ![128, 40]⟩
abbrev S40 : Shape := ⟨1, ![40]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_arg10 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S40 .f32) (main_arg7 : FVec F S128 .f32) (main_arg8 : FVec F S128 .f32) (main_arg9 : FVec F S128 .f32) (main_arg10 : FVec F S128 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128x40 .f32) (main_arg6 : FVec F S40 .f32) (main_arg7 : FVec F S128 .f32) (main_arg8 : FVec F S128 .f32) (main_arg9 : FVec F S128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x40 .f32 := Host.absf main_arg5
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128x40 : Shape := ⟨2, ![128, 40]⟩
abbrev S40 : Shape := ⟨1, ![40]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S100000x40 : Shape := ⟨2, ![100000, 40]⟩
abbrev S5000x40 : Shape := ⟨2, ![5000, 40]⟩
abbrev S1600000x40 : Shape := ⟨2, ![1600000, 40]⟩
abbrev S1x40 : Shape := ⟨2, ![1, 40]⟩

abbrev nBuf : Space → Nat
  | .hbm => 167
  | .vmem => 42
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128x128, .f32⟩
  | 5 => ⟨S128x40, .f32⟩
  | 6 => ⟨S40, .f32⟩
  | 7 => ⟨S128, .f32⟩
  | 8 => ⟨S128, .f32⟩
  | 9 => ⟨S128, .f32⟩
  | 10 => ⟨S128, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .i1⟩
  | 20 => ⟨S_, .f32⟩
  | 21 => ⟨S100000, .f32⟩
  | 22 => ⟨S100000, .f32⟩
  | 23 => ⟨S100000, .f32⟩
  | 24 => ⟨S_, .f32⟩
  | 25 => ⟨S_, .f32⟩
  | 26 => ⟨S100000, .f32⟩
  | 27 => ⟨S100000, .f32⟩
  | 28 => ⟨S_, .f32⟩
  | 29 => ⟨S1600000, .f32⟩
  | 30 => ⟨S_, .f32⟩
  | 31 => ⟨S100000, .f32⟩
  | 32 => ⟨S1600000x1, .i32⟩
  | 33 => ⟨S100000, .f32⟩
  | 34 => ⟨S_, .f32⟩
  | 35 => ⟨S100000, .f32⟩
  | 36 => ⟨S100000, .i1⟩
  | 37 => ⟨S_, .f32⟩
  | 38 => ⟨S100000, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S100000x1, .f32⟩
  | 46 => ⟨S100000x128, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S100000x1, .f32⟩
  | 61 => ⟨S100000x128, .f32⟩
  | 62 => ⟨S100000x128, .f32⟩
  | 63 => ⟨S_, .f32⟩
  | 64 => ⟨S128, .f32⟩
  | 65 => ⟨S_, .f32⟩
  | 66 => ⟨S128, .f32⟩
  | 67 => ⟨S128, .f32⟩
  | 68 => ⟨S_, .i32⟩
  | 69 => ⟨S_, .f32⟩
  | 70 => ⟨S128, .f32⟩
  | 71 => ⟨S1x128, .f32⟩
  | 72 => ⟨S_, .f32⟩
  | 73 => ⟨S1x128, .f32⟩
  | 74 => ⟨S1x128, .f32⟩
  | 75 => ⟨S100000x128, .f32⟩
  | 76 => ⟨S100000x128, .f32⟩
  | 77 => ⟨S100000x128, .f32⟩
  | 78 => ⟨S_, .f32⟩
  | 79 => ⟨S_, .f32⟩
  | 80 => ⟨S_, .f32⟩
  | 81 => ⟨S_, .f32⟩
  | 82 => ⟨S128, .f32⟩
  | 83 => ⟨S128, .f32⟩
  | 84 => ⟨S128, .f32⟩
  | 85 => ⟨S_, .f32⟩
  | 86 => ⟨S_, .i1⟩
  | 87 => ⟨S_, .f32⟩
  | 88 => ⟨S_, .f32⟩
  | 89 => ⟨S128, .f32⟩
  | 90 => ⟨S128, .f32⟩
  | 91 => ⟨S1x128, .f32⟩
  | 92 => ⟨S1x128, .f32⟩
  | 93 => ⟨S1x128, .f32⟩
  | 94 => ⟨S1x128, .f32⟩
  | 95 => ⟨S100000x128, .f32⟩
  | 96 => ⟨S100000x1, .f32⟩
  | 97 => ⟨S100000x128, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x128, .f32⟩
  | 107 => ⟨S_, .f32⟩
  | 108 => ⟨S100000x128, .f32⟩
  | 109 => ⟨S1600000x1, .i32⟩
  | 110 => ⟨S100000x128, .f32⟩
  | 111 => ⟨S100000x1, .f32⟩
  | 112 => ⟨S100000x128, .f32⟩
  | 113 => ⟨S100000x128, .f32⟩
  | 114 => ⟨S_, .f32⟩
  | 115 => ⟨S128, .f32⟩
  | 116 => ⟨S_, .f32⟩
  | 117 => ⟨S128, .f32⟩
  | 118 => ⟨S128, .f32⟩
  | 119 => ⟨S_, .i32⟩
  | 120 => ⟨S_, .f32⟩
  | 121 => ⟨S128, .f32⟩
  | 122 => ⟨S1x128, .f32⟩
  | 123 => ⟨S_, .f32⟩
  | 124 => ⟨S1x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S_, .f32⟩
  | 3 => ⟨S_, .f32⟩
  | 4 => ⟨S_, .f32⟩
  | 5 => ⟨S128, .f32⟩
  | 6 => ⟨S128, .f32⟩
  | 7 => ⟨S128, .f32⟩
  | 8 => ⟨S_, .f32⟩
  | 9 => ⟨S_, .i1⟩
  | 10 => ⟨S_, .f32⟩
  | 11 => ⟨S_, .f32⟩
  | 12 => ⟨S128, .f32⟩
  | 13 => ⟨S128, .f32⟩
  | 14 => ⟨S1x128, .f32⟩
  | 15 => ⟨S1x128, .f32⟩
  | 16 => ⟨S1x128, .f32⟩
  | 17 => ⟨S1x128, .f32⟩
  | 18 => ⟨S100000x128, .f32⟩
  | 19 => ⟨S100000x1, .f32⟩
  | 20 => ⟨S100000x40, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x40, .f32⟩
  | 30 => ⟨S_, .f32⟩
  | 31 => ⟨S100000x40, .f32⟩
  | 32 => ⟨S1600000x1, .i32⟩
  | 33 => ⟨S100000x40, .f32⟩
  | 34 => ⟨S100000x1, .f32⟩
  | 35 => ⟨S100000x40, .f32⟩
  | 36 => ⟨S100000x40, .f32⟩
  | 37 => ⟨S1x40, .f32⟩
  | 38 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S128x40, .f32⟩
  | .local _ .vmem, ⟨35, _⟩ => ⟨S5000x40, .f32⟩
  | .local _ .vmem, ⟨36, _⟩ => ⟨S5000x40, .f32⟩
  | .local _ .vmem, ⟨37, _⟩ => ⟨S5000x40, .f32⟩
  | .local _ .vmem, ⟨38, _⟩ => ⟨S5000x40, .f32⟩
  | .local _ .vmem, ⟨39, _⟩ => ⟨S1x40, .f32⟩
  | .local _ .vmem, ⟨40, _⟩ => ⟨S5000x40, .f32⟩
  | .local _ .vmem, ⟨41, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v9 : Ref sig .tc := ⟨.hbm, 27, rfl⟩
abbrev main_cst_4 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_6 : Ref sig .tc := ⟨.hbm, 34, rfl⟩
abbrev main_v14 : Ref sig .tc := ⟨.hbm, 35, rfl⟩
abbrev main_v15 : Ref sig .tc := ⟨.hbm, 36, rfl⟩
abbrev main_cst_7 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_8 : Ref sig .tc := ⟨.hbm, 41, rfl⟩
abbrev main_call1_v0 : Ref sig .tc := ⟨.hbm, 42, rfl⟩
abbrev main_call1_v1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c : Ref sig .tc := ⟨.hbm, 47, rfl⟩
abbrev main_v22 : Ref sig .tc := ⟨.hbm, 48, rfl⟩
abbrev main_v23 : Ref sig .tc := ⟨.hbm, 49, rfl⟩
abbrev main_c_9 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_11 : Ref sig .tc := ⟨.hbm, 63, rfl⟩
abbrev main_v35 : Ref sig .tc := ⟨.hbm, 64, rfl⟩
abbrev main_cst_12 : Ref sig .tc := ⟨.hbm, 65, rfl⟩
abbrev main_v36 : Ref sig .tc := ⟨.hbm, 66, rfl⟩
abbrev main_v37 : Ref sig .tc := ⟨.hbm, 67, rfl⟩
abbrev main_c_13 : Ref sig .tc := ⟨.hbm, 68, rfl⟩
abbrev main_call2_cst : Ref sig .tc := ⟨.hbm, 69, rfl⟩
abbrev main_call2_v0 : Ref sig .tc := ⟨.hbm, 70, rfl⟩
abbrev main_call2_v1 : Ref sig .tc := ⟨.hbm, 71, rfl⟩
abbrev main_call2_cst_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_cst_1 : Ref sig .tc := ⟨.hbm, 79, rfl⟩
abbrev main_call2_v8 : Ref sig .tc := ⟨.hbm, 80, rfl⟩
abbrev main_call2_cst_2 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_cst_3 : Ref sig .tc := ⟨.hbm, 85, rfl⟩
abbrev main_call2_v12 : Ref sig .tc := ⟨.hbm, 86, rfl⟩
abbrev main_call2_cst_4 : Ref sig .tc := ⟨.hbm, 87, rfl⟩
abbrev main_call2_call0_v0 : Ref sig .tc := ⟨.hbm, 88, rfl⟩
abbrev main_call2_call0_v1 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_c_14 : Ref sig .tc := ⟨.hbm, 98, rfl⟩
abbrev main_v46 : Ref sig .tc := ⟨.hbm, 99, rfl⟩
abbrev main_v47 : Ref sig .tc := ⟨.hbm, 100, rfl⟩
abbrev main_c_15 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_cst_16 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_cst_17 : Ref sig .tc := ⟨.hbm, 114, rfl⟩
abbrev main_v59 : Ref sig .tc := ⟨.hbm, 115, rfl⟩
abbrev main_cst_18 : Ref sig .tc := ⟨.hbm, 116, rfl⟩
abbrev main_v60 : Ref sig .tc := ⟨.hbm, 117, rfl⟩
abbrev main_v61 : Ref sig .tc := ⟨.hbm, 118, rfl⟩
abbrev main_c_19 : Ref sig .tc := ⟨.hbm, 119, rfl⟩
abbrev main_call3_cst : Ref sig .tc := ⟨.hbm, 120, rfl⟩
abbrev main_call3_v0 : Ref sig .tc := ⟨.hbm, 121, rfl⟩
abbrev main_call3_v1 : Ref sig .tc := ⟨.hbm, 122, rfl⟩
abbrev main_call3_cst_0 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_v6 : Ref sig .tc := ⟨.hbm, 128, rfl⟩
abbrev main_call3_v7 : Ref sig .tc := ⟨.hbm, 129, rfl⟩
abbrev main_call3_cst_1 : Ref sig .tc := ⟨.hbm, 130, rfl⟩
abbrev main_call3_v8 : Ref sig .tc := ⟨.hbm, 131, rfl⟩
abbrev main_call3_cst_2 : Ref sig .tc := ⟨.hbm, 132, rfl⟩
abbrev main_call3_v9 : Ref sig .tc := ⟨.hbm, 133, rfl⟩
abbrev main_call3_v10 : Ref sig .tc := ⟨.hbm, 134, rfl⟩
abbrev main_call3_v11 : Ref sig .tc := ⟨.hbm, 135, rfl⟩
abbrev main_call3_cst_3 : Ref sig .tc := ⟨.hbm, 136, rfl⟩
abbrev main_call3_v12 : Ref sig .tc := ⟨.hbm, 137, rfl⟩
abbrev main_call3_cst_4 : Ref sig .tc := ⟨.hbm, 138, rfl⟩
abbrev main_call3_call0_v0 : Ref sig .tc := ⟨.hbm, 139, rfl⟩
abbrev main_call3_call0_v1 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_c_20 : Ref sig .tc := ⟨.hbm, 149, rfl⟩
abbrev main_v70 : Ref sig .tc := ⟨.hbm, 150, rfl⟩
abbrev main_v71 : Ref sig .tc := ⟨.hbm, 151, rfl⟩
abbrev main_c_21 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_22 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg3_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem3_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem2_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x40.size a ≤ S128x40.size a
  hwx4_2 : ∀ i : grid4.Coords, EltTy.bits .f32 = 32 ∨ (Rect.block (s := S128x40) S128x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x40.size a ≤ S100000x40.size a
  hwx4_3 : ∀ i : grid4.Coords, EltTy.bits .f32 = 32 ∨ (Rect.block (s := S100000x40) S5000x40.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S100000x40.size a
  hwx5_0 : ∀ i : grid5.Coords, EltTy.bits .f32 = 32 ∨ (Rect.block (s := S100000x40) S5000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x40.size a ≤ S100000x40.size a
  hwx5_2 : ∀ i : grid5.Coords, EltTy.bits .f32 = 32 ∨ (Rect.block (s := S100000x40) S5000x40.size (cc5_transform_2 i) (hinb5_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v67) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg5) S128x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69) S5000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v82) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v84) S5000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128x40 : Shape := ⟨2, ![128, 40]⟩
abbrev S40 : Shape := ⟨1, ![40]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 202
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128x128, .f32⟩
  | 5 => ⟨S128x40, .f32⟩
  | 6 => ⟨S40, .f32⟩
  | 7 => ⟨S128, .f32⟩
  | 8 => ⟨S128, .f32⟩
  | 9 => ⟨S128, .f32⟩
  | 10 => ⟨S128, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .i1⟩
  | 20 => ⟨S_, .f32⟩
  | 21 => ⟨S100000, .f32⟩
  | 22 => ⟨S100000, .f32⟩
  | 23 => ⟨S100000, .f32⟩
  | 24 => ⟨S_, .f32⟩
  | 25 => ⟨S_, .f32⟩
  | 26 => ⟨S100000, .f32⟩
  | 27 => ⟨S100000, .f32⟩
  | 28 => ⟨S_, .f32⟩
  | 29 => ⟨S1600000, .f32⟩
  | 30 => ⟨S_, .f32⟩
  | 31 => ⟨S100000, .f32⟩
  | 32 => ⟨S1600000x1, .i32⟩
  | 33 => ⟨S100000, .f32⟩
  | 34 => ⟨S_, .f32⟩
  | 35 => ⟨S100000, .f32⟩
  | 36 => ⟨S100000, .i1⟩
  | 37 => ⟨S_, .f32⟩
  | 38 => ⟨S100000, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S100000x1, .f32⟩
  | 46 => ⟨S100000x128, .f32⟩
  | 47 => ⟨S100000x128, .f32⟩
  | 48 => ⟨S100000x128, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S_, .f32⟩
  | 59 => ⟨S100000x128, .f32⟩
  | 60 => ⟨S1600000x1, .i32⟩
  | 61 => ⟨S100000x128, .f32⟩
  | 62 => ⟨S100000x1, .f32⟩
  | 63 => ⟨S100000x128, .f32⟩
  | 64 => ⟨S100000x128, .f32⟩
  | 65 => ⟨S_, .f32⟩
  | 66 => ⟨S128, .f32⟩
  | 67 => ⟨S_, .f32⟩
  | 68 => ⟨S128, .f32⟩
  | 69 => ⟨S128, .f32⟩
  | 70 => ⟨S_, .i32⟩
  | 71 => ⟨S_, .f32⟩
  | 72 => ⟨S128, .f32⟩
  | 73 => ⟨S1x128, .f32⟩
  | 74 => ⟨S_, .f32⟩
  | 75 => ⟨S1x128, .f32⟩
  | 76 => ⟨S1x128, .f32⟩
  | 77 => ⟨S100000x128, .f32⟩
  | 78 => ⟨S100000x128, .f32⟩
  | 79 => ⟨S100000x128, .f32⟩
  | 80 => ⟨S_, .f32⟩
  | 81 => ⟨S_, .f32⟩
  | 82 => ⟨S_, .f32⟩
  | 83 => ⟨S_, .f32⟩
  | 84 => ⟨S128, .f32⟩
  | 85 => ⟨S128, .f32⟩
  | 86 => ⟨S128, .f32⟩
  | 87 => ⟨S_, .f32⟩
  | 88 => ⟨S_, .i1⟩
  | 89 => ⟨S_, .f32⟩
  | 90 => ⟨S_, .f32⟩
  | 91 => ⟨S128, .f32⟩
  | 92 => ⟨S128, .f32⟩
  | 93 => ⟨S1x128, .f32⟩
  | 94 => ⟨S100000x128, .f32⟩
  | 95 => ⟨S100000x128, .f32⟩
  | 96 => ⟨S_, .f32⟩
  | 97 => ⟨S128, .f32⟩
  | 98 => ⟨S128, .f32⟩
  | 99 => ⟨S128, .f32⟩
  | 100 => ⟨S1x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S100000x1, .f32⟩
  | 113 => ⟨S100000x128, .f32⟩
  | 114 => ⟨S100000x128, .f32⟩
  | 115 => ⟨S100000x128, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x128, .f32⟩
  | 125 => ⟨S_, .f32⟩
  | 126 => ⟨S100000x128, .f32⟩
  | 127 => ⟨S1600000x1, .i32⟩
  | _ => ⟨S100000x128, .f32⟩

abbrev hbmTy0_1 (i : Nat) : BufTy := match i % 128 with
  | 0 => ⟨S100000x128, .f32⟩
  | 1 => ⟨S100000x1, .f32⟩
  | 2 => ⟨S100000x128, .f32⟩
  | 3 => ⟨S100000x128, .f32⟩
  | 4 => ⟨S_, .f32⟩
  | 5 => ⟨S128, .f32⟩
  | 6 => ⟨S_, .f32⟩
  | 7 => ⟨S128, .f32⟩
  | 8 => ⟨S128, .f32⟩
  | 9 => ⟨S_, .i32⟩
  | 10 => ⟨S_, .f32⟩
  | 11 => ⟨S128, .f32⟩
  | 12 => ⟨S1x128, .f32⟩
  | 13 => ⟨S_, .f32⟩
  | 14 => ⟨S1x128, .f32⟩
  | 15 => ⟨S1x128, .f32⟩
  | 16 => ⟨S100000x128, .f32⟩
  | 17 => ⟨S100000x128, .f32⟩
  | 18 => ⟨S100000x128, .f32⟩
  | 19 => ⟨S_, .f32⟩
  | 20 => ⟨S_, .f32⟩
  | 21 => ⟨S_, .f32⟩
  | 22 => ⟨S_, .f32⟩
  | 23 => ⟨S128, .f32⟩
  | 24 => ⟨S128, .f32⟩
  | 25 => ⟨S128, .f32⟩
  | 26 => ⟨S_, .f32⟩
  | 27 => ⟨S_, .i1⟩
  | 28 => ⟨S_, .f32⟩
  | 29 => ⟨S_, .f32⟩
  | 30 => ⟨S128, .f32⟩
  | 31 => ⟨S128, .f32⟩
  | 32 => ⟨S1x128, .f32⟩
  | 33 => ⟨S100000x128, .f32⟩
  | 34 => ⟨S100000x128, .f32⟩
  | 35 => ⟨S_, .f32⟩
  | 36 => ⟨S128, .f32⟩
  | 37 => ⟨S128, .f32⟩
  | 38 => ⟨S128, .f32⟩
  | 39 => ⟨S1x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S100000x1, .f32⟩
  | 52 => ⟨S100000x128, .f32⟩
  | 53 => ⟨S100000x128, .f32⟩
  | 54 => ⟨S100000x40, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x40, .f32⟩
  | 64 => ⟨S_, .f32⟩
  | 65 => ⟨S100000x40, .f32⟩
  | 66 => ⟨S1600000x1, .i32⟩
  | 67 => ⟨S100000x40, .f32⟩
  | 68 => ⟨S100000x1, .f32⟩
  | 69 => ⟨S100000x40, .f32⟩
  | 70 => ⟨S100000x40, .f32⟩
  | 71 => ⟨S1x40, .f32⟩
  | 72 => ⟨S100000x40, .f32⟩
  | 73 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v9 : Ref sig .tc := ⟨.hbm, 27, rfl⟩
abbrev main_cst_4 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_6 : Ref sig .tc := ⟨.hbm, 34, rfl⟩
abbrev main_v14 : Ref sig .tc := ⟨.hbm, 35, rfl⟩
abbrev main_v15 : Ref sig .tc := ⟨.hbm, 36, rfl⟩
abbrev main_cst_7 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_8 : Ref sig .tc := ⟨.hbm, 41, rfl⟩
abbrev main_call1_v0 : Ref sig .tc := ⟨.hbm, 42, rfl⟩
abbrev main_call1_v1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c : Ref sig .tc := ⟨.hbm, 49, rfl⟩
abbrev main_v24 : Ref sig .tc := ⟨.hbm, 50, rfl⟩
abbrev main_v25 : Ref sig .tc := ⟨.hbm, 51, rfl⟩
abbrev main_c_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_10 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_11 : Ref sig .tc := ⟨.hbm, 65, rfl⟩
abbrev main_v37 : Ref sig .tc := ⟨.hbm, 66, rfl⟩
abbrev main_cst_12 : Ref sig .tc := ⟨.hbm, 67, rfl⟩
abbrev main_v38 : Ref sig .tc := ⟨.hbm, 68, rfl⟩
abbrev main_v39 : Ref sig .tc := ⟨.hbm, 69, rfl⟩
abbrev main_c_13 : Ref sig .tc := ⟨.hbm, 70, rfl⟩
abbrev main_call2_cst : Ref sig .tc := ⟨.hbm, 71, rfl⟩
abbrev main_call2_v0 : Ref sig .tc := ⟨.hbm, 72, rfl⟩
abbrev main_call2_v1 : Ref sig .tc := ⟨.hbm, 73, rfl⟩
abbrev main_call2_cst_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_v6 : Ref sig .tc := ⟨.hbm, 79, rfl⟩
abbrev main_call2_v7 : Ref sig .tc := ⟨.hbm, 80, rfl⟩
abbrev main_call2_cst_1 : Ref sig .tc := ⟨.hbm, 81, rfl⟩
abbrev main_call2_v8 : Ref sig .tc := ⟨.hbm, 82, rfl⟩
abbrev main_call2_cst_2 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_cst_3 : Ref sig .tc := ⟨.hbm, 87, rfl⟩
abbrev main_call2_v12 : Ref sig .tc := ⟨.hbm, 88, rfl⟩
abbrev main_call2_cst_4 : Ref sig .tc := ⟨.hbm, 89, rfl⟩
abbrev main_call2_call0_v0 : Ref sig .tc := ⟨.hbm, 90, rfl⟩
abbrev main_call2_call0_v1 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_cst_14 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_call3_cst : Ref sig .tc := ⟨.hbm, 109, rfl⟩
abbrev main_call3_v0 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_c_15 : Ref sig .tc := ⟨.hbm, 116, rfl⟩
abbrev main_v61 : Ref sig .tc := ⟨.hbm, 117, rfl⟩
abbrev main_v62 : Ref sig .tc := ⟨.hbm, 118, rfl⟩
abbrev main_c_16 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_cst_17 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_cst_18 : Ref sig .tc := ⟨.hbm, 132, rfl⟩
abbrev main_v74 : Ref sig .tc := ⟨.hbm, 133, rfl⟩
abbrev main_cst_19 : Ref sig .tc := ⟨.hbm, 134, rfl⟩
abbrev main_v75 : Ref sig .tc := ⟨.hbm, 135, rfl⟩
abbrev main_v76 : Ref sig .tc := ⟨.hbm, 136, rfl⟩
abbrev main_c_20 : Ref sig .tc := ⟨.hbm, 137, rfl⟩
abbrev main_call4_cst : Ref sig .tc := ⟨.hbm, 138, rfl⟩
abbrev main_call4_v0 : Ref sig .tc := ⟨.hbm, 139, rfl⟩
abbrev main_call4_v1 : Ref sig .tc := ⟨.hbm, 140, rfl⟩
abbrev main_call4_cst_0 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_call4_v5 : Ref sig .tc := ⟨.hbm, 145, rfl⟩
abbrev main_call4_v6 : Ref sig .tc := ⟨.hbm, 146, rfl⟩
abbrev main_call4_v7 : Ref sig .tc := ⟨.hbm, 147, rfl⟩
abbrev main_call4_cst_1 : Ref sig .tc := ⟨.hbm, 148, rfl⟩
abbrev main_call4_v8 : Ref sig .tc := ⟨.hbm, 149, rfl⟩
abbrev main_call4_cst_2 : Ref sig .tc := ⟨.hbm, 150, rfl⟩
abbrev main_call4_v9 : Ref sig .tc := ⟨.hbm, 151, rfl⟩
abbrev main_call4_v10 : Ref sig .tc := ⟨.hbm, 152, rfl⟩
abbrev main_call4_v11 : Ref sig .tc := ⟨.hbm, 153, rfl⟩
abbrev main_call4_cst_3 : Ref sig .tc := ⟨.hbm, 154, rfl⟩
abbrev main_call4_v12 : Ref sig .tc := ⟨.hbm, 155, rfl⟩
abbrev main_call4_cst_4 : Ref sig .tc := ⟨.hbm, 156, rfl⟩
abbrev main_call4_call0_v0 : Ref sig .tc := ⟨.hbm, 157, rfl⟩
abbrev main_call4_call0_v1 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_cst_21 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_call5_cst : Ref sig .tc := ⟨.hbm, 176, rfl⟩
abbrev main_call5_v0 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_c_22 : Ref sig .tc := ⟨.hbm, 183, rfl⟩
abbrev main_v98 : Ref sig .tc := ⟨.hbm, 184, rfl⟩
abbrev main_v99 : Ref sig .tc := ⟨.hbm, 185, rfl⟩
abbrev main_c_23 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_cst_24 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KRun.lean ====
/-
  The idealized kernel's run with its result named. The program's @main is twenty segments — stretches of host
  operations and six kernel regions —, and the buffer contents at each boundary are a fold from the launch memory
  (the contents `W0 … W20` of the generated frame). Every weakly fair execution terminates without a fault with each
  unscoped buffer at the last boundary's contents: in particular the result buffer holds `W20` at it, and each
  argument buffer what it held at the launch.
-/
import proofs.«162067_j41154376630597_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched: the segments' run, the final thread state read
    against the final memory at the result buffer and at each argument. -/
theorem run_valued : θ_run defs (onTc (τ := τ) (main (F := F))) ⟨m, fun _ => 0, ρ⟩ (fun r => ∀ c : Dev nD,
      r.2.mem ((c.tc : Thread nD τ).loc main_v84) = W20 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v84 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c)⟩)

end Cert.KernelIdeal.KRun

end
-- ==== Proof.Spec.lean ====
/-
  The graph-convolution network both programs compute, as pure functions of the argument arrays over the
  extended reals, one function per stage:

    degNorm idx        d ↦ deg(d)^(-1/2) where deg(d) = #{e | idx e = d} is positive, and 0 elsewhere
    scaleMatmul h n W  (h ⊙ n) · W, the rows of h scaled by the column n before the product
    aggregate p s d n  row v of the result is n(v) · Σ_{e : d e = v} p(s e): gather along the edges' sources, add
                       into their destinations, scale by the in-degree norm
    colMean, colVar    the mean and the (population) variance of every column
    bnRelu             max(0, (h - μ) · (σ² + ε)^(-1/2) · γ + β), column by column
    biasAdd            h + b, column by column

  and `gcn` their composition: two layers of scaleMatmul, aggregate, batch-norm and relu, then a third
  scaleMatmul and aggregate with a bias. Every stage is written with the host operations in the order the
  reference applies them, over the reference program's shapes and dimension records.
-/
import proofs.«162067_j41154376630597_1_alg».proof.ReferenceIdeal
import Idealize.ShloMosaic.PureOps.Ideal

noncomputable section

namespace Cert.Spec

open Idealize.ShloMosaic Cert.ReferenceIdeal Cert.ReferenceIdeal.Facts₀

variable [Cert.ReferenceIdeal.Facts₀]

/-- A float array of shape `s` over the extended reals. -/
abbrev FA (s : Shape) := FVec Ideal s .f32
/-- A 32-bit integer array of shape `s`. -/
abbrev IA (s : Shape) := IVec s 32

/-- The number of edges whose endpoint `idx e` is the node, as a float: ones added into zeros. -/
def degree (idx : IA S1600000) : FA S100000 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 idx)
    (broadcastInDim S1600000 ![] bcast_S_S1600000 (constant S_ .f32 0x3F800000#32))

/-- `deg^(-1/2)` where the degree is positive, `0` elsewhere (the degree clamped to `≥ 1` under the root). -/
def degNorm (idx : IA S1600000) : FA S100000 :=
  select
    (cmpf .ogt (degree idx) (broadcastInDim S100000 ![] bcast_S_S100000 (constant S_ .f32 0x00000000#32)))
    (Host.rsqrt (maximumf (degree idx) (broadcastInDim S100000 ![] bcast_S_S100000 (constant S_ .f32 0x3F800000#32))))
    (broadcastInDim S100000 ![] bcast_S_S100000 (constant S_ .f32 0x00000000#32))

/-- A per-node column as an `[N, 1]` array. -/
def asColumn (n : FA S100000) : FA S100000x1 :=
  broadcastInDim S100000x1 ![0] bcast_S100000_S100000x1_0 n
/-- A per-column row as a `[1, 128]` array. -/
def asRow (v : FA S128) : FA S1x128 :=
  broadcastInDim S1x128 ![1] bcast_S128_S1x128_1 v
/-- A per-column row as a `[1, 40]` array. -/
def asRow40 (v : FA S40) : FA S1x40 :=
  broadcastInDim S1x40 ![1] bcast_S40_S1x40_1 v

/-- `(h ⊙ n) · W` with `n` an `[N, 1]` column, 128 output columns. -/
def scaleMatmul (h : FA S100000x128) (n : FA S100000x1) (W : FA S128x128) : FA S100000x128 :=
  Host.dotGeneral dot_S100000x128_S128x128_S100000x128_1_0_0_1_n_n none
    (mulf h (broadcastInDim S100000x128 ![0, 1] bcast_S100000x1_S100000x128_0_1 n)) W
/-- `(h ⊙ n) · W` with `n` an `[N, 1]` column, 40 output columns. -/
def scaleMatmul40 (h : FA S100000x128) (n : FA S100000x1) (W : FA S128x40) : FA S100000x40 :=
  Host.dotGeneral dot_S100000x128_S128x40_S100000x40_1_0_0_1_n_n none
    (mulf h (broadcastInDim S100000x128 ![0, 1] bcast_S100000x1_S100000x128_0_1 n)) W

/-- The edges' source indices as gather start indices: a negative index counted from the end. -/
def gatherIdx (src : IA S1600000) : IA S1600000x1 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Row `v`: `n v · Σ_{e : dst e = v} p (src e)`, 128 columns. -/
def aggregate (p : FA S100000x128) (src dst : IA S1600000) (n : FA S100000) : FA S100000x128 :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 p (gatherIdx src)))
    (broadcastInDim S100000x128 ![0, 1] bcast_S100000x1_S100000x128_0_1 (asColumn n))
/-- Row `v`: `n v · Σ_{e : dst e = v} p (src e)`, 40 columns. -/
def aggregate40 (p : FA S100000x40) (src dst : IA S1600000) (n : FA S100000) : FA S100000x40 :=
  mulf
    (Host.scatterAdd scatter_S100000x40_S1600000x1_S1600000x40_1_0_0_1
      (broadcastInDim S100000x40 ![] bcast_S_S100000x40 (constant S_ .f32 0x00000000#32))
      (broadcastInDim S1600000x1 ![0] bcast_S1600000_S1600000x1_0 dst)
      (Host.gather gather_S100000x40_S1600000x1_S1600000x40_1_0_n_n_0_1_140 p (gatherIdx src)))
    (broadcastInDim S100000x40 ![0, 1] bcast_S100000x1_S100000x40_0_1 (asColumn n))

/-- The mean of every column: the column's sum over `100000`. -/
def colMean (h : FA S100000x128) : FA S128 :=
  Host.divf (Host.reduceAdd h (constant S_ .f32 0x00000000#32) reducesTo_S100000x128_S128_d0 h_S_)
    (broadcastInDim S128 ![] bcast_S_S128 (constant S_ .f32 0x47C35000#32))

/-- `N - ddof` with `ddof = 0`, as a float scalar. -/
def varCount : FA S_ :=
  subf (constant S_ .f32 0x47C35000#32) (sitofp .f32 (constantI S_ 32 0#32))

/-- The variance of every column: the mean of the squared deviations from the column's mean (a NaN row
    were the count not positive). -/
def colVar (h : FA S100000x128) : FA S128 :=
  select
    (broadcastInDim S128 ![] bcast_S_S128 (cmpf .ogt varCount (constant S_ .f32 0x00000000#32)))
    (Host.divf
      (Host.reduceAdd
        (mulf
          (subf h (broadcastInDim S100000x128 ![0, 1] bcast_S1x128_S100000x128_0_1
            (Host.divf
              (broadcastInDim S1x128 ![1] bcast_S128_S1x128_1
                (Host.reduceAdd h (constant S_ .f32 0x00000000#32) reducesTo_S100000x128_S128_d0 h_S_))
              (broadcastInDim S1x128 ![] bcast_S_S1x128 (constant S_ .f32 0x47C35000#32)))))
          (subf h (broadcastInDim S100000x128 ![0, 1] bcast_S1x128_S100000x128_0_1
            (Host.divf
              (broadcastInDim S1x128 ![1] bcast_S128_S1x128_1
                (Host.reduceAdd h (constant S_ .f32 0x00000000#32) reducesTo_S100000x128_S128_d0 h_S_))
              (broadcastInDim S1x128 ![] bcast_S_S1x128 (constant S_ .f32 0x47C35000#32))))))
        (constant S_ .f32 0x00000000#32) reducesTo_S100000x128_S128_d0 h_S_)
      (broadcastInDim S128 ![] bcast_S_S128 varCount))
    (broadcastInDim S128 ![] bcast_S_S128 (constant S_ .f32 0x7FC00000#32))

/-- `max(0, (h - μ) · (σ² + ε)^(-1/2) · γ + β)`, every per-column quantity a `[128]` row. -/
def bnRelu (h : FA S100000x128) (mu var g b : FA S128) : FA S100000x128 :=
  maximumf
    (addf
      (mulf
        (mulf
          (subf h (broadcastInDim S100000x128 ![0, 1] bcast_S1x128_S100000x128_0_1 (asRow mu)))
          (broadcastInDim S100000x128 ![0, 1] bcast_S1x128_S100000x128_0_1
            (asRow (Host.rsqrt (addf var (broadcastInDim S128 ![] bcast_S_S128 (constant S_ .f32 0x3727C5AC#32)))))))
        (broadcastInDim S100000x128 ![0, 1] bcast_S1x128_S100000x128_0_1 (asRow g)))
      (broadcastInDim S100000x128 ![0, 1] bcast_S1x128_S100000x128_0_1 (asRow b)))
    (broadcastInDim S100000x128 ![] bcast_S_S100000x128 (constant S_ .f32 0x00000000#32))

/-- `h + b`, the bias a `[40]` row. -/
def biasAdd (h : FA S100000x40) (b : FA S40) : FA S100000x40 :=
  addf h (broadcastInDim S100000x40 ![0, 1] bcast_S1x40_S100000x40_0_1 (asRow40 b))

/-- One hidden layer: transform, aggregate, normalise, rectify. -/
def layer (h : FA S100000x128) (W : FA S128x128) (src dst : IA S1600000) (g b : FA S128) : FA S100000x128 :=
  bnRelu (aggregate (scaleMatmul h (asColumn (degNorm src)) W) src dst (degNorm dst))
    (colMean (aggregate (scaleMatmul h (asColumn (degNorm src)) W) src dst (degNorm dst)))
    (colVar (aggregate (scaleMatmul h (asColumn (degNorm src)) W) src dst (degNorm dst))) g b

/-- The network: two hidden layers and the output layer. -/
def gcn (feat : FA S100000x128) (src dst : IA S1600000) (W0 W1 : FA S128x128) (W2 : FA S128x40) (b2 : FA S40)
    (g0 beta0 g1 beta1 : FA S128) : FA S100000x40 :=
  biasAdd
    (aggregate40 (scaleMatmul40 (layer (layer feat W0 src dst g0 beta0) W1 src dst g1 beta1) (asColumn (degNorm src)) W2)
      src dst (degNorm dst))
    b2

end Cert.Spec

end
-- ==== Proof.LibReshape.lean ====
/-
  A vector of length `n` relaid as an `[n, 1]` column or as a `[1, n]` row holds, at an index, the vector's
  entry at the index's coordinate along the long axis. Two host spellings of that relayout — a reshape (the same
  elements in row-major order) and a broadcast_in_dim placing the vector's axis at axis 0, resp. 1 — are
  therefore the same array: along a unit axis the row-major position does not move.
-/
import Idealize.ShloMosaic.Lib.Pipeline.Value
import Idealize.ShloMosaic.Lib.ValueIdx

namespace Cert.LibReshape

open Idealize.ShloMosaic Idealize.ShloMosaic.ValueIdx

/-- A length-`n` vector reshaped to `[n, 1]` is its broadcast along axis 0: entry `(r, 0)` is the vector's `r`. -/
theorem shapeCast_eq_column {α : Type} {n : Nat} (x : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x h = broadcastInDim ⟨2, ![n, 1]⟩ (![0] : Fin 1 → Fin 2) hb x := by
  funext j
  have h0 : (j 0).val < n := idx2_lt0 j
  have h1 : (j 1).val = 0 := by have := idx2_lt1 j; omega
  have e1 := shapeCast_apply x h j (ix1 (⟨(j 0).val, h0⟩ : Fin n)) (by
    rw [Shape.rowMajor_val_one, Shape.rowMajor_val_two]
    show (j 0).val = (j 0).val * 1 + (j 1).val
    omega)
  have e2 := broadcastInDim_apply (![0] : Fin 1 → Fin 2) hb x j (ix1 (⟨(j 0).val, h0⟩ : Fin n)) (fun a => by
    match a with
    | ⟨0, _⟩ =>
      show (j 0).val = if n = 1 then 0 else (j 0).val
      split
      · omega
      · rfl)
  rw [e1, e2]

/-- A length-`n` vector reshaped to `[1, n]` is its broadcast along axis 1: entry `(0, j)` is the vector's `j`. -/
theorem shapeCast_eq_row {α : Type} {n : Nat} (x : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x h = broadcastInDim ⟨2, ![1, n]⟩ (![1] : Fin 1 → Fin 2) hb x := by
  funext j
  have h0 : (j 0).val = 0 := by have := idx2_lt0 j; omega
  have h1 : (j 1).val < n := idx2_lt1 j
  have e1 := shapeCast_apply x h j (ix1 (⟨(j 1).val, h1⟩ : Fin n)) (by
    rw [Shape.rowMajor_val_one, Shape.rowMajor_val_two]
    show (j 1).val = (j 0).val * n + (j 1).val
    rw [h0]; omega)
  have e2 := broadcastInDim_apply (![1] : Fin 1 → Fin 2) hb x j (ix1 (⟨(j 1).val, h1⟩ : Fin n)) (fun a => by
    match a with
    | ⟨0, _⟩ =>
      show (j 1).val = if n = 1 then 0 else (j 1).val
      split
      · omega
      · rfl)
  rw [e1, e2]

end Cert.LibReshape
-- ==== Proof.KHost.lean ====
/-
  The kernel program's host stretches, one operation list at a time, read back as pure functions: for ANY buffer
  contents `V` a stretch is entered from, the buffers it writes hold afterwards the network's stage (Spec) of what
  `V` holds at the buffers it reads. The stretches compute: the two degree norms (a count of edges per node by
  adding ones, clamped, under an inverse square root, zero where the count is zero), per layer the edge
  aggregation (gather the transformed rows at the edges' sources, add them into the edges' destinations, scale by
  the in-degree norm), the columns' mean and variance of the aggregate, and the relayouts of per-node and
  per-column vectors as `[N, 1]` columns and `[1, d]` rows for the kernel regions.
-/
import proofs.«162067_j41154376630597_1_alg».proof.Proof.Gen.KernelIdeal.Launch
import proofs.«162067_j41154376630597_1_alg».proof.Proof.Gen.ReferenceIdeal
import proofs.«162067_j41154376630597_1_alg».proof.Proof.Spec
import proofs.«162067_j41154376630597_1_alg».proof.Proof.LibReshape
import Idealize.ShloMosaic.Lib.StableHlo.Run

set_option maxRecDepth 16384

noncomputable section

namespace Cert.KernelIdeal.KHost

open Idealize.ShloMosaic Idealize.ShloMosaic.TcCoe Idealize.SL.Sem Idealize.ShloMosaic.StableHlo
open Cert.KernelIdeal Cert.KernelIdeal.Gen

local notation "D" => (Proc.devRef (τ := τ) (sig := sig) Proc.tc)
local notation "Val" => Valuation τ sig (Elt Ideal)

/-! ## The two programs' dimension records are the same records -/

theorem scatterDeg_eq : (Cert.KernelIdeal.scatter_S100000_S1600000x1_S1600000_n_0_0_1 : ScatterDims Cert.ReferenceIdeal.S100000 Cert.ReferenceIdeal.S1600000x1 Cert.ReferenceIdeal.S1600000) = Cert.ReferenceIdeal.scatter_S100000_S1600000x1_S1600000_n_0_0_1 := by
  unfold Cert.KernelIdeal.scatter_S100000_S1600000x1_S1600000_n_0_0_1 Cert.ReferenceIdeal.scatter_S100000_S1600000x1_S1600000_n_0_0_1
  rfl
theorem scatter128_eq : (Cert.KernelIdeal.scatter_S100000x128_S1600000x1_S1600000x128_1_0_0_1 : ScatterDims Cert.ReferenceIdeal.S100000x128 Cert.ReferenceIdeal.S1600000x1 Cert.ReferenceIdeal.S1600000x128) = Cert.ReferenceIdeal.scatter_S100000x128_S1600000x1_S1600000x128_1_0_0_1 := by
  unfold Cert.KernelIdeal.scatter_S100000x128_S1600000x1_S1600000x128_1_0_0_1 Cert.ReferenceIdeal.scatter_S100000x128_S1600000x1_S1600000x128_1_0_0_1
  rfl
theorem scatter40_eq : (Cert.KernelIdeal.scatter_S100000x40_S1600000x1_S1600000x40_1_0_0_1 : ScatterDims Cert.ReferenceIdeal.S100000x40 Cert.ReferenceIdeal.S1600000x1 Cert.ReferenceIdeal.S1600000x40) = Cert.ReferenceIdeal.scatter_S100000x40_S1600000x1_S1600000x40_1_0_0_1 := by
  unfold Cert.KernelIdeal.scatter_S100000x40_S1600000x1_S1600000x40_1_0_0_1 Cert.ReferenceIdeal.scatter_S100000x40_S1600000x1_S1600000x40_1_0_0_1
  rfl
theorem gather128_eq : (Cert.KernelIdeal.gather_S100000x128_S1600000x1_S1600000x128_1_0_n_n_0_1_1128 : GatherDims Cert.ReferenceIdeal.S100000x128 Cert.ReferenceIdeal.S1600000x1 Cert.ReferenceIdeal.S1600000x128) = Cert.ReferenceIdeal.gather_S100000x128_S1600000x1_S1600000x128_1_0_n_n_0_1_1128 := by
  unfold Cert.KernelIdeal.gather_S100000x128_S1600000x1_S1600000x128_1_0_n_n_0_1_1128 Cert.ReferenceIdeal.gather_S100000x128_S1600000x1_S1600000x128_1_0_n_n_0_1_1128
  rfl
theorem gather40_eq : (Cert.KernelIdeal.gather_S100000x40_S1600000x1_S1600000x40_1_0_n_n_0_1_140 : GatherDims Cert.ReferenceIdeal.S100000x40 Cert.ReferenceIdeal.S1600000x1 Cert.ReferenceIdeal.S1600000x40) = Cert.ReferenceIdeal.gather_S100000x40_S1600000x1_S1600000x40_1_0_n_n_0_1_140 := by
  unfold Cert.KernelIdeal.gather_S100000x40_S1600000x1_S1600000x40_1_0_n_n_0_1_140 Cert.ReferenceIdeal.gather_S100000x40_S1600000x1_S1600000x40_1_0_n_n_0_1_140
  rfl

/-- Closes an equation that is syntactic once the stage definitions are opened (or already closed by the rewrite). -/
local macro "fin" : tactic => `(tactic| first | done | rfl)

/-! ## The degree norms -/

section

/-- Where the out-degree is positive. -/
theorem deg_pos (V : Val) : after (hostOps0 (F := Ideal)) V (D main_v5)
    = cmpf .ogt (Cert.Spec.degree (V (D main_arg1)))
        (broadcastInDim Cert.ReferenceIdeal.S100000 ![] Cert.ReferenceIdeal.Facts₀.bcast_S_S100000 (constant Cert.ReferenceIdeal.S_ .f32 0x00000000#32)) := by
  dsimp only [hostOps0]; after_results_simp; unfold Cert.Spec.degree; rw [scatterDeg_eq]; fin
/-- The out-degree clamped to at least one, under the inverse square root. -/
theorem deg_rsqrt (V : Val) : after (hostOps0 (F := Ideal)) V (D main_v8)
    = Host.rsqrt (maximumf (Cert.Spec.degree (V (D main_arg1)))
        (broadcastInDim Cert.ReferenceIdeal.S100000 ![] Cert.ReferenceIdeal.Facts₀.bcast_S_S100000 (constant Cert.ReferenceIdeal.S_ .f32 0x3F800000#32))) := by
  dsimp only [hostOps0]; after_results_simp; unfold Cert.Spec.degree; rw [scatterDeg_eq]; fin
theorem deg_zero (V : Val) : after (hostOps0 (F := Ideal)) V (D main_cst_3) = (constant Cert.ReferenceIdeal.S_ .f32 0x00000000#32 : FVec Ideal Cert.ReferenceIdeal.S_ .f32) := by
  dsimp only [hostOps0]; after_results_simp; fin
/-- The select between the root and zero. -/
theorem norm_select (V : Val) : after (hostOps0_1 (F := Ideal)) V (D main_v9)
    = select (V (D main_v5) : IVec Cert.ReferenceIdeal.S100000 1) (V (D main_v8) : FVec Ideal Cert.ReferenceIdeal.S100000 .f32)
        (broadcastInDim Cert.ReferenceIdeal.S100000 ![] Cert.ReferenceIdeal.Facts₀.bcast_S_S100000 (V (D main_cst_3) : FVec Ideal Cert.ReferenceIdeal.S_ .f32)) := by
  dsimp only [hostOps0_1]; after_results_simp; fin

/-- The same four for the in-degree. -/
theorem deg_pos' (V : Val) : after (hostOps0_2 (F := Ideal)) V (D main_v15)
    = cmpf .ogt (Cert.Spec.degree (V (D main_arg2)))
        (broadcastInDim Cert.ReferenceIdeal.S100000 ![] Cert.ReferenceIdeal.Facts₀.bcast_S_S100000 (constant Cert.ReferenceIdeal.S_ .f32 0x00000000#32)) := by
  dsimp only [hostOps0_2]; after_results_simp; unfold Cert.Spec.degree; rw [scatterDeg_eq]; fin
theorem deg_rsqrt' (V : Val) : after (hostOps0_2 (F := Ideal)) V (D main_v18)
    = Host.rsqrt (maximumf (Cert.Spec.degree (V (D main_arg2)))
        (broadcastInDim Cert.ReferenceIdeal.S100000 ![] Cert.ReferenceIdeal.Facts₀.bcast_S_S100000 (constant Cert.ReferenceIdeal.S_ .f32 0x3F800000#32))) := by
  dsimp only [hostOps0_2]; after_results_simp; unfold Cert.Spec.degree; rw [scatterDeg_eq]; fin
theorem deg_zero' (V : Val) : after (hostOps0_2 (F := Ideal)) V (D main_cst_8) = (constant Cert.ReferenceIdeal.S_ .f32 0x00000000#32 : FVec Ideal Cert.ReferenceIdeal.S_ .f32) := by
  dsimp only [hostOps0_2]; after_results_simp; fin
theorem norm_select' (V : Val) : after (hostOps0_3 (F := Ideal)) V (D main_v19)
    = select (V (D main_v15) : IVec Cert.ReferenceIdeal.S100000 1) (V (D main_v18) : FVec Ideal Cert.ReferenceIdeal.S100000 .f32)
        (broadcastInDim Cert.ReferenceIdeal.S100000 ![] Cert.ReferenceIdeal.Facts₀.bcast_S_S100000 (V (D main_cst_8) : FVec Ideal Cert.ReferenceIdeal.S_ .f32)) := by
  dsimp only [hostOps0_3]; after_results_simp; fin

end

/-! ## The out-degree norm as a column, before each transform region -/

theorem column0 (V : Val) : after (hostOps0_4 (F := Ideal)) V (D main_v20) = Cert.Spec.asColumn (V (D main_v9)) := by
  dsimp only [hostOps0_4]; after_results_simp
  exact Cert.LibReshape.shapeCast_eq_column _ _ _
theorem column2 (V : Val) : after (hostOps2 (F := Ideal)) V (D main_v44) = Cert.Spec.asColumn (V (D main_v9)) := by
  dsimp only [hostOps2]; after_results_simp
  exact Cert.LibReshape.shapeCast_eq_column _ _ _
theorem column4 (V : Val) : after (hostOps4 (F := Ideal)) V (D main_v68) = Cert.Spec.asColumn (V (D main_v9)) := by
  dsimp only [hostOps4]; after_results_simp
  exact Cert.LibReshape.shapeCast_eq_column _ _ _

end Cert.KernelIdeal.KHost

end
-- ==== Proof.SpecVar.lean ====
/-
  The columns' variance with the count's offset a parameter: the kernel's and the reference's programs both
  compute the variance by one outlined function whose second argument, the "delta degrees of freedom", is an
  integer scalar that both pass as zero. Read as a function of that scalar `z` it is the mean of the squared
  deviations from the column mean over `100000 - z` entries; at `z = 0` it is the network's column variance.
-/
import proofs.«162067_j41154376630597_1_alg».proof.Proof.Spec

noncomputable section

namespace Cert.Spec

open Idealize.ShloMosaic Cert.ReferenceIdeal Cert.ReferenceIdeal.Facts₀

variable [Cert.ReferenceIdeal.Facts₀]

/-- The variance of every column over `100000 - z` entries. -/
def colVarOf (h : FA S100000x128) (z : IVec S_ 32) : FA S128 :=
  select
    (broadcastInDim S128 ![] bcast_S_S128
      (cmpf .ogt (subf (constant S_ .f32 0x47C35000#32) (sitofp .f32 z) : FA S_) (constant S_ .f32 0x00000000#32)))
    (Host.divf
      (Host.reduceAdd
        (mulf
          (subf h (broadcastInDim S100000x128 ![0, 1] bcast_S1x128_S100000x128_0_1
            (Host.divf
              (broadcastInDim S1x128 ![1] bcast_S128_S1x128_1
                (Host.reduceAdd h (constant S_ .f32 0x00000000#32) reducesTo_S100000x128_S128_d0 h_S_))
              (broadcastInDim S1x128 ![] bcast_S_S1x128 (constant S_ .f32 0x47C35000#32)))))
          (subf h (broadcastInDim S100000x128 ![0, 1] bcast_S1x128_S100000x128_0_1
            (Host.divf
              (broadcastInDim S1x128 ![1] bcast_S128_S1x128_1
                (Host.reduceAdd h (constant S_ .f32 0x00000000#32) reducesTo_S100000x128_S128_d0 h_S_))
              (broadcastInDim S1x128 ![] bcast_S_S1x128 (constant S_ .f32 0x47C35000#32))))))
        (constant S_ .f32 0x00000000#32) reducesTo_S100000x128_S128_d0 h_S_)
      (broadcastInDim S128 ![] bcast_S_S128 (subf (constant S_ .f32 0x47C35000#32) (sitofp .f32 z) : FA S_)))
    (broadcastInDim S128 ![] bcast_S_S128 (constant S_ .f32 0x7FC00000#32))

/-- At offset zero it is the network's column variance. -/
theorem colVarOf_zero (h : FA S100000x128) : colVarOf h (constantI S_ 32 0#32) = colVar h := by
  unfold colVarOf colVar varCount; rfl

end Cert.Spec

end
-- ==== Proof.KHost2.lean ====
/-
  The kernel program's host stretches after the first transform region, read back as pure functions of the
  contents they are entered from (as in the first part): per hidden layer the aggregation along the edges, the
  aggregate's column means and variances, and the per-column vectors relaid as `[1, 128]` rows; for the output
  layer the aggregation at 40 columns and the bias as a `[1, 40]` row.
-/
import proofs.«162067_j41154376630597_1_alg».proof.Proof.KHost
import proofs.«162067_j41154376630597_1_alg».proof.Proof.SpecVar

set_option maxRecDepth 16384

noncomputable section

namespace Cert.KernelIdeal.KHost

open Idealize.ShloMosaic Idealize.ShloMosaic.TcCoe Idealize.SL.Sem Idealize.ShloMosaic.StableHlo
open Cert.KernelIdeal Cert.KernelIdeal.Gen

local notation "D" => (Proc.devRef (τ := τ) (sig := sig) Proc.tc)
local notation "Val" => Valuation τ sig (Elt Ideal)
local macro "fin" : tactic => `(tactic| first | done | rfl)

/-! ## Layer 1: aggregate, column statistics, rows -/

theorem agg1 (V : Val) : after (hostOps1 (F := Ideal)) V (D main_v34)
    = Cert.Spec.aggregate (V (D main_v21)) (V (D main_arg1)) (V (D main_arg2)) (V (D main_v19)) := by
  dsimp only [hostOps1]; after_results_simp
  unfold Cert.Spec.aggregate Cert.Spec.gatherIdx Cert.Spec.asColumn; rw [gather128_eq, scatter128_eq]; fin
theorem mean1 (V : Val) : after (hostOps1 (F := Ideal)) V (D main_v37)
    = Cert.Spec.colMean (Cert.Spec.aggregate (V (D main_v21)) (V (D main_arg1)) (V (D main_arg2)) (V (D main_v19))) := by
  dsimp only [hostOps1]; after_results_simp
  unfold Cert.Spec.colMean Cert.Spec.aggregate Cert.Spec.gatherIdx Cert.Spec.asColumn; rw [gather128_eq, scatter128_eq]; fin
theorem ddof1 (V : Val) : after (hostOps1 (F := Ideal)) V (D main_c_13) = (constantI Cert.ReferenceIdeal.S_ 32 0#32 : IVec Cert.ReferenceIdeal.S_ 32) := by
  dsimp only [hostOps1]; after_results_simp; fin
attribute [local irreducible] Host.reduceAdd Host.divf in
theorem var1 (V : Val) : after (hostOps1_1 (F := Ideal)) V (D main_v38) = Cert.Spec.colVarOf (V (D main_v34)) (V (D main_c_13)) := by
  dsimp only [hostOps1_1]; after_results_simp; unfold Cert.Spec.colVarOf; fin
theorem rowMean1 (V : Val) : after (hostOps1_2 (F := Ideal)) V (D main_v39) = Cert.Spec.asRow (V (D main_v37)) := by
  dsimp only [hostOps1_2]; after_results_simp; exact Cert.LibReshape.shapeCast_eq_row _ _ _
theorem rowVar1 (V : Val) : after (hostOps1_2 (F := Ideal)) V (D main_v40) = Cert.Spec.asRow (V (D main_v38)) := by
  dsimp only [hostOps1_2]; after_results_simp; exact Cert.LibReshape.shapeCast_eq_row _ _ _
theorem rowGamma1 (V : Val) : after (hostOps1_2 (F := Ideal)) V (D main_v41) = Cert.Spec.asRow (V (D main_arg7)) := by
  dsimp only [hostOps1_2]; after_results_simp; exact Cert.LibReshape.shapeCast_eq_row _ _ _
theorem rowBeta1 (V : Val) : after (hostOps1_2 (F := Ideal)) V (D main_v42) = Cert.Spec.asRow (V (D main_arg8)) := by
  dsimp only [hostOps1_2]; after_results_simp; exact Cert.LibReshape.shapeCast_eq_row _ _ _

/-! ## Layer 2: aggregate, column statistics, rows -/

theorem agg2 (V : Val) : after (hostOps3 (F := Ideal)) V (D main_v58)
    = Cert.Spec.aggregate (V (D main_v45)) (V (D main_arg1)) (V (D main_arg2)) (V (D main_v19)) := by
  dsimp only [hostOps3]; after_results_simp
  unfold Cert.Spec.aggregate Cert.Spec.gatherIdx Cert.Spec.asColumn; rw [gather128_eq, scatter128_eq]; fin
theorem mean2 (V : Val) : after (hostOps3 (F := Ideal)) V (D main_v61)
    = Cert.Spec.colMean (Cert.Spec.aggregate (V (D main_v45)) (V (D main_arg1)) (V (D main_arg2)) (V (D main_v19))) := by
  dsimp only [hostOps3]; after_results_simp
  unfold Cert.Spec.colMean Cert.Spec.aggregate Cert.Spec.gatherIdx Cert.Spec.asColumn; rw [gather128_eq, scatter128_eq]; fin
theorem ddof2 (V : Val) : after (hostOps3 (F := Ideal)) V (D main_c_19) = (constantI Cert.ReferenceIdeal.S_ 32 0#32 : IVec Cert.ReferenceIdeal.S_ 32) := by
  dsimp only [hostOps3]; after_results_simp; fin
attribute [local irreducible] Host.reduceAdd Host.divf in
theorem var2 (V : Val) : after (hostOps3_1 (F := Ideal)) V (D main_v62) = Cert.Spec.colVarOf (V (D main_v58)) (V (D main_c_19)) := by
  dsimp only [hostOps3_1]; after_results_simp; unfold Cert.Spec.colVarOf; fin
theorem rowMean2 (V : Val) : after (hostOps3_2 (F := Ideal)) V (D main_v63) = Cert.Spec.asRow (V (D main_v61)) := by
  dsimp only [hostOps3_2]; after_results_simp; exact Cert.LibReshape.shapeCast_eq_row _ _ _
theorem rowVar2 (V : Val) : after (hostOps3_2 (F := Ideal)) V (D main_v64) = Cert.Spec.asRow (V (D main_v62)) := by
  dsimp only [hostOps3_2]; after_results_simp; exact Cert.LibReshape.shapeCast_eq_row _ _ _
theorem rowGamma2 (V : Val) : after (hostOps3_2 (F := Ideal)) V (D main_v65) = Cert.Spec.asRow (V (D main_arg9)) := by
  dsimp only [hostOps3_2]; after_results_simp; exact Cert.LibReshape.shapeCast_eq_row _ _ _
theorem rowBeta2 (V : Val) : after (hostOps3_2 (F := Ideal)) V (D main_v66) = Cert.Spec.asRow (V (D main_arg10)) := by
  dsimp only [hostOps3_2]; after_results_simp; exact Cert.LibReshape.shapeCast_eq_row _ _ _

/-! ## The output layer: aggregate at 40 columns, the bias as a row -/

theorem agg3 (V : Val) : after (hostOps5 (F := Ideal)) V (D main_v82)
    = Cert.Spec.aggregate40 (V (D main_v69)) (V (D main_arg1)) (V (D main_arg2)) (V (D main_v19)) := by
  dsimp only [hostOps5]; after_results_simp
  unfold Cert.Spec.aggregate40 Cert.Spec.gatherIdx Cert.Spec.asColumn; rw [gather40_eq, scatter40_eq]; fin
theorem rowBias (V : Val) : after (hostOps5 (F := Ideal)) V (D main_v83) = Cert.Spec.asRow40 (V (D main_arg6)) := by
  dsimp only [hostOps5]; after_results_simp; exact Cert.LibReshape.shapeCast_eq_row _ _ _

end Cert.KernelIdeal.KHost

end
-- ==== Proof.KPass.lean ====
/-
  Buffers that pass untouched through stretches of the run. The program's buffers are each written by one segment
  only — a host operation writes its one result, a region writes its output array — so between the segment that
  wrote a buffer (or the launch, for an argument) and a later boundary its contents do not change. Each equation
  below walks the run's boundaries back one segment at a time: across a host stretch because none of its operations'
  results is the buffer, across a region because the buffer is none of the region's arrays.
-/
import proofs.«162067_j41154376630597_1_alg».proof.Proof.Gen.KernelIdeal.Frame
import Idealize.ShloMosaic.Lib.StableHlo.Run
import Idealize.ShloMosaic.PureOps.Ideal

set_option maxRecDepth 16384

noncomputable section

namespace Cert.KernelIdeal.KPass

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

/-- A stretch of host operations leaves a buffer as it was when none of its operations writes it: each operation's
    result is a different reference, decided one operation at a time. -/
local macro "not_written " ops:ident buf:ident : term =>
  `(StableHlo.after_of_forall_not_mem (b := Proc.devRef .tc $buf) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- `main_arg0` at boundary 5 is what it was at boundary 0: no segment between writes it. -/
theorem keep_arg0_5_0 : W5 (F := Ideal) m ρ c (Proc.devRef .tc main_arg0) = W0 m ρ c (Proc.devRef .tc main_arg0) :=
  calc W5 (F := Ideal) m ρ c (Proc.devRef .tc main_arg0)
    _ = W4 m ρ c (Proc.devRef .tc main_arg0) := not_written hostOps0_4 main_arg0
    _ = W3 m ρ c (Proc.devRef .tc main_arg0) := not_written hostOps0_3 main_arg0
    _ = W2 m ρ c (Proc.devRef .tc main_arg0) := not_written hostOps0_2 main_arg0
    _ = W1 m ρ c (Proc.devRef .tc main_arg0) := not_written hostOps0_1 main_arg0
    _ = W0 m ρ c (Proc.devRef .tc main_arg0) := not_written hostOps0 main_arg0

/-- `main_arg3` at boundary 5 is what it was at boundary 0: no segment between writes it. -/
theorem keep_arg3_5_0 : W5 (F := Ideal) m ρ c (Proc.devRef .tc main_arg3) = W0 m ρ c (Proc.devRef .tc main_arg3) :=
  calc W5 (F := Ideal) m ρ c (Proc.devRef .tc main_arg3)
    _ = W4 m ρ c (Proc.devRef .tc main_arg3) := not_written hostOps0_4 main_arg3
    _ = W3 m ρ c (Proc.devRef .tc main_arg3) := not_written hostOps0_3 main_arg3
    _ = W2 m ρ c (Proc.devRef .tc main_arg3) := not_written hostOps0_2 main_arg3
    _ = W1 m ρ c (Proc.devRef .tc main_arg3) := not_written hostOps0_1 main_arg3
    _ = W0 m ρ c (Proc.devRef .tc main_arg3) := not_written hostOps0 main_arg3

/-- `main_arg1` at boundary 6 is what it was at boundary 0: no segment between writes it. -/
theorem keep_arg1_6_0 : W6 (F := Ideal) m ρ c (Proc.devRef .tc main_arg1) = W0 m ρ c (Proc.devRef .tc main_arg1) :=
  calc W6 (F := Ideal) m ρ c (Proc.devRef .tc main_arg1)
    _ = W5 m ρ c (Proc.devRef .tc main_arg1) := W6_of_ne m ρ c main_arg1 (by decide)
    _ = W4 m ρ c (Proc.devRef .tc main_arg1) := not_written hostOps0_4 main_arg1
    _ = W3 m ρ c (Proc.devRef .tc main_arg1) := not_written hostOps0_3 main_arg1
    _ = W2 m ρ c (Proc.devRef .tc main_arg1) := not_written hostOps0_2 main_arg1
    _ = W1 m ρ c (Proc.devRef .tc main_arg1) := not_written hostOps0_1 main_arg1
    _ = W0 m ρ c (Proc.devRef .tc main_arg1) := not_written hostOps0 main_arg1

/-- `main_arg1` at boundary 12 is what it was at boundary 6: no segment between writes it. -/
theorem keep_arg1_12_6 : W12 (F := Ideal) m ρ c (Proc.devRef .tc main_arg1) = W6 m ρ c (Proc.devRef .tc main_arg1) :=
  calc W12 (F := Ideal) m ρ c (Proc.devRef .tc main_arg1)
    _ = W11 m ρ c (Proc.devRef .tc main_arg1) := W12_of_ne m ρ c main_arg1 (by decide)
    _ = W10 m ρ c (Proc.devRef .tc main_arg1) := not_written hostOps2 main_arg1
    _ = W9 m ρ c (Proc.devRef .tc main_arg1) := W10_of_ne m ρ c main_arg1 (by decide)
    _ = W8 m ρ c (Proc.devRef .tc main_arg1) := not_written hostOps1_2 main_arg1
    _ = W7 m ρ c (Proc.devRef .tc main_arg1) := not_written hostOps1_1 main_arg1
    _ = W6 m ρ c (Proc.devRef .tc main_arg1) := not_written hostOps1 main_arg1

/-- `main_arg1` at boundary 18 is what it was at boundary 12: no segment between writes it. -/
theorem keep_arg1_18_12 : W18 (F := Ideal) m ρ c (Proc.devRef .tc main_arg1) = W12 m ρ c (Proc.devRef .tc main_arg1) :=
  calc W18 (F := Ideal) m ρ c (Proc.devRef .tc main_arg1)
    _ = W17 m ρ c (Proc.devRef .tc main_arg1) := W18_of_ne m ρ c main_arg1 (by decide)
    _ = W16 m ρ c (Proc.devRef .tc main_arg1) := not_written hostOps4 main_arg1
    _ = W15 m ρ c (Proc.devRef .tc main_arg1) := W16_of_ne m ρ c main_arg1 (by decide)
    _ = W14 m ρ c (Proc.devRef .tc main_arg1) := not_written hostOps3_2 main_arg1
    _ = W13 m ρ c (Proc.devRef .tc main_arg1) := not_written hostOps3_1 main_arg1
    _ = W12 m ρ c (Proc.devRef .tc main_arg1) := not_written hostOps3 main_arg1

/-- `main_arg2` at boundary 2 is what it was at boundary 0: no segment between writes it. -/
theorem keep_arg2_2_0 : W2 (F := Ideal) m ρ c (Proc.devRef .tc main_arg2) = W0 m ρ c (Proc.devRef .tc main_arg2) :=
  calc W2 (F := Ideal) m ρ c (Proc.devRef .tc main_arg2)
    _ = W1 m ρ c (Proc.devRef .tc main_arg2) := not_written hostOps0_1 main_arg2
    _ = W0 m ρ c (Proc.devRef .tc main_arg2) := not_written hostOps0 main_arg2

/-- `main_arg2` at boundary 6 is what it was at boundary 2: no segment between writes it. -/
theorem keep_arg2_6_2 : W6 (F := Ideal) m ρ c (Proc.devRef .tc main_arg2) = W2 m ρ c (Proc.devRef .tc main_arg2) :=
  calc W6 (F := Ideal) m ρ c (Proc.devRef .tc main_arg2)
    _ = W5 m ρ c (Proc.devRef .tc main_arg2) := W6_of_ne m ρ c main_arg2 (by decide)
    _ = W4 m ρ c (Proc.devRef .tc main_arg2) := not_written hostOps0_4 main_arg2
    _ = W3 m ρ c (Proc.devRef .tc main_arg2) := not_written hostOps0_3 main_arg2
    _ = W2 m ρ c (Proc.devRef .tc main_arg2) := not_written hostOps0_2 main_arg2

/-- `main_arg2` at boundary 12 is what it was at boundary 6: no segment between writes it. -/
theorem keep_arg2_12_6 : W12 (F := Ideal) m ρ c (Proc.devRef .tc main_arg2) = W6 m ρ c (Proc.devRef .tc main_arg2) :=
  calc W12 (F := Ideal) m ρ c (Proc.devRef .tc main_arg2)
    _ = W11 m ρ c (Proc.devRef .tc main_arg2) := W12_of_ne m ρ c main_arg2 (by decide)
    _ = W10 m ρ c (Proc.devRef .tc main_arg2) := not_written hostOps2 main_arg2
    _ = W9 m ρ c (Proc.devRef .tc main_arg2) := W10_of_ne m ρ c main_arg2 (by decide)
    _ = W8 m ρ c (Proc.devRef .tc main_arg2) := not_written hostOps1_2 main_arg2
    _ = W7 m ρ c (Proc.devRef .tc main_arg2) := not_written hostOps1_1 main_arg2
    _ = W6 m ρ c (Proc.devRef .tc main_arg2) := not_written hostOps1 main_arg2

/-- `main_arg2` at boundary 18 is what it was at boundary 12: no segment between writes it. -/
theorem keep_arg2_18_12 : W18 (F := Ideal) m ρ c (Proc.devRef .tc main_arg2) = W12 m ρ c (Proc.devRef .tc main_arg2) :=
  calc W18 (F := Ideal) m ρ c (Proc.devRef .tc main_arg2)
    _ = W17 m ρ c (Proc.devRef .tc main_arg2) := W18_of_ne m ρ c main_arg2 (by decide)
    _ = W16 m ρ c (Proc.devRef .tc main_arg2) := not_written hostOps4 main_arg2
    _ = W15 m ρ c (Proc.devRef .tc main_arg2) := W16_of_ne m ρ c main_arg2 (by decide)
    _ = W14 m ρ c (Proc.devRef .tc main_arg2) := not_written hostOps3_2 main_arg2
    _ = W13 m ρ c (Proc.devRef .tc main_arg2) := not_written hostOps3_1 main_arg2
    _ = W12 m ρ c (Proc.devRef .tc main_arg2) := not_written hostOps3 main_arg2

/-- `main_v9` at boundary 4 is what it was at boundary 2: no segment between writes it. -/
theorem keep_v9_4_2 : W4 (F := Ideal) m ρ c (Proc.devRef .tc main_v9) = W2 m ρ c (Proc.devRef .tc main_v9) :=
  calc W4 (F := Ideal) m ρ c (Proc.devRef .tc main_v9)
    _ = W3 m ρ c (Proc.devRef .tc main_v9) := not_written hostOps0_3 main_v9
    _ = W2 m ρ c (Proc.devRef .tc main_v9) := not_written hostOps0_2 main_v9

/-- `main_v9` at boundary 10 is what it was at boundary 4: no segment between writes it. -/
theorem keep_v9_10_4 : W10 (F := Ideal) m ρ c (Proc.devRef .tc main_v9) = W4 m ρ c (Proc.devRef .tc main_v9) :=
  calc W10 (F := Ideal) m ρ c (Proc.devRef .tc main_v9)
    _ = W9 m ρ c (Proc.devRef .tc main_v9) := W10_of_ne m ρ c main_v9 (by decide)
    _ = W8 m ρ c (Proc.devRef .tc main_v9) := not_written hostOps1_2 main_v9
    _ = W7 m ρ c (Proc.devRef .tc main_v9) := not_written hostOps1_1 main_v9
    _ = W6 m ρ c (Proc.devRef .tc main_v9) := not_written hostOps1 main_v9
    _ = W5 m ρ c (Proc.devRef .tc main_v9) := W6_of_ne m ρ c main_v9 (by decide)
    _ = W4 m ρ c (Proc.devRef .tc main_v9) := not_written hostOps0_4 main_v9

/-- `main_v9` at boundary 16 is what it was at boundary 10: no segment between writes it. -/
theorem keep_v9_16_10 : W16 (F := Ideal) m ρ c (Proc.devRef .tc main_v9) = W10 m ρ c (Proc.devRef .tc main_v9) :=
  calc W16 (F := Ideal) m ρ c (Proc.devRef .tc main_v9)
    _ = W15 m ρ c (Proc.devRef .tc main_v9) := W16_of_ne m ρ c main_v9 (by decide)
    _ = W14 m ρ c (Proc.devRef .tc main_v9) := not_written hostOps3_2 main_v9
    _ = W13 m ρ c (Proc.devRef .tc main_v9) := not_written hostOps3_1 main_v9
    _ = W12 m ρ c (Proc.devRef .tc main_v9) := not_written hostOps3 main_v9
    _ = W11 m ρ c (Proc.devRef .tc main_v9) := W12_of_ne m ρ c main_v9 (by decide)
    _ = W10 m ρ c (Proc.devRef .tc main_v9) := not_written hostOps2 main_v9

/-- `main_v19` at boundary 6 is what it was at boundary 4: no segment between writes it. -/
theorem keep_v19_6_4 : W6 (F := Ideal) m ρ c (Proc.devRef .tc main_v19) = W4 m ρ c (Proc.devRef .tc main_v19) :=
  calc W6 (F := Ideal) m ρ c (Proc.devRef .tc main_v19)
    _ = W5 m ρ c (Proc.devRef .tc main_v19) := W6_of_ne m ρ c main_v19 (by decide)
    _ = W4 m ρ c (Proc.devRef .tc main_v19) := not_written hostOps0_4 main_v19

/-- `main_v19` at boundary 12 is what it was at boundary 6: no segment between writes it. -/
theorem keep_v19_12_6 : W12 (F := Ideal) m ρ c (Proc.devRef .tc main_v19) = W6 m ρ c (Proc.devRef .tc main_v19) :=
  calc W12 (F := Ideal) m ρ c (Proc.devRef .tc main_v19)
    _ = W11 m ρ c (Proc.devRef .tc main_v19) := W12_of_ne m ρ c main_v19 (by decide)
    _ = W10 m ρ c (Proc.devRef .tc main_v19) := not_written hostOps2 main_v19
    _ = W9 m ρ c (Proc.devRef .tc main_v19) := W10_of_ne m ρ c main_v19 (by decide)
    _ = W8 m ρ c (Proc.devRef .tc main_v19) := not_written hostOps1_2 main_v19
    _ = W7 m ρ c (Proc.devRef .tc main_v19) := not_written hostOps1_1 main_v19
    _ = W6 m ρ c (Proc.devRef .tc main_v19) := not_written hostOps1 main_v19

/-- `main_v19` at boundary 18 is what it was at boundary 12: no segment between writes it. -/
theorem keep_v19_18_12 : W18 (F := Ideal) m ρ c (Proc.devRef .tc main_v19) = W12 m ρ c (Proc.devRef .tc main_v19) :=
  calc W18 (F := Ideal) m ρ c (Proc.devRef .tc main_v19)
    _ = W17 m ρ c (Proc.devRef .tc main_v19) := W18_of_ne m ρ c main_v19 (by decide)
    _ = W16 m ρ c (Proc.devRef .tc main_v19) := not_written hostOps4 main_v19
    _ = W15 m ρ c (Proc.devRef .tc main_v19) := W16_of_ne m ρ c main_v19 (by decide)
    _ = W14 m ρ c (Proc.devRef .tc main_v19) := not_written hostOps3_2 main_v19
    _ = W13 m ρ c (Proc.devRef .tc main_v19) := not_written hostOps3_1 main_v19
    _ = W12 m ρ c (Proc.devRef .tc main_v19) := not_written hostOps3 main_v19

/-- `main_arg7` at boundary 8 is what it was at boundary 0: no segment between writes it. -/
theorem keep_arg7_8_0 : W8 (F := Ideal) m ρ c (Proc.devRef .tc main_arg7) = W0 m ρ c (Proc.devRef .tc main_arg7) :=
  calc W8 (F := Ideal) m ρ c (Proc.devRef .tc main_arg7)
    _ = W7 m ρ c (Proc.devRef .tc main_arg7) := not_written hostOps1_1 main_arg7
    _ = W6 m ρ c (Proc.devRef .tc main_arg7) := not_written hostOps1 main_arg7
    _ = W5 m ρ c (Proc.devRef .tc main_arg7) := W6_of_ne m ρ c main_arg7 (by decide)
    _ = W4 m ρ c (Proc.devRef .tc main_arg7) := not_written hostOps0_4 main_arg7
    _ = W3 m ρ c (Proc.devRef .tc main_arg7) := not_written hostOps0_3 main_arg7
    _ = W2 m ρ c (Proc.devRef .tc main_arg7) := not_written hostOps0_2 main_arg7
    _ = W1 m ρ c (Proc.devRef .tc main_arg7) := not_written hostOps0_1 main_arg7
    _ = W0 m ρ c (Proc.devRef .tc main_arg7) := not_written hostOps0 main_arg7

/-- `main_arg8` at boundary 8 is what it was at boundary 0: no segment between writes it. -/
theorem keep_arg8_8_0 : W8 (F := Ideal) m ρ c (Proc.devRef .tc main_arg8) = W0 m ρ c (Proc.devRef .tc main_arg8) :=
  calc W8 (F := Ideal) m ρ c (Proc.devRef .tc main_arg8)
    _ = W7 m ρ c (Proc.devRef .tc main_arg8) := not_written hostOps1_1 main_arg8
    _ = W6 m ρ c (Proc.devRef .tc main_arg8) := not_written hostOps1 main_arg8
    _ = W5 m ρ c (Proc.devRef .tc main_arg8) := W6_of_ne m ρ c main_arg8 (by decide)
    _ = W4 m ρ c (Proc.devRef .tc main_arg8) := not_written hostOps0_4 main_arg8
    _ = W3 m ρ c (Proc.devRef .tc main_arg8) := not_written hostOps0_3 main_arg8
    _ = W2 m ρ c (Proc.devRef .tc main_arg8) := not_written hostOps0_2 main_arg8
    _ = W1 m ρ c (Proc.devRef .tc main_arg8) := not_written hostOps0_1 main_arg8
    _ = W0 m ρ c (Proc.devRef .tc main_arg8) := not_written hostOps0 main_arg8

/-- `main_arg4` at boundary 11 is what it was at boundary 0: no segment between writes it. -/
theorem keep_arg4_11_0 : W11 (F := Ideal) m ρ c (Proc.devRef .tc main_arg4) = W0 m ρ c (Proc.devRef .tc main_arg4) :=
  calc W11 (F := Ideal) m ρ c (Proc.devRef .tc main_arg4)
    _ = W10 m ρ c (Proc.devRef .tc main_arg4) := not_written hostOps2 main_arg4
    _ = W9 m ρ c (Proc.devRef .tc main_arg4) := W10_of_ne m ρ c main_arg4 (by decide)
    _ = W8 m ρ c (Proc.devRef .tc main_arg4) := not_written hostOps1_2 main_arg4
    _ = W7 m ρ c (Proc.devRef .tc main_arg4) := not_written hostOps1_1 main_arg4
    _ = W6 m ρ c (Proc.devRef .tc main_arg4) := not_written hostOps1 main_arg4
    _ = W5 m ρ c (Proc.devRef .tc main_arg4) := W6_of_ne m ρ c main_arg4 (by decide)
    _ = W4 m ρ c (Proc.devRef .tc main_arg4) := not_written hostOps0_4 main_arg4
    _ = W3 m ρ c (Proc.devRef .tc main_arg4) := not_written hostOps0_3 main_arg4
    _ = W2 m ρ c (Proc.devRef .tc main_arg4) := not_written hostOps0_2 main_arg4
    _ = W1 m ρ c (Proc.devRef .tc main_arg4) := not_written hostOps0_1 main_arg4
    _ = W0 m ρ c (Proc.devRef .tc main_arg4) := not_written hostOps0 main_arg4

/-- `main_arg9` at boundary 14 is what it was at boundary 0: no segment between writes it. -/
theorem keep_arg9_14_0 : W14 (F := Ideal) m ρ c (Proc.devRef .tc main_arg9) = W0 m ρ c (Proc.devRef .tc main_arg9) :=
  calc W14 (F := Ideal) m ρ c (Proc.devRef .tc main_arg9)
    _ = W13 m ρ c (Proc.devRef .tc main_arg9) := not_written hostOps3_1 main_arg9
    _ = W12 m ρ c (Proc.devRef .tc main_arg9) := not_written hostOps3 main_arg9
    _ = W11 m ρ c (Proc.devRef .tc main_arg9) := W12_of_ne m ρ c main_arg9 (by decide)
    _ = W10 m ρ c (Proc.devRef .tc main_arg9) := not_written hostOps2 main_arg9
    _ = W9 m ρ c (Proc.devRef .tc main_arg9) := W10_of_ne m ρ c main_arg9 (by decide)
    _ = W8 m ρ c (Proc.devRef .tc main_arg9) := not_written hostOps1_2 main_arg9
    _ = W7 m ρ c (Proc.devRef .tc main_arg9) := not_written hostOps1_1 main_arg9
    _ = W6 m ρ c (Proc.devRef .tc main_arg9) := not_written hostOps1 main_arg9
    _ = W5 m ρ c (Proc.devRef .tc main_arg9) := W6_of_ne m ρ c main_arg9 (by decide)
    _ = W4 m ρ c (Proc.devRef .tc main_arg9) := not_written hostOps0_4 main_arg9
    _ = W3 m ρ c (Proc.devRef .tc main_arg9) := not_written hostOps0_3 main_arg9
    _ = W2 m ρ c (Proc.devRef .tc main_arg9) := not_written hostOps0_2 main_arg9
    _ = W1 m ρ c (Proc.devRef .tc main_arg9) := not_written hostOps0_1 main_arg9
    _ = W0 m ρ c (Proc.devRef .tc main_arg9) := not_written hostOps0 main_arg9

/-- `main_arg10` at boundary 14 is what it was at boundary 0: no segment between writes it. -/
theorem keep_arg10_14_0 : W14 (F := Ideal) m ρ c (Proc.devRef .tc main_arg10) = W0 m ρ c (Proc.devRef .tc main_arg10) :=
  calc W14 (F := Ideal) m ρ c (Proc.devRef .tc main_arg10)
    _ = W13 m ρ c (Proc.devRef .tc main_arg10) := not_written hostOps3_1 main_arg10
    _ = W12 m ρ c (Proc.devRef .tc main_arg10) := not_written hostOps3 main_arg10
    _ = W11 m ρ c (Proc.devRef .tc main_arg10) := W12_of_ne m ρ c main_arg10 (by decide)
    _ = W10 m ρ c (Proc.devRef .tc main_arg10) := not_written hostOps2 main_arg10
    _ = W9 m ρ c (Proc.devRef .tc main_arg10) := W10_of_ne m ρ c main_arg10 (by decide)
    _ = W8 m ρ c (Proc.devRef .tc main_arg10) := not_written hostOps1_2 main_arg10
    _ = W7 m ρ c (Proc.devRef .tc main_arg10) := not_written hostOps1_1 main_arg10
    _ = W6 m ρ c (Proc.devRef .tc main_arg10) := not_written hostOps1 main_arg10
    _ = W5 m ρ c (Proc.devRef .tc main_arg10) := W6_of_ne m ρ c main_arg10 (by decide)
    _ = W4 m ρ c (Proc.devRef .tc main_arg10) := not_written hostOps0_4 main_arg10
    _ = W3 m ρ c (Proc.devRef .tc main_arg10) := not_written hostOps0_3 main_arg10
    _ = W2 m ρ c (Proc.devRef .tc main_arg10) := not_written hostOps0_2 main_arg10
    _ = W1 m ρ c (Proc.devRef .tc main_arg10) := not_written hostOps0_1 main_arg10
    _ = W0 m ρ c (Proc.devRef .tc main_arg10) := not_written hostOps0 main_arg10

/-- `main_arg5` at boundary 17 is what it was at boundary 0: no segment between writes it. -/
theorem keep_arg5_17_0 : W17 (F := Ideal) m ρ c (Proc.devRef .tc main_arg5) = W0 m ρ c (Proc.devRef .tc main_arg5) :=
  calc W17 (F := Ideal) m ρ c (Proc.devRef .tc main_arg5)
    _ = W16 m ρ c (Proc.devRef .tc main_arg5) := not_written hostOps4 main_arg5
    _ = W15 m ρ c (Proc.devRef .tc main_arg5) := W16_of_ne m ρ c main_arg5 (by decide)
    _ = W14 m ρ c (Proc.devRef .tc main_arg5) := not_written hostOps3_2 main_arg5
    _ = W13 m ρ c (Proc.devRef .tc main_arg5) := not_written hostOps3_1 main_arg5
    _ = W12 m ρ c (Proc.devRef .tc main_arg5) := not_written hostOps3 main_arg5
    _ = W11 m ρ c (Proc.devRef .tc main_arg5) := W12_of_ne m ρ c main_arg5 (by decide)
    _ = W10 m ρ c (Proc.devRef .tc main_arg5) := not_written hostOps2 main_arg5
    _ = W9 m ρ c (Proc.devRef .tc main_arg5) := W10_of_ne m ρ c main_arg5 (by decide)
    _ = W8 m ρ c (Proc.devRef .tc main_arg5) := not_written hostOps1_2 main_arg5
    _ = W7 m ρ c (Proc.devRef .tc main_arg5) := not_written hostOps1_1 main_arg5
    _ = W6 m ρ c (Proc.devRef .tc main_arg5) := not_written hostOps1 main_arg5
    _ = W5 m ρ c (Proc.devRef .tc main_arg5) := W6_of_ne m ρ c main_arg5 (by decide)
    _ = W4 m ρ c (Proc.devRef .tc main_arg5) := not_written hostOps0_4 main_arg5
    _ = W3 m ρ c (Proc.devRef .tc main_arg5) := not_written hostOps0_3 main_arg5
    _ = W2 m ρ c (Proc.devRef .tc main_arg5) := not_written hostOps0_2 main_arg5
    _ = W1 m ρ c (Proc.devRef .tc main_arg5) := not_written hostOps0_1 main_arg5
    _ = W0 m ρ c (Proc.devRef .tc main_arg5) := not_written hostOps0 main_arg5

/-- `main_arg6` at boundary 18 is what it was at boundary 0: no segment between writes it. -/
theorem keep_arg6_18_0 : W18 (F := Ideal) m ρ c (Proc.devRef .tc main_arg6) = W0 m ρ c (Proc.devRef .tc main_arg6) :=
  calc W18 (F := Ideal) m ρ c (Proc.devRef .tc main_arg6)
    _ = W17 m ρ c (Proc.devRef .tc main_arg6) := W18_of_ne m ρ c main_arg6 (by decide)
    _ = W16 m ρ c (Proc.devRef .tc main_arg6) := not_written hostOps4 main_arg6
    _ = W15 m ρ c (Proc.devRef .tc main_arg6) := W16_of_ne m ρ c main_arg6 (by decide)
    _ = W14 m ρ c (Proc.devRef .tc main_arg6) := not_written hostOps3_2 main_arg6
    _ = W13 m ρ c (Proc.devRef .tc main_arg6) := not_written hostOps3_1 main_arg6
    _ = W12 m ρ c (Proc.devRef .tc main_arg6) := not_written hostOps3 main_arg6
    _ = W11 m ρ c (Proc.devRef .tc main_arg6) := W12_of_ne m ρ c main_arg6 (by decide)
    _ = W10 m ρ c (Proc.devRef .tc main_arg6) := not_written hostOps2 main_arg6
    _ = W9 m ρ c (Proc.devRef .tc main_arg6) := W10_of_ne m ρ c main_arg6 (by decide)
    _ = W8 m ρ c (Proc.devRef .tc main_arg6) := not_written hostOps1_2 main_arg6
    _ = W7 m ρ c (Proc.devRef .tc main_arg6) := not_written hostOps1_1 main_arg6
    _ = W6 m ρ c (Proc.devRef .tc main_arg6) := not_written hostOps1 main_arg6
    _ = W5 m ρ c (Proc.devRef .tc main_arg6) := W6_of_ne m ρ c main_arg6 (by decide)
    _ = W4 m ρ c (Proc.devRef .tc main_arg6) := not_written hostOps0_4 main_arg6
    _ = W3 m ρ c (Proc.devRef .tc main_arg6) := not_written hostOps0_3 main_arg6
    _ = W2 m ρ c (Proc.devRef .tc main_arg6) := not_written hostOps0_2 main_arg6
    _ = W1 m ρ c (Proc.devRef .tc main_arg6) := not_written hostOps0_1 main_arg6
    _ = W0 m ρ c (Proc.devRef .tc main_arg6) := not_written hostOps0 main_arg6

/-- `main_v34` at boundary 9 is what it was at boundary 7: no segment between writes it. -/
theorem keep_v34_9_7 : W9 (F := Ideal) m ρ c (Proc.devRef .tc main_v34) = W7 m ρ c (Proc.devRef .tc main_v34) :=
  calc W9 (F := Ideal) m ρ c (Proc.devRef .tc main_v34)
    _ = W8 m ρ c (Proc.devRef .tc main_v34) := not_written hostOps1_2 main_v34
    _ = W7 m ρ c (Proc.devRef .tc main_v34) := not_written hostOps1_1 main_v34

/-- `main_v37` at boundary 8 is what it was at boundary 7: no segment between writes it. -/
theorem keep_v37_8_7 : W8 (F := Ideal) m ρ c (Proc.devRef .tc main_v37) = W7 m ρ c (Proc.devRef .tc main_v37) :=
  not_written hostOps1_1 main_v37

/-- `main_v43` at boundary 11 is what it was at boundary 10: no segment between writes it. -/
theorem keep_v43_11_10 : W11 (F := Ideal) m ρ c (Proc.devRef .tc main_v43) = W10 m ρ c (Proc.devRef .tc main_v43) :=
  not_written hostOps2 main_v43

/-- `main_v58` at boundary 15 is what it was at boundary 13: no segment between writes it. -/
theorem keep_v58_15_13 : W15 (F := Ideal) m ρ c (Proc.devRef .tc main_v58) = W13 m ρ c (Proc.devRef .tc main_v58) :=
  calc W15 (F := Ideal) m ρ c (Proc.devRef .tc main_v58)
    _ = W14 m ρ c (Proc.devRef .tc main_v58) := not_written hostOps3_2 main_v58
    _ = W13 m ρ c (Proc.devRef .tc main_v58) := not_written hostOps3_1 main_v58

/-- `main_v61` at boundary 14 is what it was at boundary 13: no segment between writes it. -/
theorem keep_v61_14_13 : W14 (F := Ideal) m ρ c (Proc.devRef .tc main_v61) = W13 m ρ c (Proc.devRef .tc main_v61) :=
  not_written hostOps3_1 main_v61

/-- `main_v67` at boundary 17 is what it was at boundary 16: no segment between writes it. -/
theorem keep_v67_17_16 : W17 (F := Ideal) m ρ c (Proc.devRef .tc main_v67) = W16 m ρ c (Proc.devRef .tc main_v67) :=
  not_written hostOps4 main_v67

end Cert.KernelIdeal.KPass

end
-- ==== Proof.RegionIdx.lean ====
/-
  Index lemmas shared by the six regions' value modules: a whole-block store at zero offsets, the column and row
  broadcasts read at an index, and a plain [M,K] x [K,N] product's sum over its contraction index rewritten as a sum
  over the K coordinates.
-/
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

open scoped BigOperators

namespace Cert.KernelIdeal.RegionValue

open Idealize.ShloMosaic Idealize.ShloMosaic.ValueIdx

/-- The zero offsets of a rank-2 whole-block access. -/
theorem hz : (![0, 0] : Fin 2 → Nat) = fun _ => 0 := funext fun a => by fin_cases a <;> rfl

section Layout
variable {α : Type}

/-- A column `[a, 1]` broadcast along the rows' entries to `[a, b]` reads, at `(p, c)`, the column at row `p`. -/
theorem broadcastTo_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (axes kept in place) reads, at `(p, c)`, the column at row `p`. -/
theorem broadcastInDim_col_apply {a b : ℕ} (hbc : (⟨2, ![a, 1]⟩ : Shape).BroadcastsInDim ⟨2, ![a, b]⟩ ![0, 1])
    (y : (⟨2, ![a, 1]⟩ : Shape).Idx → α) (p : Fin a) (c : Fin b) :
    broadcastInDim ⟨2, ![a, b]⟩ ![0, 1] hbc y (ix2 p c) = y (ix2 p (0 : Fin 1)) := by
  refine broadcastInDim_apply ![0, 1] hbc y (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[n]` laid out as the one row of `[1, n]` reads, at `(0, c)`, the vector at `c`. -/
theorem broadcastInDim_asRow_apply {n : ℕ} (hbc : (⟨1, ![n]⟩ : Shape).BroadcastsInDim ⟨2, ![1, n]⟩ ![1])
    (y : (⟨1, ![n]⟩ : Shape).Idx → α) (c : Fin n) :
    broadcastInDim ⟨2, ![1, n]⟩ ![1] hbc y (ix2 (0 : Fin 1) c) = y (ix1 c) := by
  refine broadcastInDim_apply ![1] hbc y (ix2 (0 : Fin 1) c) (ix1 c) fun ax => ?_
  match ax with
  | ⟨0, _⟩ =>
    show c.val = if n = 1 then 0 else c.val
    split
    · have := c.isLt; omega
    · rfl

end Layout

section Dot
variable {M K N : ℕ} (wf : DotDims.WF ⟨2, ![M, K]⟩ ⟨2, ![K, N]⟩ ⟨2, ![M, N]⟩ [1] [0] [0] [1] [] [])

/-- The dimension numbers of a plain product `[M, K] × [K, N]`, whatever the evidence of their side conditions. -/
abbrev plainDot : DotDims ⟨2, ![M, K]⟩ ⟨2, ![K, N]⟩ ⟨2, ![M, N]⟩ := ⟨[1], [0], [0], [1], [], [], wf⟩

theorem plain_rank : (plainDot wf).contr.rank = 1 := by rw [DotDims.rank_contr]; rfl
theorem plain_size : (plainDot wf).contr.size ⟨0, by rw [plain_rank]; exact Nat.one_pos⟩ = K := by
  rw [DotDims.size_contr _ 0 (show 0 < ([1] : List (Fin 2)).length from Nat.one_pos)]; rfl

/-- The left operand's index at output `(r, j)` and contraction coordinate `k` is `(r, k)`. -/
theorem plain_lhsIdx (r : Fin M) (j : Fin N) (k : Fin K) :
    (plainDot wf).lhsIdx (ix2 r j) ((contrEquiv1 (plainDot wf) K (plain_rank wf) (plain_size wf)).symm k) = ix2 r k := by
  funext a; apply Fin.ext
  match a with
  | ⟨0, _⟩ => simp [DotDims.lhsIdx]; rfl
  | ⟨1, _⟩ =>
    exact ((plainDot wf).lhsIdx_val_of_single (cl := 1) rfl _ _).trans
      (contrEquiv1_symm_val (plainDot wf) K (plain_rank wf) (plain_size wf) k)

/-- The right operand's index at output `(r, j)` and contraction coordinate `k` is `(k, j)`. -/
theorem plain_rhsIdx (r : Fin M) (j : Fin N) (k : Fin K) :
    (plainDot wf).rhsIdx (ix2 r j) ((contrEquiv1 (plainDot wf) K (plain_rank wf) (plain_size wf)).symm k) = ix2 k j := by
  funext a; apply Fin.ext
  match a with
  | ⟨0, _⟩ =>
    exact ((plainDot wf).rhsIdx_val_of_single (cr := 0) rfl _ _).trans
      (contrEquiv1_symm_val (plainDot wf) K (plain_rank wf) (plain_size wf) k)
  | ⟨1, _⟩ => simp [DotDims.rhsIdx]; rfl

/-- A plain product's sum over its contraction index is the sum over the `K` coordinates of row times column. -/
theorem plain_sum (L : (⟨2, ![M, K]⟩ : Shape).Idx → EReal) (R : (⟨2, ![K, N]⟩ : Shape).Idx → EReal) (r : Fin M) (j : Fin N) :
    ∑ k : (plainDot wf).contr.Idx, L ((plainDot wf).lhsIdx (ix2 r j) k) * R ((plainDot wf).rhsIdx (ix2 r j) k)
      = ∑ k : Fin K, L (ix2 r k) * R (ix2 k j) := by
  rw [← Equiv.sum_comp (contrEquiv1 (plainDot wf) K (plain_rank wf) (plain_size wf)).symm]
  exact Finset.sum_congr rfl fun k _ => by rw [plain_lhsIdx, plain_rhsIdx]

end Dot

end Cert.KernelIdeal.RegionValue

end
-- ==== Proof.RegionMatmul.lean ====
/-
  The three product regions: every point multiplies its 5000 rows of the [100000, 128] array, each row scaled by its
  entry of the [100000, 1] column, into the resident [128, C] weight (C = 128 twice, 40 once), accumulating from zero.
  Point t's block of a row-tiled array is rows 5000 t … 5000 t + 4999 (all columns), the weight's block the whole
  weight; so what a point writes back is the restriction to its rows of ONE function of the arrays the region finds —
  entry (r, j) is the sum over k < 128 of h r k · n r · W k j — and the twenty blocks cover the array (row r lies in the
  block of point r / 5000). The host's product read at an index is the same sum over the same 128 coordinates, so that
  function is the specification's scaled product; no law of arithmetic beyond reading both as one sum is used.
-/
import proofs.«162067_j41154376630597_1_alg».proof.Proof.Gen.KernelIdeal.Frame
import proofs.«162067_j41154376630597_1_alg».proof.Proof.Gen.ReferenceIdeal
import proofs.«162067_j41154376630597_1_alg».proof.Proof.Spec
import proofs.«162067_j41154376630597_1_alg».proof.Proof.RegionIdx
import Idealize.ShloMosaic.Lib.Pipeline.Value
import Idealize.ShloMosaic.Lib.ValueIdx
import Idealize.ShloMosaic.Lib.ValueLayout

set_option maxRecDepth 16384

noncomputable section

open scoped BigOperators

namespace Cert.KernelIdeal.RegionValue

open Idealize.ShloMosaic Idealize.ShloMosaic.TcCoe Cert.KernelIdeal Cert.KernelIdeal.Gen
open Idealize.ShloMosaic.Pipeline (Dat)
open Idealize.ShloMosaic.ValueIdx

variable (V : (c : Dev nD) → (b : Ref sig .tc) → Buf (Elt Ideal) ((c : Thread nD τ).loc b))

/-- The specification's scaled product (128 output columns) at an index: the same sum over the 128 contracted
    coordinates (the host's product has no accumulator). -/
theorem scaleMatmul_apply (h : Cert.Spec.FA Cert.ReferenceIdeal.S100000x128) (n : Cert.Spec.FA Cert.ReferenceIdeal.S100000x1)
    (W : Cert.Spec.FA Cert.ReferenceIdeal.S128x128) (r : Fin 100000) (j : Fin 128) :
    Cert.Spec.scaleMatmul h n W (ix2 r j) = ∑ k : Fin 128, h (ix2 r k) * n (ix2 r (0 : Fin 1)) * W (ix2 k j) := by
  unfold Cert.Spec.scaleMatmul
  refine (Ideal.dotGeneral_apply Cert.ReferenceIdeal.dot_S100000x128_S128x128_S100000x128_1_0_0_1_n_n none _ _ _ (ix2 r j)).trans ?_
  refine (plain_sum Cert.ReferenceIdeal.Facts₀.dot_S100000x128_S128x128_S100000x128_1_0_0_1_n_n_wf _ _ r j).trans ?_
  refine Finset.sum_congr rfl fun k _ => ?_
  exact congrArg (· * W (ix2 k j)) (congrArg (h (ix2 r k) * ·)
    (broadcastInDim_col_apply Cert.ReferenceIdeal.Facts₀.bcast_S100000x1_S100000x128_0_1 n r k))

/-- The specification's scaled product with 40 output columns at an index. -/
theorem scaleMatmul40_apply (h : Cert.Spec.FA Cert.ReferenceIdeal.S100000x128) (n : Cert.Spec.FA Cert.ReferenceIdeal.S100000x1)
    (W : Cert.Spec.FA Cert.ReferenceIdeal.S128x40) (r : Fin 100000) (j : Fin 40) :
    Cert.Spec.scaleMatmul40 h n W (ix2 r j) = ∑ k : Fin 128, h (ix2 r k) * n (ix2 r (0 : Fin 1)) * W (ix2 k j) := by
  unfold Cert.Spec.scaleMatmul40
  refine (Ideal.dotGeneral_apply Cert.ReferenceIdeal.dot_S100000x128_S128x40_S100000x40_1_0_0_1_n_n none _ _ _ (ix2 r j)).trans ?_
  refine (plain_sum Cert.ReferenceIdeal.Facts₀.dot_S100000x128_S128x40_S100000x40_1_0_0_1_n_n_wf _ _ r j).trans ?_
  refine Finset.sum_congr rfl fun k _ => ?_
  exact congrArg (· * W (ix2 k j)) (congrArg (h (ix2 r k) * ·)
    (broadcastInDim_col_apply Cert.ReferenceIdeal.Facts₀.bcast_S100000x1_S100000x128_0_1 n r k))

/-! ## Region 0 -/

/-- The product body of region 0 at an index: the sum over the 128 contracted coordinates of the scaled row's entry
    times the weight's (the conversions to the narrower format are the identity on the extended reals, and the
    accumulator is zero). -/
theorem mm0_pay (x0 : Vec Ideal S5000x128 .f32) (x1 : Vec Ideal S5000x1 .f32) (x2 : Vec Ideal S128x128 .f32) (r : Fin 5000) (j : Fin 128) :
    k0_pay1 x0 x1 x2 (ix2 r j) = ∑ k : Fin 128, x0 (ix2 r k) * x1 (ix2 r (0 : Fin 1)) * x2 (ix2 k j) := by
  unfold k0_pay1
  simp only [shapeCast_self]
  refine (Ideal.matmul_constant_zero_apply dot_S5000x128_S128x128_S5000x128_1_0_0_1_n_n none _ _ (ix2 r j)).trans ?_
  refine (plain_sum Facts₀.dot_S5000x128_S128x128_S5000x128_1_0_0_1_n_n_wf _ _ r j).trans ?_
  refine Finset.sum_congr rfl fun k _ => ?_
  exact congrArg (· * x2 (ix2 k j)) (congrArg (x0 (ix2 r k) * ·) (broadcastTo_col_apply x1 broadcasts_S5000x1_S5000x128 r k))

theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` of region 0 writes back is rows `5000 t … 5000 t + 4999` of the scaled product of the arrays the
    region finds. -/
theorem flushed0 (c : Dev nD) (t : Fin cfg0.N) :
    (dat0 (F := Ideal) V c).flushed 3 t
      = ((cfg0.win 3).blk t).view.read (Elt Ideal) (Cert.Spec.scaleMatmul (V c main_arg0) (V c main_v20) (V c main_arg3)) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz, View.ld_unit_zero (S := S128x128) hz]
  obtain ⟨e00, e01, e10, e11, e20, e21, e30, e31⟩ := idx_facts0 t
  have ht : t.val < 20 := lt_of_lt_of_eq t.isLt (show cfg0.N = 20 from N_0)
  funext y
  obtain ⟨r, j, rfl⟩ : ∃ (r : Fin 5000) (j : Fin 128), y = ix2 r j := ⟨y 0, y 1, eq_ix2 y⟩
  have hr : r.val < 5000 := r.isLt
  have hemb : ((cfg0.win 3).blk t).view.emb (ix2 r j) = ix2 (⟨5000 * t.val + r.val, by omega⟩ : Fin 100000) j := by
    funext a; apply Fin.ext
    match a with
    | ⟨0, _⟩ => show win0_3.index t (0 : Fin 2) * 5000 + 1 * r.val = 5000 * t.val + r.val; rw [e30]; omega
    | ⟨1, _⟩ => show win0_3.index t (1 : Fin 2) * 128 + 1 * j.val = j.val; rw [e31]; omega
  have h0 : ∀ k : Fin 128, iblk0 V c 0 t (ix2 r k) = V c main_arg0 (ix2 (⟨5000 * t.val + r.val, by omega⟩ : Fin 100000) k) := by
    intro k
    show V c main_arg0 (((cfg0.win 0).blk t).view.emb (ix2 r k)) = _
    refine congrArg (V c main_arg0) ?_
    funext a; apply Fin.ext
    match a with
    | ⟨0, _⟩ => show win0_0.index t (0 : Fin 2) * 5000 + 1 * r.val = 5000 * t.val + r.val; rw [e00]; omega
    | ⟨1, _⟩ => show win0_0.index t (1 : Fin 2) * 128 + 1 * k.val = k.val; rw [e01]; omega
  have h1 : iblk0 V c 1 t (ix2 r (0 : Fin 1)) = V c main_v20 (ix2 (⟨5000 * t.val + r.val, by omega⟩ : Fin 100000) (0 : Fin 1)) := by
    show V c main_v20 (((cfg0.win 1).blk t).view.emb (ix2 r (0 : Fin 1))) = _
    refine congrArg (V c main_v20) ?_
    funext a; apply Fin.ext
    match a with
    | ⟨0, _⟩ => show win0_1.index t (0 : Fin 2) * 5000 + 1 * r.val = 5000 * t.val + r.val; rw [e10]; omega
    | ⟨1, _⟩ => show win0_1.index t (1 : Fin 2) * 1 + 1 * 0 = 0; rw [e11]
  have h2 : ∀ k : Fin 128, iblk0 V c 2 t (ix2 k j) = V c main_arg3 (ix2 k j) := by
    intro k
    show V c main_arg3 (((cfg0.win 2).blk t).view.emb (ix2 k j)) = _
    refine congrArg (V c main_arg3) ?_
    funext a; apply Fin.ext
    match a with
    | ⟨0, _⟩ => show win0_2.index t (0 : Fin 2) * 128 + 1 * k.val = k.val; rw [e20]; omega
    | ⟨1, _⟩ => show win0_2.index t (1 : Fin 2) * 128 + 1 * j.val = j.val; rw [e21]; omega
  show k0_pay1 (iblk0 V c 0 t) (iblk0 V c 1 t) (iblk0 V c 2 t) (ix2 r j)
    = Cert.Spec.scaleMatmul (V c main_arg0) (V c main_v20) (V c main_arg3) (((cfg0.win 3).blk t).view.emb (ix2 r j))
  refine (mm0_pay (iblk0 V c 0 t) (iblk0 V c 1 t) (iblk0 V c 2 t) r j).trans ?_
  refine Eq.trans ?_ (congrArg (Cert.Spec.scaleMatmul (V c main_arg0) (V c main_v20) (V c main_arg3)) hemb).symm
  refine Eq.trans ?_ (scaleMatmul_apply (V c main_arg0) (V c main_v20) (V c main_arg3) _ j).symm
  refine Finset.sum_congr rfl fun k _ => ?_
  rw [h0 k, h1, h2 k]

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v21).slice (win0_3.rect t)).set ↔ _
  rw [View.set_slice_whole, Rect.mem_set_unit]
  exact Iff.rfl

/-- Row `r` is in the block of point `r / 5000`: the blocks cover the array. -/
theorem cover0 (i : S100000x128.Idx) : ∃ t : Fin cfg0.N, (cfg0.win 3).flush t = true ∧ i ∈ ((cfg0.win 3).blk t).view.set := by
  have hi0 : (i 0).val < 100000 := idx2_lt0 i
  have hi1 : (i 1).val < 128 := idx2_lt1 i
  have hN : cfg0.N = 20 := N_0
  let t : Fin cfg0.N := ⟨(i 0).val / 5000, by rw [hN]; omega⟩
  obtain ⟨-, -, -, -, -, -, e30, e31⟩ := idx_facts0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e30]; show (i 0).val / 5000 * 5000 ≤ (i 0).val ∧ (i 0).val < (i 0).val / 5000 * 5000 + 5000; omega
  | ⟨1, _⟩ =>
    show win0_3.index t (1 : Fin 2) * 128 ≤ (i 1).val ∧ (i 1).val < win0_3.index t (1 : Fin 2) * 128 + 128
    rw [e31]; omega

/-- Region 0 leaves the scaled product of the arrays it finds. -/
theorem region0 (c : Dev nD) :
    (dat0 (F := Ideal) V c).arrAt 3 cfg0.N = Cert.Spec.scaleMatmul (V c main_arg0) (V c main_v20) (V c main_arg3) :=
  (dat0 (F := Ideal) V c).arrAt_eq_of_cover 3 (Cert.Spec.scaleMatmul (V c main_arg0) (V c main_v20) (V c main_arg3))
    (fun t _ => flushed0 V c t) cover0

/-! ## Region 2 -/

/-- The product body of region 2 at an index: the sum over the 128 contracted coordinates of the scaled row's entry
    times the weight's (the conversions to the narrower format are the identity on the extended reals, and the
    accumulator is zero). -/
theorem mm2_pay (x0 : Vec Ideal S5000x128 .f32) (x1 : Vec Ideal S5000x1 .f32) (x2 : Vec Ideal S128x128 .f32) (r : Fin 5000) (j : Fin 128) :
    k2_pay1 x0 x1 x2 (ix2 r j) = ∑ k : Fin 128, x0 (ix2 r k) * x1 (ix2 r (0 : Fin 1)) * x2 (ix2 k j) := by
  unfold k2_pay1
  simp only [shapeCast_self]
  refine (Ideal.matmul_constant_zero_apply dot_S5000x128_S128x128_S5000x128_1_0_0_1_n_n none _ _ (ix2 r j)).trans ?_
  refine (plain_sum Facts₀.dot_S5000x128_S128x128_S5000x128_1_0_0_1_n_n_wf _ _ r j).trans ?_
  refine Finset.sum_congr rfl fun k _ => ?_
  exact congrArg (· * x2 (ix2 k j)) (congrArg (x0 (ix2 r k) * ·) (broadcastTo_col_apply x1 broadcasts_S5000x1_S5000x128 r k))

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` of region 2 writes back is rows `5000 t … 5000 t + 4999` of the scaled product of the arrays the
    region finds. -/
theorem flushed2 (c : Dev nD) (t : Fin cfg2.N) :
    (dat2 (F := Ideal) V c).flushed 3 t
      = ((cfg2.win 3).blk t).view.read (Elt Ideal) (Cert.Spec.scaleMatmul (V c main_v43) (V c main_v44) (V c main_arg4)) := by
  show (cfg2.win 3).cut (grid2.coords t) ((dat2 V c).after 3 t) = _
  rw [after2_3]
  unfold out2_3
  rw [View.canon_unit_zero hz]
  simp only [View.ld_unit_zero (S := S5000x128) hz, View.ld_unit_zero (S := S5000x1) hz, View.ld_unit_zero (S := S128x128) hz]
  obtain ⟨e00, e01, e10, e11, e20, e21, e30, e31⟩ := idx_facts2 t
  have ht : t.val < 20 := lt_of_lt_of_eq t.isLt (show cfg2.N = 20 from N_2)
  funext y
  obtain ⟨r, j, rfl⟩ : ∃ (r : Fin 5000) (j : Fin 128), y = ix2 r j := ⟨y 0, y 1, eq_ix2 y⟩
  have hr : r.val < 5000 := r.isLt
  have hemb : ((cfg2.win 3).blk t).view.emb (ix2 r j) = ix2 (⟨5000 * t.val + r.val, by omega⟩ : Fin 100000) j := by
    funext a; apply Fin.ext
    match a with
    | ⟨0, _⟩ => show win2_3.index t (0 : Fin 2) * 5000 + 1 * r.val = 5000 * t.val + r.val; rw [e30]; omega
    | ⟨1, _⟩ => show win2_3.index t (1 : Fin 2) * 128 + 1 * j.val = j.val; rw [e31]; omega
  have h0 : ∀ k : Fin 128, iblk2 V c 0 t (ix2 r k) = V c main_v43 (ix2 (⟨5000 * t.val + r.val, by omega⟩ : Fin 100000) k) := by
    intro k
    show V c main_v43 (((cfg2.win 0).blk t).view.emb (ix2 r k)) = _
    refine congrArg (V c main_v43) ?_
    funext a; apply Fin.ext
    match a with
    | ⟨0, _⟩ => show win2_0.index t (0 : Fin 2) * 5000 + 1 * r.val = 5000 * t.val + r.val; rw [e00]; omega
    | ⟨1, _⟩ => show win2_0.index t (1 : Fin 2) * 128 + 1 * k.val = k.val; rw [e01]; omega
  have h1 : iblk2 V c 1 t (ix2 r (0 : Fin 1)) = V c main_v44 (ix2 (⟨5000 * t.val + r.val, by omega⟩ : Fin 100000) (0 : Fin 1)) := by
    show V c main_v44 (((cfg2.win 1).blk t).view.emb (ix2 r (0 : Fin 1))) = _
    refine congrArg (V c main_v44) ?_
    funext a; apply Fin.ext
    match a with
    | ⟨0, _⟩ => show win2_1.index t (0 : Fin 2) * 5000 + 1 * r.val = 5000 * t.val + r.val; rw [e10]; omega
    | ⟨1, _⟩ => show win2_1.index t (1 : Fin 2) * 1 + 1 * 0 = 0; rw [e11]
  have h2 : ∀ k : Fin 128, iblk2 V c 2 t (ix2 k j) = V c main_arg4 (ix2 k j) := by
    intro k
    show V c main_arg4 (((cfg2.win 2).blk t).view.emb (ix2 k j)) = _
    refine congrArg (V c main_arg4) ?_
    funext a; apply Fin.ext
    match a with
    | ⟨0, _⟩ => show win2_2.index t (0 : Fin 2) * 128 + 1 * k.val = k.val; rw [e20]; omega
    | ⟨1, _⟩ => show win2_2.index t (1 : Fin 2) * 128 + 1 * j.val = j.val; rw [e21]; omega
  show k2_pay1 (iblk2 V c 0 t) (iblk2 V c 1 t) (iblk2 V c 2 t) (ix2 r j)
    = Cert.Spec.scaleMatmul (V c main_v43) (V c main_v44) (V c main_arg4) (((cfg2.win 3).blk t).view.emb (ix2 r j))
  refine (mm2_pay (iblk2 V c 0 t) (iblk2 V c 1 t) (iblk2 V c 2 t) r j).trans ?_
  refine Eq.trans ?_ (congrArg (Cert.Spec.scaleMatmul (V c main_v43) (V c main_v44) (V c main_arg4)) hemb).symm
  refine Eq.trans ?_ (scaleMatmul_apply (V c main_v43) (V c main_v44) (V c main_arg4) _ j).symm
  refine Finset.sum_congr rfl fun k _ => ?_
  rw [h0 k, h1, h2 k]

/-- An index of the array is in point `t`'s block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v45).slice (win2_3.rect t)).set ↔ _
  rw [View.set_slice_whole, Rect.mem_set_unit]
  exact Iff.rfl

/-- Row `r` is in the block of point `r / 5000`: the blocks cover the array. -/
theorem cover2 (i : S100000x128.Idx) : ∃ t : Fin cfg2.N, (cfg2.win 3).flush t = true ∧ i ∈ ((cfg2.win 3).blk t).view.set := by
  have hi0 : (i 0).val < 100000 := idx2_lt0 i
  have hi1 : (i 1).val < 128 := idx2_lt1 i
  have hN : cfg2.N = 20 := N_2
  let t : Fin cfg2.N := ⟨(i 0).val / 5000, by rw [hN]; omega⟩
  obtain ⟨-, -, -, -, -, -, e30, e31⟩ := idx_facts2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    rw [e30]; show (i 0).val / 5000 * 5000 ≤ (i 0).val ∧ (i 0).val < (i 0).val / 5000 * 5000 + 5000; omega
  | ⟨1, _⟩ =>
    show win2_3.index t (1 : Fin 2) * 128 ≤ (i 1).val ∧ (i 1).val < win2_3.index t (1 : Fin 2) * 128 + 128
    rw [e31]; omega

/-- Region 2 leaves the scaled product of the arrays it finds. -/
theorem region2 (c : Dev nD) :
    (dat2 (F := Ideal) V c).arrAt 3 cfg2.N = Cert.Spec.scaleMatmul (V c main_v43) (V c main_v44) (V c main_arg4) :=
  (dat2 (F := Ideal) V c).arrAt_eq_of_cover 3 (Cert.Spec.scaleMatmul (V c main_v43) (V c main_v44) (V c main_arg4))
    (fun t _ => flushed2 V c t) cover2

/-! ## Region 4 -/

/-- The product body of region 4 at an index: the sum over the 128 contracted coordinates of the scaled row's entry
    times the weight's (the conversions to the narrower format are the identity on the extended reals, and the
    accumulator is zero). -/
theorem mm4_pay (x0 : Vec Ideal S5000x128 .f32) (x1 : Vec Ideal S5000x1 .f32) (x2 : Vec Ideal S128x40 .f32) (r : Fin 5000) (j : Fin 40) :
    k4_pay1 x0 x1 x2 (ix2 r j) = ∑ k : Fin 128, x0 (ix2 r k) * x1 (ix2 r (0 : Fin 1)) * x2 (ix2 k j) := by
  unfold k4_pay1
  simp only [shapeCast_self]
  refine (Ideal.matmul_constant_zero_apply dot_S5000x128_S128x40_S5000x40_1_0_0_1_n_n none _ _ (ix2 r j)).trans ?_
  refine (plain_sum Facts₀.dot_S5000x128_S128x40_S5000x40_1_0_0_1_n_n_wf _ _ r j).trans ?_
  refine Finset.sum_congr rfl fun k _ => ?_
  exact congrArg (· * x2 (ix2 k j)) (congrArg (x0 (ix2 r k) * ·) (broadcastTo_col_apply x1 broadcasts_S5000x1_S5000x128 r k))

theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point `t` of region 4 writes back is rows `5000 t … 5000 t + 4999` of the scaled product of the arrays the
    region finds. -/
theorem flushed4 (c : Dev nD) (t : Fin cfg4.N) :
    (dat4 (F := Ideal) V c).flushed 3 t
      = ((cfg4.win 3).blk t).view.read (Elt Ideal) (Cert.Spec.scaleMatmul40 (V c main_v67) (V c main_v68) (V c main_arg5)) := by
  show (cfg4.win 3).cut (grid4.coords t) ((dat4 V c).after 3 t) = _
  rw [after4_3]
  unfold out4_3
  rw [View.canon_unit_zero hz]
  simp only [View.ld_unit_zero (S := S5000x128) hz, View.ld_unit_zero (S := S5000x1) hz, View.ld_unit_zero (S := S128x40) hz]
  obtain ⟨e00, e01, e10, e11, e20, e21, e30, e31⟩ := idx_facts4 t
  have ht : t.val < 20 := lt_of_lt_of_eq t.isLt (show cfg4.N = 20 from N_4)
  funext y
  obtain ⟨r, j, rfl⟩ : ∃ (r : Fin 5000) (j : Fin 40), y = ix2 r j := ⟨y 0, y 1, eq_ix2 y⟩
  have hr : r.val < 5000 := r.isLt
  have hemb : ((cfg4.win 3).blk t).view.emb (ix2 r j) = ix2 (⟨5000 * t.val + r.val, by omega⟩ : Fin 100000) j := by
    funext a; apply Fin.ext
    match a with
    | ⟨0, _⟩ => show win4_3.index t (0 : Fin 2) * 5000 + 1 * r.val = 5000 * t.val + r.val; rw [e30]; omega
    | ⟨1, _⟩ => show win4_3.index t (1 : Fin 2) * 40 + 1 * j.val = j.val; rw [e31]; omega
  have h0 : ∀ k : Fin 128, iblk4 V c 0 t (ix2 r k) = V c main_v67 (ix2 (⟨5000 * t.val + r.val, by omega⟩ : Fin 100000) k) := by
    intro k
    show V c main_v67 (((cfg4.win 0).blk t).view.emb (ix2 r k)) = _
    refine congrArg (V c main_v67) ?_
    funext a; apply Fin.ext
    match a with
    | ⟨0, _⟩ => show win4_0.index t (0 : Fin 2) * 5000 + 1 * r.val = 5000 * t.val + r.val; rw [e00]; omega
    | ⟨1, _⟩ => show win4_0.index t (1 : Fin 2) * 128 + 1 * k.val = k.val; rw [e01]; omega
  have h1 : iblk4 V c 1 t (ix2 r (0 : Fin 1)) = V c main_v68 (ix2 (⟨5000 * t.val + r.val, by omega⟩ : Fin 100000) (0 : Fin 1)) := by
    show V c main_v68 (((cfg4.win 1).blk t).view.emb (ix2 r (0 : Fin 1))) = _
    refine congrArg (V c main_v68) ?_
    funext a; apply Fin.ext
    match a with
    | ⟨0, _⟩ => show win4_1.index t (0 : Fin 2) * 5000 + 1 * r.val = 5000 * t.val + r.val; rw [e10]; omega
    | ⟨1, _⟩ => show win4_1.index t (1 : Fin 2) * 1 + 1 * 0 = 0; rw [e11]
  have h2 : ∀ k : Fin 128, iblk4 V c 2 t (ix2 k j) = V c main_arg5 (ix2 k j) := by
    intro k
    show V c main_arg5 (((cfg4.win 2).blk t).view.emb (ix2 k j)) = _
    refine congrArg (V c main_arg5) ?_
    funext a; apply Fin.ext
    match a with
    | ⟨0, _⟩ => show win4_2.index t (0 : Fin 2) * 128 + 1 * k.val = k.val; rw [e20]; omega
    | ⟨1, _⟩ => show win4_2.index t (1 : Fin 2) * 40 + 1 * j.val = j.val; rw [e21]; omega
  show k4_pay1 (iblk4 V c 0 t) (iblk4 V c 1 t) (iblk4 V c 2 t) (ix2 r j)
    = Cert.Spec.scaleMatmul40 (V c main_v67) (V c main_v68) (V c main_arg5) (((cfg4.win 3).blk t).view.emb (ix2 r j))
  refine (mm4_pay (iblk4 V c 0 t) (iblk4 V c 1 t) (iblk4 V c 2 t) r j).trans ?_
  refine Eq.trans ?_ (congrArg (Cert.Spec.scaleMatmul40 (V c main_v67) (V c main_v68) (V c main_arg5)) hemb).symm
  refine Eq.trans ?_ (scaleMatmul40_apply (V c main_v67) (V c main_v68) (V c main_arg5) _ j).symm
  refine Finset.sum_congr rfl fun k _ => ?_
  rw [h0 k, h1, h2 k]

/-- An index of the array is in point `t`'s block iff each coordinate is in the block's range on its axis. -/
theorem mem_blk4 (t : Fin cfg4.N) (i : S100000x40.Idx) :
    i ∈ ((cfg4.win 3).blk t).view.set ↔ ∀ a : Fin 2, win4_3.index t a * S5000x40.size a ≤ (i a).val ∧ (i a).val < win4_3.index t a * S5000x40.size a + S5000x40.size a := by
  show i ∈ ((View.whole main_v69).slice (win4_3.rect t)).set ↔ _
  rw [View.set_slice_whole, Rect.mem_set_unit]
  exact Iff.rfl

/-- Row `r` is in the block of point `r / 5000`: the blocks cover the array. -/
theorem cover4 (i : S100000x40.Idx) : ∃ t : Fin cfg4.N, (cfg4.win 3).flush t = true ∧ i ∈ ((cfg4.win 3).blk t).view.set := by
  have hi0 : (i 0).val < 100000 := idx2_lt0 i
  have hi1 : (i 1).val < 40 := idx2_lt1 i
  have hN : cfg4.N = 20 := N_4
  let t : Fin cfg4.N := ⟨(i 0).val / 5000, by rw [hN]; omega⟩
  obtain ⟨-, -, -, -, -, -, e30, e31⟩ := idx_facts4 t
  refine ⟨t, flush4_3 t, ?_⟩
  rw [mem_blk4]
  intro a
  match a with
  | ⟨0, _⟩ =>
    show win4_3.index t (0 : Fin 2) * 5000 ≤ (i 0).val ∧ (i 0).val < win4_3.index t (0 : Fin 2) * 5000 + 5000
    rw [e30]; show (i 0).val / 5000 * 5000 ≤ (i 0).val ∧ (i 0).val < (i 0).val / 5000 * 5000 + 5000; omega
  | ⟨1, _⟩ =>
    show win4_3.index t (1 : Fin 2) * 40 ≤ (i 1).val ∧ (i 1).val < win4_3.index t (1 : Fin 2) * 40 + 40
    rw [e31]; omega

/-- Region 4 leaves the scaled product of the arrays it finds. -/
theorem region4 (c : Dev nD) :
    (dat4 (F := Ideal) V c).arrAt 3 cfg4.N = Cert.Spec.scaleMatmul40 (V c main_v67) (V c main_v68) (V c main_arg5) :=
  (dat4 (F := Ideal) V c).arrAt_eq_of_cover 3 (Cert.Spec.scaleMatmul40 (V c main_v67) (V c main_v68) (V c main_arg5))
    (fun t _ => flushed4 V c t) cover4

end Cert.KernelIdeal.RegionValue

end
-- ==== Proof.RegionNorm.lean ====
/-
  The two normalisation regions: every point takes its 5000 rows of the [100000, 128] array through
  max((h − μ) · (σ² + ε)^(-1/2) · γ + β, 0), the four per-column rows resident as [1, 128] arrays. Point t's block of
  the array is rows 5000 t … 5000 t + 4999 (all 128 columns), each row window's block the whole row; so what a point
  writes back is the restriction to its rows of ONE function of the arrays the region finds, and the twenty blocks cover
  the array (row r lies in the block of point r / 5000). Every operation is entry by entry — the body's reciprocal
  square root and the host's are one function on the extended reals, and both sides read a row at its column — so that
  function is the specification's normalisation stage, index by index.
-/
import proofs.«162067_j41154376630597_1_alg».proof.Proof.Gen.KernelIdeal.Frame
import proofs.«162067_j41154376630597_1_alg».proof.Proof.Gen.ReferenceIdeal
import proofs.«162067_j41154376630597_1_alg».proof.Proof.Spec
import proofs.«162067_j41154376630597_1_alg».proof.Proof.RegionIdx
import Idealize.ShloMosaic.Lib.Pipeline.Value
import Idealize.ShloMosaic.Lib.ValueIdx
import Idealize.ShloMosaic.Lib.ValueLayout

set_option maxRecDepth 16384

noncomputable section

open scoped BigOperators

namespace Cert.KernelIdeal.RegionValue

open Idealize.ShloMosaic Idealize.ShloMosaic.TcCoe Cert.KernelIdeal Cert.KernelIdeal.Gen
open Idealize.ShloMosaic.Pipeline (Dat)
open Idealize.ShloMosaic.ValueIdx

variable (V : (c : Dev nD) → (b : Ref sig .tc) → Buf (Elt Ideal) ((c : Thread nD τ).loc b))

/-- One entry of the normalisation: `max((x − μ) · (σ² + ε)^(-1/2) · γ + β, 0)`, the two literals as their words. -/
def normAt (x m v g b : EReal) : EReal :=
  max ((x - m) * Ideal.rsqrt (v + Ideal.ofBits .f32 0x3727C5AC#32) * g + b) (Ideal.ofBits .f32 0x00000000#32)

/-- A `[128]` row laid out as `[1, 128]`, at its column. -/
theorem asRow_apply (v : Cert.Spec.FA Cert.ReferenceIdeal.S128) (j : Fin 128) :
    Cert.Spec.asRow v (ix2 (0 : Fin 1) j) = v (ix1 j) := by
  unfold Cert.Spec.asRow
  exact broadcastInDim_asRow_apply _ v j

/-- The specification's normalisation stage at an index. -/
theorem bnRelu_apply (h : Cert.Spec.FA Cert.ReferenceIdeal.S100000x128) (mu var g b : Cert.Spec.FA Cert.ReferenceIdeal.S128)
    (r : Fin 100000) (j : Fin 128) :
    Cert.Spec.bnRelu h mu var g b (ix2 r j) = normAt (h (ix2 r j)) (mu (ix1 j)) (var (ix1 j)) (g (ix1 j)) (b (ix1 j)) := by
  unfold Cert.Spec.bnRelu
  have row : ∀ v : Cert.Spec.FA Cert.ReferenceIdeal.S128,
      broadcastInDim Cert.ReferenceIdeal.S100000x128 ![0, 1] Cert.ReferenceIdeal.Facts₀.bcast_S1x128_S100000x128_0_1 (Cert.Spec.asRow v) (ix2 r j) = v (ix1 j) :=
    fun v => (broadcastInDim_oneRow_apply _ (Cert.Spec.asRow v) r j).trans (asRow_apply v j)
  refine (maximumf_apply _ _ _).trans ?_
  refine congrArg₂ max ?_ rfl
  refine (addf_apply _ _ _).trans ?_
  refine congrArg₂ (· + ·) ?_ (row b)
  refine (mulf_apply _ _ _).trans ?_
  refine congrArg₂ (· * ·) ?_ (row g)
  refine (mulf_apply _ _ _).trans ?_
  refine congrArg₂ (· * ·) ?_ ((row _).trans rfl)
  refine (subf_apply _ _ _).trans ?_
  exact congrArg₂ (· - ·) rfl (row mu)

/-! ## Region 1 -/

/-- The normalisation body of region 1 at an index: every per-column quantity is read in its one row at the column. -/
theorem norm1_pay (x0 : Vec Ideal S5000x128 .f32) (xv xm xg xb : Vec Ideal S1x128 .f32) (r : Fin 5000) (j : Fin 128) :
    k1_pay1 x0 xv xm xg xb (ix2 r j)
      = normAt (x0 (ix2 r j)) (xm (ix2 (0 : Fin 1) j)) (xv (ix2 (0 : Fin 1) j)) (xg (ix2 (0 : Fin 1) j)) (xb (ix2 (0 : Fin 1) j)) := by
  unfold k1_pay1
  simp only [shapeCast_self]
  have hm := broadcastTo_1b_ab_apply xm broadcasts_S1x128_S5000x128 r j
  have hv := broadcastTo_1b_ab_apply (rsqrt (addf xv (broadcast S1x128 (Scalar.ofBits (F := Ideal) .f32 0x3727C5AC#32)))) broadcasts_S1x128_S5000x128 r j
  have hg := broadcastTo_1b_ab_apply xg broadcasts_S1x128_S5000x128 r j
  have hb := broadcastTo_1b_ab_apply xb broadcasts_S1x128_S5000x128 r j
  refine (maximumf_apply _ _ _).trans ?_
  refine congrArg₂ max ?_ rfl
  refine (addf_apply _ _ _).trans ?_
  refine congrArg₂ (· + ·) ?_ hb
  refine (mulf_apply _ _ _).trans ?_
  refine congrArg₂ (· * ·) ?_ hg
  refine (mulf_apply _ _ _).trans ?_
  refine congrArg₂ (· * ·) ?_ hv
  refine (subf_apply _ _ _).trans ?_
  exact congrArg₂ (· - ·) rfl hm

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` of region 1 writes back is rows `5000 t … 5000 t + 4999` of the normalisation stage of the arrays
    the region finds. -/
theorem flushed1 (c : Dev nD) (mu var g b : Cert.Spec.FA Cert.ReferenceIdeal.S128)
    (hmu : V c main_v39 = Cert.Spec.asRow mu) (hvar : V c main_v40 = Cert.Spec.asRow var)
    (hg : V c main_v41 = Cert.Spec.asRow g) (hb : V c main_v42 = Cert.Spec.asRow b) (t : Fin cfg1.N) :
    (dat1 (F := Ideal) V c).flushed 5 t
      = ((cfg1.win 5).blk t).view.read (Elt Ideal) (Cert.Spec.bnRelu (V c main_v34) mu var g b) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  obtain ⟨e00, e01, e10, e11, e20, e21, e30, e31, e40, e41, e50, e51⟩ := idx_facts1 t
  have ht : t.val < 20 := lt_of_lt_of_eq t.isLt (show cfg1.N = 20 from N_1)
  funext y
  obtain ⟨r, j, rfl⟩ : ∃ (r : Fin 5000) (j : Fin 128), y = ix2 r j := ⟨y 0, y 1, eq_ix2 y⟩
  have hr : r.val < 5000 := r.isLt
  have hemb : ((cfg1.win 5).blk t).view.emb (ix2 r j) = ix2 (⟨5000 * t.val + r.val, by omega⟩ : Fin 100000) j := by
    funext a; apply Fin.ext
    match a with
    | ⟨0, _⟩ => show win1_5.index t (0 : Fin 2) * 5000 + 1 * r.val = 5000 * t.val + r.val; rw [e50]; omega
    | ⟨1, _⟩ => show win1_5.index t (1 : Fin 2) * 128 + 1 * j.val = j.val; rw [e51]; omega
  have hemb0 : ((cfg1.win 0).blk t).view.emb (ix2 r j) = ix2 (⟨5000 * t.val + r.val, by omega⟩ : Fin 100000) j := by
    funext a; apply Fin.ext
    match a with
    | ⟨0, _⟩ => show win1_0.index t (0 : Fin 2) * 5000 + 1 * r.val = 5000 * t.val + r.val; rw [e00]; omega
    | ⟨1, _⟩ => show win1_0.index t (1 : Fin 2) * 128 + 1 * j.val = j.val; rw [e01]; omega
  have hemb1 : ((cfg1.win 1).blk t).view.emb (ix2 (0 : Fin 1) j) = ix2 (0 : Fin 1) j := by
    funext a; apply Fin.ext
    match a with
    | ⟨0, _⟩ => show win1_1.index t (0 : Fin 2) * 1 + 1 * 0 = 0; rw [e10]
    | ⟨1, _⟩ => show win1_1.index t (1 : Fin 2) * 128 + 1 * j.val = j.val; rw [e11]; omega
  have hemb2 : ((cfg1.win 2).blk t).view.emb (ix2 (0 : Fin 1) j) = ix2 (0 : Fin 1) j := by
    funext a; apply Fin.ext
    match a with
    | ⟨0, _⟩ => show win1_2.index t (0 : Fin 2) * 1 + 1 * 0 = 0; rw [e20]
    | ⟨1, _⟩ => show win1_2.index t (1 : Fin 2) * 128 + 1 * j.val = j.val; rw [e21]; omega
  have hemb3 : ((cfg1.win 3).blk t).view.emb (ix2 (0 : Fin 1) j) = ix2 (0 : Fin 1) j := by
    funext a; apply Fin.ext
    match a with
    | ⟨0, _⟩ => show win1_3.index t (0 : Fin 2) * 1 + 1 * 0 = 0; rw [e30]
    | ⟨1, _⟩ => show win1_3.index t (1 : Fin 2) * 128 + 1 * j.val = j.val; rw [e31]; omega
  have hemb4 : ((cfg1.win 4).blk t).view.emb (ix2 (0 : Fin 1) j) = ix2 (0 : Fin 1) j := by
    funext a; apply Fin.ext
    match a with
    | ⟨0, _⟩ => show win1_4.index t (0 : Fin 2) * 1 + 1 * 0 = 0; rw [e40]
    | ⟨1, _⟩ => show win1_4.index t (1 : Fin 2) * 128 + 1 * j.val = j.val; rw [e41]; omega
  show k1_pay1 (iblk1 V c 0 t) (iblk1 V c 2 t) (iblk1 V c 1 t) (iblk1 V c 3 t) (iblk1 V c 4 t) (ix2 r j)
    = Cert.Spec.bnRelu (V c main_v34) mu var g b (((cfg1.win 5).blk t).view.emb (ix2 r j))
  refine (norm1_pay (iblk1 V c 0 t) (iblk1 V c 2 t) (iblk1 V c 1 t) (iblk1 V c 3 t) (iblk1 V c 4 t) r j).trans ?_
  refine Eq.trans ?_ (congrArg (Cert.Spec.bnRelu (V c main_v34) mu var g b) hemb).symm
  refine Eq.trans ?_ (bnRelu_apply (V c main_v34) mu var g b _ j).symm
  have h0 : iblk1 V c 0 t (ix2 r j) = V c main_v34 (ix2 (⟨5000 * t.val + r.val, by omega⟩ : Fin 100000) j) := by
    show V c main_v34 (((cfg1.win 0).blk t).view.emb (ix2 r j)) = _
    exact congrArg (V c main_v34) hemb0
  have h1 : iblk1 V c 1 t (ix2 (0 : Fin 1) j) = mu (ix1 j) := by
    show V c main_v39 (((cfg1.win 1).blk t).view.emb (ix2 (0 : Fin 1) j)) = _
    rw [hmu]
    exact (congrArg (Cert.Spec.asRow mu) hemb1).trans (asRow_apply mu j)
  have h2 : iblk1 V c 2 t (ix2 (0 : Fin 1) j) = var (ix1 j) := by
    show V c main_v40 (((cfg1.win 2).blk t).view.emb (ix2 (0 : Fin 1) j)) = _
    rw [hvar]
    exact (congrArg (Cert.Spec.asRow var) hemb2).trans (asRow_apply var j)
  have h3 : iblk1 V c 3 t (ix2 (0 : Fin 1) j) = g (ix1 j) := by
    show V c main_v41 (((cfg1.win 3).blk t).view.emb (ix2 (0 : Fin 1) j)) = _
    rw [hg]
    exact (congrArg (Cert.Spec.asRow g) hemb3).trans (asRow_apply g j)
  have h4 : iblk1 V c 4 t (ix2 (0 : Fin 1) j) = b (ix1 j) := by
    show V c main_v42 (((cfg1.win 4).blk t).view.emb (ix2 (0 : Fin 1) j)) = _
    rw [hb]
    exact (congrArg (Cert.Spec.asRow b) hemb4).trans (asRow_apply b j)
  rw [h0, h1, h2, h3, h4]

/-- An index of the array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v43).slice (win1_5.rect t)).set ↔ _
  rw [View.set_slice_whole, Rect.mem_set_unit]
  exact Iff.rfl

/-- Row `r` is in the block of point `r / 5000`: the blocks cover the array. -/
theorem cover1 (i : S100000x128.Idx) : ∃ t : Fin cfg1.N, (cfg1.win 5).flush t = true ∧ i ∈ ((cfg1.win 5).blk t).view.set := by
  have hi0 : (i 0).val < 100000 := idx2_lt0 i
  have hi1 : (i 1).val < 128 := idx2_lt1 i
  have hN : cfg1.N = 20 := N_1
  let t : Fin cfg1.N := ⟨(i 0).val / 5000, by rw [hN]; omega⟩
  obtain ⟨-, -, -, -, -, -, -, -, -, -, e50, e51⟩ := idx_facts1 t
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    rw [e50]; show (i 0).val / 5000 * 5000 ≤ (i 0).val ∧ (i 0).val < (i 0).val / 5000 * 5000 + 5000; omega
  | ⟨1, _⟩ =>
    show win1_5.index t (1 : Fin 2) * 128 ≤ (i 1).val ∧ (i 1).val < win1_5.index t (1 : Fin 2) * 128 + 128
    rw [e51]; omega

/-- Region 1 leaves the normalisation stage of the arrays it finds. -/
theorem region1 (c : Dev nD) (mu var g b : Cert.Spec.FA Cert.ReferenceIdeal.S128)
    (hmu : V c main_v39 = Cert.Spec.asRow mu) (hvar : V c main_v40 = Cert.Spec.asRow var)
    (hg : V c main_v41 = Cert.Spec.asRow g) (hb : V c main_v42 = Cert.Spec.asRow b) :
    (dat1 (F := Ideal) V c).arrAt 5 cfg1.N = Cert.Spec.bnRelu (V c main_v34) mu var g b :=
  (dat1 (F := Ideal) V c).arrAt_eq_of_cover 5 (Cert.Spec.bnRelu (V c main_v34) mu var g b)
    (fun t _ => flushed1 V c mu var g b hmu hvar hg hb t) cover1

/-! ## Region 3 -/

/-- The normalisation body of region 3 at an index: every per-column quantity is read in its one row at the column. -/
theorem norm3_pay (x0 : Vec Ideal S5000x128 .f32) (xv xm xg xb : Vec Ideal S1x128 .f32) (r : Fin 5000) (j : Fin 128) :
    k3_pay1 x0 xv xm xg xb (ix2 r j)
      = normAt (x0 (ix2 r j)) (xm (ix2 (0 : Fin 1) j)) (xv (ix2 (0 : Fin 1) j)) (xg (ix2 (0 : Fin 1) j)) (xb (ix2 (0 : Fin 1) j)) := by
  unfold k3_pay1
  simp only [shapeCast_self]
  have hm := broadcastTo_1b_ab_apply xm broadcasts_S1x128_S5000x128 r j
  have hv := broadcastTo_1b_ab_apply (rsqrt (addf xv (broadcast S1x128 (Scalar.ofBits (F := Ideal) .f32 0x3727C5AC#32)))) broadcasts_S1x128_S5000x128 r j
  have hg := broadcastTo_1b_ab_apply xg broadcasts_S1x128_S5000x128 r j
  have hb := broadcastTo_1b_ab_apply xb broadcasts_S1x128_S5000x128 r j
  refine (maximumf_apply _ _ _).trans ?_
  refine congrArg₂ max ?_ rfl
  refine (addf_apply _ _ _).trans ?_
  refine congrArg₂ (· + ·) ?_ hb
  refine (mulf_apply _ _ _).trans ?_
  refine congrArg₂ (· * ·) ?_ hg
  refine (mulf_apply _ _ _).trans ?_
  refine congrArg₂ (· * ·) ?_ hv
  refine (subf_apply _ _ _).trans ?_
  exact congrArg₂ (· - ·) rfl hm

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` of region 3 writes back is rows `5000 t … 5000 t + 4999` of the normalisation stage of the arrays
    the region finds. -/
theorem flushed3 (c : Dev nD) (mu var g b : Cert.Spec.FA Cert.ReferenceIdeal.S128)
    (hmu : V c main_v63 = Cert.Spec.asRow mu) (hvar : V c main_v64 = Cert.Spec.asRow var)
    (hg : V c main_v65 = Cert.Spec.asRow g) (hb : V c main_v66 = Cert.Spec.asRow b) (t : Fin cfg3.N) :
    (dat3 (F := Ideal) V c).flushed 5 t
      = ((cfg3.win 5).blk t).view.read (Elt Ideal) (Cert.Spec.bnRelu (V c main_v58) mu var g b) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  obtain ⟨e00, e01, e10, e11, e20, e21, e30, e31, e40, e41, e50, e51⟩ := idx_facts3 t
  have ht : t.val < 20 := lt_of_lt_of_eq t.isLt (show cfg3.N = 20 from N_3)
  funext y
  obtain ⟨r, j, rfl⟩ : ∃ (r : Fin 5000) (j : Fin 128), y = ix2 r j := ⟨y 0, y 1, eq_ix2 y⟩
  have hr : r.val < 5000 := r.isLt
  have hemb : ((cfg3.win 5).blk t).view.emb (ix2 r j) = ix2 (⟨5000 * t.val + r.val, by omega⟩ : Fin 100000) j := by
    funext a; apply Fin.ext
    match a with
    | ⟨0, _⟩ => show win3_5.index t (0 : Fin 2) * 5000 + 1 * r.val = 5000 * t.val + r.val; rw [e50]; omega
    | ⟨1, _⟩ => show win3_5.index t (1 : Fin 2) * 128 + 1 * j.val = j.val; rw [e51]; omega
  have hemb0 : ((cfg3.win 0).blk t).view.emb (ix2 r j) = ix2 (⟨5000 * t.val + r.val, by omega⟩ : Fin 100000) j := by
    funext a; apply Fin.ext
    match a with
    | ⟨0, _⟩ => show win3_0.index t (0 : Fin 2) * 5000 + 1 * r.val = 5000 * t.val + r.val; rw [e00]; omega
    | ⟨1, _⟩ => show win3_0.index t (1 : Fin 2) * 128 + 1 * j.val = j.val; rw [e01]; omega
  have hemb1 : ((cfg3.win 1).blk t).view.emb (ix2 (0 : Fin 1) j) = ix2 (0 : Fin 1) j := by
    funext a; apply Fin.ext
    match a with
    | ⟨0, _⟩ => show win3_1.index t (0 : Fin 2) * 1 + 1 * 0 = 0; rw [e10]
    | ⟨1, _⟩ => show win3_1.index t (1 : Fin 2) * 128 + 1 * j.val = j.val; rw [e11]; omega
  have hemb2 : ((cfg3.win 2).blk t).view.emb (ix2 (0 : Fin 1) j) = ix2 (0 : Fin 1) j := by
    funext a; apply Fin.ext
    match a with
    | ⟨0, _⟩ => show win3_2.index t (0 : Fin 2) * 1 + 1 * 0 = 0; rw [e20]
    | ⟨1, _⟩ => show win3_2.index t (1 : Fin 2) * 128 + 1 * j.val = j.val; rw [e21]; omega
  have hemb3 : ((cfg3.win 3).blk t).view.emb (ix2 (0 : Fin 1) j) = ix2 (0 : Fin 1) j := by
    funext a; apply Fin.ext
    match a with
    | ⟨0, _⟩ => show win3_3.index t (0 : Fin 2) * 1 + 1 * 0 = 0; rw [e30]
    | ⟨1, _⟩ => show win3_3.index t (1 : Fin 2) * 128 + 1 * j.val = j.val; rw [e31]; omega
  have hemb4 : ((cfg3.win 4).blk t).view.emb (ix2 (0 : Fin 1) j) = ix2 (0 : Fin 1) j := by
    funext a; apply Fin.ext
    match a with
    | ⟨0, _⟩ => show win3_4.index t (0 : Fin 2) * 1 + 1 * 0 = 0; rw [e40]
    | ⟨1, _⟩ => show win3_4.index t (1 : Fin 2) * 128 + 1 * j.val = j.val; rw [e41]; omega
  show k3_pay1 (iblk3 V c 0 t) (iblk3 V c 2 t) (iblk3 V c 1 t) (iblk3 V c 3 t) (iblk3 V c 4 t) (ix2 r j)
    = Cert.Spec.bnRelu (V c main_v58) mu var g b (((cfg3.win 5).blk t).view.emb (ix2 r j))
  refine (norm3_pay (iblk3 V c 0 t) (iblk3 V c 2 t) (iblk3 V c 1 t) (iblk3 V c 3 t) (iblk3 V c 4 t) r j).trans ?_
  refine Eq.trans ?_ (congrArg (Cert.Spec.bnRelu (V c main_v58) mu var g b) hemb).symm
  refine Eq.trans ?_ (bnRelu_apply (V c main_v58) mu var g b _ j).symm
  have h0 : iblk3 V c 0 t (ix2 r j) = V c main_v58 (ix2 (⟨5000 * t.val + r.val, by omega⟩ : Fin 100000) j) := by
    show V c main_v58 (((cfg3.win 0).blk t).view.emb (ix2 r j)) = _
    exact congrArg (V c main_v58) hemb0
  have h1 : iblk3 V c 1 t (ix2 (0 : Fin 1) j) = mu (ix1 j) := by
    show V c main_v63 (((cfg3.win 1).blk t).view.emb (ix2 (0 : Fin 1) j)) = _
    rw [hmu]
    exact (congrArg (Cert.Spec.asRow mu) hemb1).trans (asRow_apply mu j)
  have h2 : iblk3 V c 2 t (ix2 (0 : Fin 1) j) = var (ix1 j) := by
    show V c main_v64 (((cfg3.win 2).blk t).view.emb (ix2 (0 : Fin 1) j)) = _
    rw [hvar]
    exact (congrArg (Cert.Spec.asRow var) hemb2).trans (asRow_apply var j)
  have h3 : iblk3 V c 3 t (ix2 (0 : Fin 1) j) = g (ix1 j) := by
    show V c main_v65 (((cfg3.win 3).blk t).view.emb (ix2 (0 : Fin 1) j)) = _
    rw [hg]
    exact (congrArg (Cert.Spec.asRow g) hemb3).trans (asRow_apply g j)
  have h4 : iblk3 V c 4 t (ix2 (0 : Fin 1) j) = b (ix1 j) := by
    show V c main_v66 (((cfg3.win 4).blk t).view.emb (ix2 (0 : Fin 1) j)) = _
    rw [hb]
    exact (congrArg (Cert.Spec.asRow b) hemb4).trans (asRow_apply b j)
  rw [h0, h1, h2, h3, h4]

/-- An index of the array is in point `t`'s block iff each coordinate is in the block's range on its axis. -/
theorem mem_blk3 (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v67).slice (win3_5.rect t)).set ↔ _
  rw [View.set_slice_whole, Rect.mem_set_unit]
  exact Iff.rfl

/-- Row `r` is in the block of point `r / 5000`: the blocks cover the array. -/
theorem cover3 (i : S100000x128.Idx) : ∃ t : Fin cfg3.N, (cfg3.win 5).flush t = true ∧ i ∈ ((cfg3.win 5).blk t).view.set := by
  have hi0 : (i 0).val < 100000 := idx2_lt0 i
  have hi1 : (i 1).val < 128 := idx2_lt1 i
  have hN : cfg3.N = 20 := N_3
  let t : Fin cfg3.N := ⟨(i 0).val / 5000, by rw [hN]; omega⟩
  obtain ⟨-, -, -, -, -, -, -, -, -, -, e50, e51⟩ := idx_facts3 t
  refine ⟨t, flush3_5 t, ?_⟩
  rw [mem_blk3]
  intro a
  match a with
  | ⟨0, _⟩ =>
    show win3_5.index t (0 : Fin 2) * 5000 ≤ (i 0).val ∧ (i 0).val < win3_5.index t (0 : Fin 2) * 5000 + 5000
    rw [e50]; show (i 0).val / 5000 * 5000 ≤ (i 0).val ∧ (i 0).val < (i 0).val / 5000 * 5000 + 5000; omega
  | ⟨1, _⟩ =>
    show win3_5.index t (1 : Fin 2) * 128 ≤ (i 1).val ∧ (i 1).val < win3_5.index t (1 : Fin 2) * 128 + 128
    rw [e51]; omega

/-- Region 3 leaves the normalisation stage of the arrays it finds. -/
theorem region3 (c : Dev nD) (mu var g b : Cert.Spec.FA Cert.ReferenceIdeal.S128)
    (hmu : V c main_v63 = Cert.Spec.asRow mu) (hvar : V c main_v64 = Cert.Spec.asRow var)
    (hg : V c main_v65 = Cert.Spec.asRow g) (hb : V c main_v66 = Cert.Spec.asRow b) :
    (dat3 (F := Ideal) V c).arrAt 5 cfg3.N = Cert.Spec.bnRelu (V c main_v58) mu var g b :=
  (dat3 (F := Ideal) V c).arrAt_eq_of_cover 5 (Cert.Spec.bnRelu (V c main_v58) mu var g b)
    (fun t _ => flushed3 V c mu var g b hmu hvar hg hb t) cover3

end Cert.KernelIdeal.RegionValue

end
-- ==== Proof.RegionBias.lean ====
/-
  The bias region (the last of the six): every point adds the one bias row to its 5000 rows of the [100000, 40] array.
  Point t's block of the array is rows 5000 t … 5000 t + 4999 (all 40 columns), the bias window's block is the whole
  [1, 40] row; so what a point writes back is the restriction to its rows of ONE function of the arrays the region
  finds — entry (r, j) is h r j + b j — and the twenty blocks cover the array (row r lies in the block of point
  r / 5000). That function is the specification's bias stage, index by index.
-/
import proofs.«162067_j41154376630597_1_alg».proof.Proof.Gen.KernelIdeal.Frame
import proofs.«162067_j41154376630597_1_alg».proof.Proof.Gen.ReferenceIdeal
import proofs.«162067_j41154376630597_1_alg».proof.Proof.Spec
import proofs.«162067_j41154376630597_1_alg».proof.Proof.RegionIdx
import Idealize.ShloMosaic.Lib.Pipeline.Value
import Idealize.ShloMosaic.Lib.ValueIdx
import Idealize.ShloMosaic.Lib.ValueLayout

set_option maxRecDepth 16384

noncomputable section

open scoped BigOperators

namespace Cert.KernelIdeal.RegionValue

open Idealize.ShloMosaic Idealize.ShloMosaic.TcCoe Cert.KernelIdeal Cert.KernelIdeal.Gen
open Idealize.ShloMosaic.Pipeline (Dat)
open Idealize.ShloMosaic.ValueIdx

variable (V : (c : Dev nD) → (b : Ref sig .tc) → Buf (Elt Ideal) ((c : Thread nD τ).loc b))

/-- The bias body at an index: the row's entry plus the bias of the column. -/
theorem bias_pay (x0 : Vec Ideal S5000x40 .f32) (x1 : Vec Ideal S1x40 .f32) (r : Fin 5000) (j : Fin 40) :
    k5_pay1 x0 x1 (ix2 r j) = x0 (ix2 r j) + x1 (ix2 (0 : Fin 1) j) := by
  unfold k5_pay1
  simp only [shapeCast_self]
  refine (addf_apply _ _ _).trans ?_
  exact congrArg (x0 (ix2 r j) + ·) (broadcastTo_1b_ab_apply x1 _ r j)

/-- A `[40]` row laid out as `[1, 40]`, at its column. -/
theorem asRow40_apply (b : Cert.Spec.FA Cert.ReferenceIdeal.S40) (j : Fin 40) :
    Cert.Spec.asRow40 b (ix2 (0 : Fin 1) j) = b (ix1 j) := by
  unfold Cert.Spec.asRow40
  refine broadcastInDim_apply _ _ _ (ix2 (0 : Fin 1) j) (ix1 j) fun a => ?_
  match a with
  | ⟨0, _⟩ => rfl

/-- The specification's bias stage at an index. -/
theorem biasAdd_apply (h : Cert.Spec.FA Cert.ReferenceIdeal.S100000x40) (b : Cert.Spec.FA Cert.ReferenceIdeal.S40)
    (r : Fin 100000) (j : Fin 40) :
    Cert.Spec.biasAdd h b (ix2 r j) = h (ix2 r j) + b (ix1 j) := by
  unfold Cert.Spec.biasAdd
  refine (addf_apply _ _ _).trans ?_
  refine congrArg (h (ix2 r j) + ·) ?_
  refine (broadcastInDim_apply _ _ _ (ix2 r j) (ix2 (0 : Fin 1) j) fun a => ?_).trans (asRow40_apply b j)
  match a with
  | ⟨0, _⟩ => rfl
  | ⟨1, _⟩ => rfl

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is rows `5000 t … 5000 t + 4999` of the bias stage of the arrays the region finds. -/
theorem flushed5 (c : Dev nD) (b : Cert.Spec.FA Cert.ReferenceIdeal.S40) (hb : V c main_v83 = Cert.Spec.asRow40 b) (t : Fin cfg5.N) :
    (dat5 (F := Ideal) V c).flushed 2 t
      = ((cfg5.win 2).blk t).view.read (Elt Ideal) (Cert.Spec.biasAdd (V c main_v82) b) := by
  show (cfg5.win 2).cut (grid5.coords t) ((dat5 V c).after 2 t) = _
  rw [after5_2]
  unfold out5_2
  rw [View.canon_unit_zero hz]
  simp only [View.ld_unit_zero (S := S5000x40) hz, View.ld_unit_zero (S := S1x40) hz]
  obtain ⟨e0, e1, e2, e3, e4, e5⟩ := idx_facts5 t
  have ht : t.val < 20 := lt_of_lt_of_eq t.isLt (show cfg5.N = 20 from N_5)
  funext y
  obtain ⟨r, j, rfl⟩ : ∃ (r : Fin 5000) (j : Fin 40), y = ix2 r j := ⟨y 0, y 1, eq_ix2 y⟩
  have hr : r.val < 5000 := r.isLt
  have hemb : ((cfg5.win 2).blk t).view.emb (ix2 r j) = ix2 (⟨5000 * t.val + r.val, by omega⟩ : Fin 100000) j := by
    funext a; apply Fin.ext
    match a with
    | ⟨0, _⟩ => show win5_2.index t (0 : Fin 2) * 5000 + 1 * r.val = 5000 * t.val + r.val; rw [e4]; omega
    | ⟨1, _⟩ => show win5_2.index t (1 : Fin 2) * 40 + 1 * j.val = j.val; rw [e5]; omega
  have hemb0 : ((cfg5.win 0).blk t).view.emb (ix2 r j) = ix2 (⟨5000 * t.val + r.val, by omega⟩ : Fin 100000) j := by
    funext a; apply Fin.ext
    match a with
    | ⟨0, _⟩ => show win5_0.index t (0 : Fin 2) * 5000 + 1 * r.val = 5000 * t.val + r.val; rw [e0]; omega
    | ⟨1, _⟩ => show win5_0.index t (1 : Fin 2) * 40 + 1 * j.val = j.val; rw [e1]; omega
  have hemb1 : ((cfg5.win 1).blk t).view.emb (ix2 (0 : Fin 1) j) = ix2 (0 : Fin 1) j := by
    funext a; apply Fin.ext
    match a with
    | ⟨0, _⟩ => show win5_1.index t (0 : Fin 2) * 1 + 1 * 0 = 0; rw [e2]
    | ⟨1, _⟩ => show win5_1.index t (1 : Fin 2) * 40 + 1 * j.val = j.val; rw [e3]; omega
  show k5_pay1 (iblk5 V c 0 t) (iblk5 V c 1 t) (ix2 r j)
    = Cert.Spec.biasAdd (V c main_v82) b (((cfg5.win 2).blk t).view.emb (ix2 r j))
  refine (bias_pay (iblk5 V c 0 t) (iblk5 V c 1 t) r j).trans ?_
  refine Eq.trans ?_ (congrArg (Cert.Spec.biasAdd (V c main_v82) b) hemb).symm
  refine Eq.trans ?_ (biasAdd_apply (V c main_v82) b _ j).symm
  have h0 : iblk5 V c 0 t (ix2 r j) = V c main_v82 (ix2 (⟨5000 * t.val + r.val, by omega⟩ : Fin 100000) j) := by
    show V c main_v82 (((cfg5.win 0).blk t).view.emb (ix2 r j)) = _
    exact congrArg (V c main_v82) hemb0
  have h1 : iblk5 V c 1 t (ix2 (0 : Fin 1) j) = b (ix1 j) := by
    show V c main_v83 (((cfg5.win 1).blk t).view.emb (ix2 (0 : Fin 1) j)) = _
    rw [hb]
    exact (congrArg (Cert.Spec.asRow40 b) hemb1).trans (asRow40_apply b j)
  rw [h0, h1]

/-- An index of the array is in point `t`'s block iff each coordinate is in the block's range on its axis. -/
theorem mem_blk5 (t : Fin cfg5.N) (i : S100000x40.Idx) :
    i ∈ ((cfg5.win 2).blk t).view.set ↔ ∀ a : Fin 2, win5_2.index t a * S5000x40.size a ≤ (i a).val ∧ (i a).val < win5_2.index t a * S5000x40.size a + S5000x40.size a := by
  show i ∈ ((View.whole main_v84).slice (win5_2.rect t)).set ↔ _
  rw [View.set_slice_whole, Rect.mem_set_unit]
  exact Iff.rfl

/-- Row `r` is in the block of point `r / 5000`: the blocks cover the array. -/
theorem cover5 (i : S100000x40.Idx) : ∃ t : Fin cfg5.N, (cfg5.win 2).flush t = true ∧ i ∈ ((cfg5.win 2).blk t).view.set := by
  have hi0 : (i 0).val < 100000 := idx2_lt0 i
  have hi1 : (i 1).val < 40 := idx2_lt1 i
  have hN : cfg5.N = 20 := N_5
  let t : Fin cfg5.N := ⟨(i 0).val / 5000, by rw [hN]; omega⟩
  obtain ⟨-, -, -, -, e4, e5⟩ := idx_facts5 t
  refine ⟨t, flush5_2 t, ?_⟩
  rw [mem_blk5]
  intro a
  match a with
  | ⟨0, _⟩ =>
    show win5_2.index t (0 : Fin 2) * 5000 ≤ (i 0).val ∧ (i 0).val < win5_2.index t (0 : Fin 2) * 5000 + 5000
    rw [e4]; show (i 0).val / 5000 * 5000 ≤ (i 0).val ∧ (i 0).val < (i 0).val / 5000 * 5000 + 5000; omega
  | ⟨1, _⟩ =>
    show win5_2.index t (1 : Fin 2) * 40 ≤ (i 1).val ∧ (i 1).val < win5_2.index t (1 : Fin 2) * 40 + 40
    rw [e5]; omega

/-- Region 5 leaves the bias stage of the arrays it finds. -/
theorem region5 (c : Dev nD) (b : Cert.Spec.FA Cert.ReferenceIdeal.S40) (hb : V c main_v83 = Cert.Spec.asRow40 b) :
    (dat5 (F := Ideal) V c).arrAt 2 cfg5.N = Cert.Spec.biasAdd (V c main_v82) b :=
  (dat5 (F := Ideal) V c).arrAt_eq_of_cover 2 (Cert.Spec.biasAdd (V c main_v82) b) (fun t _ => flushed5 V c b hb t) cover5

end Cert.KernelIdeal.RegionValue

end
-- ==== Proof.KVal.lean ====
/-
  The idealized kernel's result as the network of the launch arguments. The program's buffer contents at the
  boundaries of its twenty segments are walked from the launch to the return: a host stretch computes a stage of
  the network from the buffers it reads, a kernel region leaves the stage its blocks tile, and a buffer no later
  segment writes keeps what its own segment left. At the last boundary the result buffer holds the output layer's
  aggregate plus the bias, which is the network `gcn` of the eleven argument arrays.
-/
import proofs.«162067_j41154376630597_1_alg».proof.Proof.KHost2
import proofs.«162067_j41154376630597_1_alg».proof.Proof.KPass
import proofs.«162067_j41154376630597_1_alg».proof.Proof.RegionMatmul
import proofs.«162067_j41154376630597_1_alg».proof.Proof.RegionNorm
import proofs.«162067_j41154376630597_1_alg».proof.Proof.RegionBias

set_option maxRecDepth 16384

noncomputable section

namespace Cert.KernelIdeal.KVal

open Idealize.ShloMosaic Idealize.ShloMosaic.TcCoe Idealize.SL.Sem Idealize.ShloMosaic.StableHlo
open Cert.KernelIdeal Cert.KernelIdeal.Gen Cert.KernelIdeal.KPass Cert.KernelIdeal.RegionValue

local notation "D" => (Proc.devRef (τ := τ) (sig := sig) Proc.tc)

variable (m : (ℓ : Loc nD τ sig) → Buf (Elt Ideal) ℓ) (ρ : Dev nD → PrngReg) (c : Dev nD)

/-! ## The stages, as functions of the launch contents -/

/-- The out-degree norm. -/
def nOut : Cert.Spec.FA Cert.ReferenceIdeal.S100000 := Cert.Spec.degNorm (W0 (F := Ideal) m ρ c (D main_arg1))
/-- The in-degree norm. -/
def nIn : Cert.Spec.FA Cert.ReferenceIdeal.S100000 := Cert.Spec.degNorm (W0 (F := Ideal) m ρ c (D main_arg2))
/-- Layer 1: the scaled features times the first weight. -/
def pre1 : Cert.Spec.FA Cert.ReferenceIdeal.S100000x128 :=
  Cert.Spec.scaleMatmul (W0 (F := Ideal) m ρ c (D main_arg0)) (Cert.Spec.asColumn (nOut m ρ c)) (W0 (F := Ideal) m ρ c (D main_arg3))
/-- Layer 1: aggregated along the edges. -/
def sum1 : Cert.Spec.FA Cert.ReferenceIdeal.S100000x128 :=
  Cert.Spec.aggregate (pre1 m ρ c) (W0 (F := Ideal) m ρ c (D main_arg1)) (W0 (F := Ideal) m ρ c (D main_arg2)) (nIn m ρ c)
/-- Layer 1: normalised and rectified. -/
def act1 : Cert.Spec.FA Cert.ReferenceIdeal.S100000x128 :=
  Cert.Spec.bnRelu (sum1 m ρ c) (Cert.Spec.colMean (sum1 m ρ c)) (Cert.Spec.colVar (sum1 m ρ c))
    (W0 (F := Ideal) m ρ c (D main_arg7)) (W0 (F := Ideal) m ρ c (D main_arg8))
/-- Layer 2. -/
def pre2 : Cert.Spec.FA Cert.ReferenceIdeal.S100000x128 :=
  Cert.Spec.scaleMatmul (act1 m ρ c) (Cert.Spec.asColumn (nOut m ρ c)) (W0 (F := Ideal) m ρ c (D main_arg4))
def sum2 : Cert.Spec.FA Cert.ReferenceIdeal.S100000x128 :=
  Cert.Spec.aggregate (pre2 m ρ c) (W0 (F := Ideal) m ρ c (D main_arg1)) (W0 (F := Ideal) m ρ c (D main_arg2)) (nIn m ρ c)
def act2 : Cert.Spec.FA Cert.ReferenceIdeal.S100000x128 :=
  Cert.Spec.bnRelu (sum2 m ρ c) (Cert.Spec.colMean (sum2 m ρ c)) (Cert.Spec.colVar (sum2 m ρ c))
    (W0 (F := Ideal) m ρ c (D main_arg9)) (W0 (F := Ideal) m ρ c (D main_arg10))
/-- The output layer. -/
def pre3 : Cert.Spec.FA Cert.ReferenceIdeal.S100000x40 :=
  Cert.Spec.scaleMatmul40 (act2 m ρ c) (Cert.Spec.asColumn (nOut m ρ c)) (W0 (F := Ideal) m ρ c (D main_arg5))
def sum3 : Cert.Spec.FA Cert.ReferenceIdeal.S100000x40 :=
  Cert.Spec.aggregate40 (pre3 m ρ c) (W0 (F := Ideal) m ρ c (D main_arg1)) (W0 (F := Ideal) m ρ c (D main_arg2)) (nIn m ρ c)

/-- The stages composed are the network. -/
theorem gcn_eq : Cert.Spec.biasAdd (sum3 m ρ c) (W0 (F := Ideal) m ρ c (D main_arg6))
    = Cert.Spec.gcn (W0 (F := Ideal) m ρ c (D main_arg0)) (W0 (F := Ideal) m ρ c (D main_arg1)) (W0 (F := Ideal) m ρ c (D main_arg2))
        (W0 (F := Ideal) m ρ c (D main_arg3)) (W0 (F := Ideal) m ρ c (D main_arg4)) (W0 (F := Ideal) m ρ c (D main_arg5))
        (W0 (F := Ideal) m ρ c (D main_arg6)) (W0 (F := Ideal) m ρ c (D main_arg7)) (W0 (F := Ideal) m ρ c (D main_arg8))
        (W0 (F := Ideal) m ρ c (D main_arg9)) (W0 (F := Ideal) m ρ c (D main_arg10)) := by
  unfold Cert.Spec.gcn Cert.Spec.layer sum3 pre3 act2 sum2 pre2 act1 sum1 pre1 nIn nOut
  rfl

/-! ## The degree norms (boundaries 1–4) -/

theorem W2_v9 : W2 (F := Ideal) m ρ c (D main_v9) = nOut m ρ c := by
  have e5 : W1 (F := Ideal) m ρ c (D main_v5) = _ := KHost.deg_pos (W0 m ρ c)
  have e8 : W1 (F := Ideal) m ρ c (D main_v8) = _ := KHost.deg_rsqrt (W0 m ρ c)
  have e3 : W1 (F := Ideal) m ρ c (D main_cst_3) = _ := KHost.deg_zero (W0 m ρ c)
  refine (KHost.norm_select (W1 m ρ c)).trans ?_
  rw [e5, e8, e3]
  unfold nOut Cert.Spec.degNorm
  rfl

theorem W4_v19 : W4 (F := Ideal) m ρ c (D main_v19) = nIn m ρ c := by
  have e5 : W3 (F := Ideal) m ρ c (D main_v15) = _ := KHost.deg_pos' (W2 m ρ c)
  have e8 : W3 (F := Ideal) m ρ c (D main_v18) = _ := KHost.deg_rsqrt' (W2 m ρ c)
  have e3 : W3 (F := Ideal) m ρ c (D main_cst_8) = _ := KHost.deg_zero' (W2 m ρ c)
  refine (KHost.norm_select' (W3 m ρ c)).trans ?_
  rw [e5, e8, e3, keep_arg2_2_0 m ρ c]
  unfold nIn Cert.Spec.degNorm
  rfl

/-- The out-degree norm wherever it is read later. -/
theorem W4_v9 : W4 (F := Ideal) m ρ c (D main_v9) = nOut m ρ c := (keep_v9_4_2 m ρ c).trans (W2_v9 m ρ c)
theorem W10_v9 : W10 (F := Ideal) m ρ c (D main_v9) = nOut m ρ c := (keep_v9_10_4 m ρ c).trans (W4_v9 m ρ c)
theorem W16_v9 : W16 (F := Ideal) m ρ c (D main_v9) = nOut m ρ c := (keep_v9_16_10 m ρ c).trans (W10_v9 m ρ c)
/-- The in-degree norm wherever it is read later. -/
theorem W6_v19 : W6 (F := Ideal) m ρ c (D main_v19) = nIn m ρ c := (keep_v19_6_4 m ρ c).trans (W4_v19 m ρ c)
theorem W12_v19 : W12 (F := Ideal) m ρ c (D main_v19) = nIn m ρ c := (keep_v19_12_6 m ρ c).trans (W6_v19 m ρ c)
theorem W18_v19 : W18 (F := Ideal) m ρ c (D main_v19) = nIn m ρ c := (keep_v19_18_12 m ρ c).trans (W12_v19 m ρ c)
/-- The edges' endpoints wherever they are read later. -/
theorem W6_arg1 : W6 (F := Ideal) m ρ c (D main_arg1) = W0 m ρ c (D main_arg1) := keep_arg1_6_0 m ρ c
theorem W12_arg1 : W12 (F := Ideal) m ρ c (D main_arg1) = W0 m ρ c (D main_arg1) := (keep_arg1_12_6 m ρ c).trans (W6_arg1 m ρ c)
theorem W18_arg1 : W18 (F := Ideal) m ρ c (D main_arg1) = W0 m ρ c (D main_arg1) := (keep_arg1_18_12 m ρ c).trans (W12_arg1 m ρ c)
theorem W6_arg2 : W6 (F := Ideal) m ρ c (D main_arg2) = W0 m ρ c (D main_arg2) := (keep_arg2_6_2 m ρ c).trans (keep_arg2_2_0 m ρ c)
theorem W12_arg2 : W12 (F := Ideal) m ρ c (D main_arg2) = W0 m ρ c (D main_arg2) := (keep_arg2_12_6 m ρ c).trans (W6_arg2 m ρ c)
theorem W18_arg2 : W18 (F := Ideal) m ρ c (D main_arg2) = W0 m ρ c (D main_arg2) := (keep_arg2_18_12 m ρ c).trans (W12_arg2 m ρ c)

/-! ## Layer 1 (boundaries 5–10) -/

theorem W5_v20 : W5 (F := Ideal) m ρ c (D main_v20) = Cert.Spec.asColumn (nOut m ρ c) := by
  refine (KHost.column0 (W4 m ρ c)).trans ?_
  rw [W4_v9 m ρ c]

theorem W6_v21 : W6 (F := Ideal) m ρ c (D main_v21) = pre1 m ρ c := by
  refine (W6_arr m ρ c 3).trans ?_
  refine (region0 (V5 m ρ) c).trans ?_
  show Cert.Spec.scaleMatmul (W5 (F := Ideal) m ρ c (D main_arg0)) (W5 (F := Ideal) m ρ c (D main_v20)) (W5 (F := Ideal) m ρ c (D main_arg3)) = _
  rw [keep_arg0_5_0 m ρ c, keep_arg3_5_0 m ρ c, W5_v20 m ρ c]
  rfl

theorem W7_v34 : W7 (F := Ideal) m ρ c (D main_v34) = sum1 m ρ c := by
  refine (KHost.agg1 (W6 m ρ c)).trans ?_
  rw [W6_v21 m ρ c, W6_arg1 m ρ c, W6_arg2 m ρ c, W6_v19 m ρ c]
  rfl
theorem W7_v37 : W7 (F := Ideal) m ρ c (D main_v37) = Cert.Spec.colMean (sum1 m ρ c) := by
  refine (KHost.mean1 (W6 m ρ c)).trans ?_
  rw [W6_v21 m ρ c, W6_arg1 m ρ c, W6_arg2 m ρ c, W6_v19 m ρ c]
  rfl
theorem W8_v38 : W8 (F := Ideal) m ρ c (D main_v38) = Cert.Spec.colVar (sum1 m ρ c) := by
  have ez : W7 (F := Ideal) m ρ c (D main_c_13) = _ := KHost.ddof1 (W6 m ρ c)
  refine (KHost.var1 (W7 m ρ c)).trans ?_
  rw [W7_v34 m ρ c, ez]
  exact Cert.Spec.colVarOf_zero _

theorem W9_v39 : W9 (F := Ideal) m ρ c (D main_v39) = Cert.Spec.asRow (Cert.Spec.colMean (sum1 m ρ c)) := by
  refine (KHost.rowMean1 (W8 m ρ c)).trans ?_
  rw [keep_v37_8_7 m ρ c, W7_v37 m ρ c]
theorem W9_v40 : W9 (F := Ideal) m ρ c (D main_v40) = Cert.Spec.asRow (Cert.Spec.colVar (sum1 m ρ c)) := by
  refine (KHost.rowVar1 (W8 m ρ c)).trans ?_
  rw [W8_v38 m ρ c]
theorem W9_v41 : W9 (F := Ideal) m ρ c (D main_v41) = Cert.Spec.asRow (W0 (F := Ideal) m ρ c (D main_arg7)) := by
  refine (KHost.rowGamma1 (W8 m ρ c)).trans ?_
  rw [keep_arg7_8_0 m ρ c]
theorem W9_v42 : W9 (F := Ideal) m ρ c (D main_v42) = Cert.Spec.asRow (W0 (F := Ideal) m ρ c (D main_arg8)) := by
  refine (KHost.rowBeta1 (W8 m ρ c)).trans ?_
  rw [keep_arg8_8_0 m ρ c]

theorem W10_v43 : W10 (F := Ideal) m ρ c (D main_v43) = act1 m ρ c := by
  refine (W10_arr m ρ c 5).trans ?_
  refine (region1 (V9 m ρ) c (Cert.Spec.colMean (sum1 m ρ c)) (Cert.Spec.colVar (sum1 m ρ c))
    (W0 (F := Ideal) m ρ c (D main_arg7)) (W0 (F := Ideal) m ρ c (D main_arg8))
    (W9_v39 m ρ c) (W9_v40 m ρ c) (W9_v41 m ρ c) (W9_v42 m ρ c)).trans ?_
  show Cert.Spec.bnRelu (W9 (F := Ideal) m ρ c (D main_v34)) _ _ _ _ = _
  rw [keep_v34_9_7 m ρ c, W7_v34 m ρ c]
  rfl

/-! ## Layer 2 (boundaries 11–16) -/

theorem W11_v44 : W11 (F := Ideal) m ρ c (D main_v44) = Cert.Spec.asColumn (nOut m ρ c) := by
  refine (KHost.column2 (W10 m ρ c)).trans ?_
  rw [W10_v9 m ρ c]

theorem W12_v45 : W12 (F := Ideal) m ρ c (D main_v45) = pre2 m ρ c := by
  refine (W12_arr m ρ c 3).trans ?_
  refine (region2 (V11 m ρ) c).trans ?_
  show Cert.Spec.scaleMatmul (W11 (F := Ideal) m ρ c (D main_v43)) (W11 (F := Ideal) m ρ c (D main_v44)) (W11 (F := Ideal) m ρ c (D main_arg4)) = _
  rw [keep_v43_11_10 m ρ c, W10_v43 m ρ c, W11_v44 m ρ c, keep_arg4_11_0 m ρ c]
  rfl

theorem W13_v58 : W13 (F := Ideal) m ρ c (D main_v58) = sum2 m ρ c := by
  refine (KHost.agg2 (W12 m ρ c)).trans ?_
  rw [W12_v45 m ρ c, W12_arg1 m ρ c, W12_arg2 m ρ c, W12_v19 m ρ c]
  rfl
theorem W13_v61 : W13 (F := Ideal) m ρ c (D main_v61) = Cert.Spec.colMean (sum2 m ρ c) := by
  refine (KHost.mean2 (W12 m ρ c)).trans ?_
  rw [W12_v45 m ρ c, W12_arg1 m ρ c, W12_arg2 m ρ c, W12_v19 m ρ c]
  rfl
theorem W14_v62 : W14 (F := Ideal) m ρ c (D main_v62) = Cert.Spec.colVar (sum2 m ρ c) := by
  have ez : W13 (F := Ideal) m ρ c (D main_c_19) = _ := KHost.ddof2 (W12 m ρ c)
  refine (KHost.var2 (W13 m ρ c)).trans ?_
  rw [W13_v58 m ρ c, ez]
  exact Cert.Spec.colVarOf_zero _

theorem W15_v63 : W15 (F := Ideal) m ρ c (D main_v63) = Cert.Spec.asRow (Cert.Spec.colMean (sum2 m ρ c)) := by
  refine (KHost.rowMean2 (W14 m ρ c)).trans ?_
  rw [keep_v61_14_13 m ρ c, W13_v61 m ρ c]
theorem W15_v64 : W15 (F := Ideal) m ρ c (D main_v64) = Cert.Spec.asRow (Cert.Spec.colVar (sum2 m ρ c)) := by
  refine (KHost.rowVar2 (W14 m ρ c)).trans ?_
  rw [W14_v62 m ρ c]
theorem W15_v65 : W15 (F := Ideal) m ρ c (D main_v65) = Cert.Spec.asRow (W0 (F := Ideal) m ρ c (D main_arg9)) := by
  refine (KHost.rowGamma2 (W14 m ρ c)).trans ?_
  rw [keep_arg9_14_0 m ρ c]
theorem W15_v66 : W15 (F := Ideal) m ρ c (D main_v66) = Cert.Spec.asRow (W0 (F := Ideal) m ρ c (D main_arg10)) := by
  refine (KHost.rowBeta2 (W14 m ρ c)).trans ?_
  rw [keep_arg10_14_0 m ρ c]

theorem W16_v67 : W16 (F := Ideal) m ρ c (D main_v67) = act2 m ρ c := by
  refine (W16_arr m ρ c 5).trans ?_
  refine (region3 (V15 m ρ) c (Cert.Spec.colMean (sum2 m ρ c)) (Cert.Spec.colVar (sum2 m ρ c))
    (W0 (F := Ideal) m ρ c (D main_arg9)) (W0 (F := Ideal) m ρ c (D main_arg10))
    (W15_v63 m ρ c) (W15_v64 m ρ c) (W15_v65 m ρ c) (W15_v66 m ρ c)).trans ?_
  show Cert.Spec.bnRelu (W15 (F := Ideal) m ρ c (D main_v58)) _ _ _ _ = _
  rw [keep_v58_15_13 m ρ c, W13_v58 m ρ c]
  rfl

/-! ## The output layer (boundaries 17–20) -/

theorem W17_v68 : W17 (F := Ideal) m ρ c (D main_v68) = Cert.Spec.asColumn (nOut m ρ c) := by
  refine (KHost.column4 (W16 m ρ c)).trans ?_
  rw [W16_v9 m ρ c]

theorem W18_v69 : W18 (F := Ideal) m ρ c (D main_v69) = pre3 m ρ c := by
  refine (W18_arr m ρ c 3).trans ?_
  refine (region4 (V17 m ρ) c).trans ?_
  show Cert.Spec.scaleMatmul40 (W17 (F := Ideal) m ρ c (D main_v67)) (W17 (F := Ideal) m ρ c (D main_v68)) (W17 (F := Ideal) m ρ c (D main_arg5)) = _
  rw [keep_v67_17_16 m ρ c, W16_v67 m ρ c, W17_v68 m ρ c, keep_arg5_17_0 m ρ c]
  rfl

theorem W19_v82 : W19 (F := Ideal) m ρ c (D main_v82) = sum3 m ρ c := by
  refine (KHost.agg3 (W18 m ρ c)).trans ?_
  rw [W18_v69 m ρ c, W18_arg1 m ρ c, W18_arg2 m ρ c, W18_v19 m ρ c]
  rfl
theorem W19_v83 : W19 (F := Ideal) m ρ c (D main_v83) = Cert.Spec.asRow40 (W0 (F := Ideal) m ρ c (D main_arg6)) := by
  refine (KHost.rowBias (W18 m ρ c)).trans ?_
  rw [keep_arg6_18_0 m ρ c]

/-- The result buffer at the last boundary: the network of the launch contents of the arguments. -/
theorem result : W20 (F := Ideal) m ρ c (D main_v84)
    = Cert.Spec.gcn (W0 (F := Ideal) m ρ c (D main_arg0)) (W0 (F := Ideal) m ρ c (D main_arg1)) (W0 (F := Ideal) m ρ c (D main_arg2))
        (W0 (F := Ideal) m ρ c (D main_arg3)) (W0 (F := Ideal) m ρ c (D main_arg4)) (W0 (F := Ideal) m ρ c (D main_arg5))
        (W0 (F := Ideal) m ρ c (D main_arg6)) (W0 (F := Ideal) m ρ c (D main_arg7)) (W0 (F := Ideal) m ρ c (D main_arg8))
        (W0 (F := Ideal) m ρ c (D main_arg9)) (W0 (F := Ideal) m ρ c (D main_arg10)) := by
  refine (W20_arr m ρ c 2).trans ?_
  refine (region5 (V19 m ρ) c (W0 (F := Ideal) m ρ c (D main_arg6)) (W19_v83 m ρ c)).trans ?_
  show Cert.Spec.biasAdd (W19 (F := Ideal) m ρ c (D main_v82)) _ = _
  rw [W19_v82 m ρ c]
  exact gcn_eq m ρ c

end Cert.KernelIdeal.KVal

end
-- ==== Proof.RefRunLines.lean ====
/-
  The reference program as a straight line of host operations.

  @main of the reference is 142 statements, six of them calls of module-local functions whose bodies are
  straight lines again (the variance calls a third). Substituting every body at its call gives 191
  operations, listed here in thirteen consecutive slices, one per stage of the network: the two degree
  norms; for each hidden layer the scaled product with its aggregation, the column means, the column
  variances, the normalisation with the rectifier; the output layer. The program's three windows are the
  lines of `ops0`, `ops1`, `ops2`, each a concatenation of slices, and @main the line of all of them. A called body's operations are
  listed at the call's own buffers, each with the type of the value it holds: the same operations the
  program states over typed references, whose transport along the buffers' types is the identity.

  Each slice comes with the list of the buffers it writes and the proof that its operations write nothing
  else: a buffer outside the list keeps its contents across the slice. A straight line run from any memory
  terminates with every buffer at the fold of the operations' results over the launch contents (`run_fold`).
-/
import proofs.«162067_j41154376630597_1_alg».proof.Proof.Gen.ReferenceIdeal
import Idealize.ShloMosaic.Lib.StableHlo.Run

noncomputable section

namespace Cert.ReferenceIdeal.RefValue

open Idealize.ShloMosaic Idealize.ShloMosaic.TcCoe Idealize.SL.Sem Idealize.ShloMosaic.StableHlo
open Cert.ReferenceIdeal Cert.ReferenceIdeal.Facts₀ Cert.ReferenceIdeal.Facts

variable [Cert.ReferenceIdeal.Facts]

/-- The fold over two lines in turn is the fold over the second from the fold over the first. -/
theorem after_app {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- An operation whose one written buffer is in a list writes inside the list. -/
theorem writes_sub_of_mem {Val : EltTy → Type} {W : List (Ref sig .tc)} {op : HloOp τ sig Val} (y : Ref sig .tc)
    (hw : op.writes = {(Proc.devRef .tc y : DevRef τ sig)}) (hy : y ∈ W) :
    op.writes ⊆ (W.map (Proc.devRef (τ := τ) .tc)).toFinset := by
  rw [hw, Finset.singleton_subset_iff, List.mem_toFinset]
  exact List.mem_map.mpr ⟨y, hy, rfl⟩

variable {F : FTy → Type} [FloatOps F]

/-- The out-degree norm: ones added into zeros along the edges' sources, the reciprocal root where positive. -/
def s0a : List (HloOp τ sig (Elt F)) :=
  [ StableHlo.nullary main_cst (constant S_ .f32 0x3F800000#32),
    StableHlo.unary main_cst main_v0 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg1 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x00000000#32),
    StableHlo.unary main_cst_1 main_v4 (broadcastInDim S100000 ![] bcast_S_S100000 : (⟨S_, .f32⟩ : BufTy).Contents (Elt F) → (⟨S100000, .f32⟩ : BufTy).Contents (Elt F)),
    StableHlo.binary main_v3 main_v4 main_v5 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v6 (broadcastInDim S100000 ![] bcast_S_S100000 : (⟨S_, .f32⟩ : BufTy).Contents (Elt F) → (⟨S100000, .f32⟩ : BufTy).Contents (Elt F)),
    StableHlo.binary main_v3 main_v6 main_v7 (maximumf : (⟨S100000, .f32⟩ : BufTy).Contents (Elt F) → (⟨S100000, .f32⟩ : BufTy).Contents (Elt F) → (⟨S100000, .f32⟩ : BufTy).Contents (Elt F)),
    StableHlo.unary main_v7 main_v8 (Host.rsqrt : (⟨S100000, .f32⟩ : BufTy).Contents (Elt F) → (⟨S100000, .f32⟩ : BufTy).Contents (Elt F)),
    StableHlo.nullary main_cst_3 (constant S_ .f32 0x00000000#32),
    StableHlo.unary main_cst_3 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v5 main_v8 main_call0_v1 main_v9 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]

/-- The buffers that slice writes. -/
def written_s0a : List (Ref sig .tc) :=
  [main_cst, main_v0, main_cst_0, main_v1, main_v2, main_v3, main_cst_1, main_v4, main_v5, main_cst_2, main_v6, main_v7, main_v8, main_cst_3, main_call0_v0, main_call0_v1, main_v9]

theorem s0a_sub : (s0a : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub ..,
    binary_bufs_sub .., nullary_bufs_sub .., unary_bufs_sub .., binary_bufs_sub .., unary_bufs_sub .., nullary_bufs_sub .., unary_bufs_sub .., unary_bufs_sub ..,
    ternary_bufs_sub ..⟩

theorem s0a_fresh : (s0a : List (HloOp τ sig (Elt F))).Forall fun op => op.fresh = ∅ :=
  ⟨rfl, rfl, rfl, rfl, rfl, rfl, rfl, rfl,
    rfl, rfl, rfl, rfl, rfl, rfl, rfl, rfl,
    rfl⟩

theorem s0a_writes : (s0a : List (HloOp τ sig (Elt F))).Forall fun op =>
    op.writes ⊆ (written_s0a.map (Proc.devRef (τ := τ) .tc)).toFinset :=
  ⟨writes_sub_of_mem main_cst rfl (by decide), writes_sub_of_mem main_v0 rfl (by decide), writes_sub_of_mem main_cst_0 rfl (by decide),
    writes_sub_of_mem main_v1 rfl (by decide), writes_sub_of_mem main_v2 rfl (by decide), writes_sub_of_mem main_v3 rfl (by decide),
    writes_sub_of_mem main_cst_1 rfl (by decide), writes_sub_of_mem main_v4 rfl (by decide), writes_sub_of_mem main_v5 rfl (by decide),
    writes_sub_of_mem main_cst_2 rfl (by decide), writes_sub_of_mem main_v6 rfl (by decide), writes_sub_of_mem main_v7 rfl (by decide),
    writes_sub_of_mem main_v8 rfl (by decide), writes_sub_of_mem main_cst_3 rfl (by decide), writes_sub_of_mem main_call0_v0 rfl (by decide),
    writes_sub_of_mem main_call0_v1 rfl (by decide), writes_sub_of_mem main_v9 rfl (by decide)⟩

/-- The in-degree norm, along the edges' destinations. -/
def s0b : List (HloOp τ sig (Elt F)) :=
  [ StableHlo.nullary main_cst_4 (constant S_ .f32 0x3F800000#32),
    StableHlo.unary main_cst_4 main_v10 (broadcastInDim S1600000 ![] bcast_S_S1600000 : (⟨S_, .f32⟩ : BufTy).Contents (Elt F) → (⟨S1600000, .f32⟩ : BufTy).Contents (Elt F)),
    StableHlo.nullary main_cst_5 (constant S_ .f32 0x00000000#32),
    StableHlo.unary main_cst_5 main_v11 (broadcastInDim S100000 ![] bcast_S_S100000 : (⟨S_, .f32⟩ : BufTy).Contents (Elt F) → (⟨S100000, .f32⟩ : BufTy).Contents (Elt F)),
    StableHlo.unary main_arg2 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_6 (constant S_ .f32 0x00000000#32),
    StableHlo.unary main_cst_6 main_v14 (broadcastInDim S100000 ![] bcast_S_S100000 : (⟨S_, .f32⟩ : BufTy).Contents (Elt F) → (⟨S100000, .f32⟩ : BufTy).Contents (Elt F)),
    StableHlo.binary main_v13 main_v14 main_v15 (cmpf .ogt : (⟨S100000, .f32⟩ : BufTy).Contents (Elt F) → (⟨S100000, .f32⟩ : BufTy).Contents (Elt F) → (⟨S100000, .i1⟩ : BufTy).Contents (Elt F)),
    StableHlo.nullary main_cst_7 (constant S_ .f32 0x3F800000#32),
    StableHlo.unary main_cst_7 main_v16 (broadcastInDim S100000 ![] bcast_S_S100000 : (⟨S_, .f32⟩ : BufTy).Contents (Elt F) → (⟨S100000, .f32⟩ : BufTy).Contents (Elt F)),
    StableHlo.binary main_v13 main_v16 main_v17 (maximumf : (⟨S100000, .f32⟩ : BufTy).Contents (Elt F) → (⟨S100000, .f32⟩ : BufTy).Contents (Elt F) → (⟨S100000, .f32⟩ : BufTy).Contents (Elt F)),
    StableHlo.unary main_v17 main_v18 (Host.rsqrt : (⟨S100000, .f32⟩ : BufTy).Contents (Elt F) → (⟨S100000, .f32⟩ : BufTy).Contents (Elt F)),
    StableHlo.nullary main_cst_8 (constant S_ .f32 0x00000000#32),
    StableHlo.unary main_cst_8 main_call1_v0 (id : (⟨S_, .f32⟩ : BufTy).Contents (Elt F) → (⟨S_, .f32⟩ : BufTy).Contents (Elt F)),
    StableHlo.unary main_call1_v0 main_call1_v1 (broadcastInDim S100000 ![] bcast_S_S100000 : (⟨S_, .f32⟩ : BufTy).Contents (Elt F) → (⟨S100000, .f32⟩ : BufTy).Contents (Elt F)),
    StableHlo.ternary main_v15 main_v18 main_call1_v1 main_v19 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]

/-- The buffers that slice writes. -/
def written_s0b : List (Ref sig .tc) :=
  [main_cst_4, main_v10, main_cst_5, main_v11, main_v12, main_v13, main_cst_6, main_v14, main_v15, main_cst_7, main_v16, main_v17, main_v18, main_cst_8, main_call1_v0, main_call1_v1, main_v19]

theorem s0b_sub : (s0b : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub ..,
    binary_bufs_sub .., nullary_bufs_sub .., unary_bufs_sub .., binary_bufs_sub .., unary_bufs_sub .., nullary_bufs_sub .., unary_bufs_sub .., unary_bufs_sub ..,
    ternary_bufs_sub ..⟩

theorem s0b_fresh : (s0b : List (HloOp τ sig (Elt F))).Forall fun op => op.fresh = ∅ :=
  ⟨rfl, rfl, rfl, rfl, rfl, rfl, rfl, rfl,
    rfl, rfl, rfl, rfl, rfl, rfl, rfl, rfl,
    rfl⟩

theorem s0b_writes : (s0b : List (HloOp τ sig (Elt F))).Forall fun op =>
    op.writes ⊆ (written_s0b.map (Proc.devRef (τ := τ) .tc)).toFinset :=
  ⟨writes_sub_of_mem main_cst_4 rfl (by decide), writes_sub_of_mem main_v10 rfl (by decide), writes_sub_of_mem main_cst_5 rfl (by decide),
    writes_sub_of_mem main_v11 rfl (by decide), writes_sub_of_mem main_v12 rfl (by decide), writes_sub_of_mem main_v13 rfl (by decide),
    writes_sub_of_mem main_cst_6 rfl (by decide), writes_sub_of_mem main_v14 rfl (by decide), writes_sub_of_mem main_v15 rfl (by decide),
    writes_sub_of_mem main_cst_7 rfl (by decide), writes_sub_of_mem main_v16 rfl (by decide), writes_sub_of_mem main_v17 rfl (by decide),
    writes_sub_of_mem main_v18 rfl (by decide), writes_sub_of_mem main_cst_8 rfl (by decide), writes_sub_of_mem main_call1_v0 rfl (by decide),
    writes_sub_of_mem main_call1_v1 rfl (by decide), writes_sub_of_mem main_v19 rfl (by decide)⟩

/-- The first layer's scaled product, its gather along the sources, the sum into the destinations, the in-norm scaling. -/
def s0c : List (HloOp τ sig (Elt F)) :=
  [ StableHlo.unary main_v9 main_v20 (broadcastInDim S100000x1 ![0] bcast_S100000_S100000x1_0 : (⟨S100000, .f32⟩ : BufTy).Contents (Elt F) → (⟨S100000x1, .f32⟩ : BufTy).Contents (Elt F)),
    StableHlo.unary main_v20 main_v21 (broadcastInDim S100000x128 ![0, 1] bcast_S100000x1_S100000x128_0_1 : (⟨S100000x1, .f32⟩ : BufTy).Contents (Elt F) → (⟨S100000x128, .f32⟩ : BufTy).Contents (Elt F)),
    StableHlo.binary main_arg0 main_v21 main_v22 (mulf : (⟨S100000x128, .f32⟩ : BufTy).Contents (Elt F) → (⟨S100000x128, .f32⟩ : BufTy).Contents (Elt F) → (⟨S100000x128, .f32⟩ : BufTy).Contents (Elt F)),
    StableHlo.binary main_v22 main_arg3 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c (constantI S_ 32 0#32),
    StableHlo.unary main_c main_v24 (broadcastInDim S1600000 ![] bcast_S_S1600000 : (⟨S_, .i32⟩ : BufTy).Contents (Elt F) → (⟨S1600000, .i32⟩ : BufTy).Contents (Elt F)),
    StableHlo.binary main_arg1 main_v24 main_v25 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v26 (broadcastInDim S1600000 ![] bcast_S_S1600000 : (⟨S_, .i32⟩ : BufTy).Contents (Elt F) → (⟨S1600000, .i32⟩ : BufTy).Contents (Elt F)),
    StableHlo.binary main_arg1 main_v26 main_v27 (addi : (⟨S1600000, .i32⟩ : BufTy).Contents (Elt F) → (⟨S1600000, .i32⟩ : BufTy).Contents (Elt F) → (⟨S1600000, .i32⟩ : BufTy).Contents (Elt F)),
    StableHlo.ternary main_v25 main_v27 main_arg1 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v28 main_v29 (broadcastInDim S1600000x1 ![0] bcast_S1600000_S1600000x1_0 : (⟨S1600000, .i32⟩ : BufTy).Contents (Elt F) → (⟨S1600000x1, .i32⟩ : BufTy).Contents (Elt F)),
    StableHlo.binary main_v23 main_v29 main_v30 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_10 (constant S_ .f32 0x00000000#32),
    StableHlo.unary main_cst_10 main_v31 (broadcastInDim S100000x128 ![] bcast_S_S100000x128 : (⟨S_, .f32⟩ : BufTy).Contents (Elt F) → (⟨S100000x128, .f32⟩ : BufTy).Contents (Elt F)),
    StableHlo.unary main_arg2 main_v32 (broadcastInDim S1600000x1 ![0] bcast_S1600000_S1600000x1_0 : (⟨S1600000, .i32⟩ : BufTy).Contents (Elt F) → (⟨S1600000x1, .i32⟩ : BufTy).Contents (Elt F)),
    StableHlo.ternary main_v31 main_v32 main_v30 main_v33 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v19 main_v34 (broadcastInDim S100000x1 ![0] bcast_S100000_S100000x1_0 : (⟨S100000, .f32⟩ : BufTy).Contents (Elt F) → (⟨S100000x1, .f32⟩ : BufTy).Contents (Elt F)),
    StableHlo.unary main_v34 main_v35 (broadcastInDim S100000x128 ![0, 1] bcast_S100000x1_S100000x128_0_1 : (⟨S100000x1, .f32⟩ : BufTy).Contents (Elt F) → (⟨S100000x128, .f32⟩ : BufTy).Contents (Elt F)),
    StableHlo.binary main_v33 main_v35 main_v36 (mulf : (⟨S100000x128, .f32⟩ : BufTy).Contents (Elt F) → (⟨S100000x128, .f32⟩ : BufTy).Contents (Elt F) → (⟨S100000x128, .f32⟩ : BufTy).Contents (Elt F)) ]

/-- The buffers that slice writes. -/
def written_s0c : List (Ref sig .tc) :=
  [main_v20, main_v21, main_v22, main_v23, main_c, main_v24, main_v25, main_c_9, main_v26, main_v27, main_v28, main_v29, main_v30, main_cst_10, main_v31, main_v32, main_v33, main_v34, main_v35, main_v36]

theorem s0c_sub : (s0c : List (HloOp τ sig (Elt F))).Forall fun op => op.bufs ⊆ tcRefs τ sig :=
  ⟨unary_bufs_sub .., unary_bufs_sub .., binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub .., unary_bufs_sub .., unary_bufs_sub ..,
    ternary_bufs_sub .., unary_bufs_sub .., unary_bufs_sub .., binary_bufs_sub ..⟩

theorem s0c_fresh : (s0c : List (HloOp τ sig (Elt F))).Forall fun op => op.fresh = ∅ :=
  ⟨rfl, rfl, rfl, rfl, rfl, rfl, rfl, rfl,
    rfl, rfl, rfl, rfl, rfl, rfl, rfl, rfl,
    rfl, rfl, rfl, rfl⟩

theorem s0c_writes : (s0c : List (HloOp τ sig (Elt F))).Forall fun op =>
    op.writes ⊆ (written_s0c.map (Proc.devRef (τ := τ) .tc)).toFinset :=
  ⟨writes_sub_of_mem main_v20 rfl (by decide), writes_sub_of_mem main_v21 rfl (by decide), writes_sub_of_mem main_v22 rfl (by decide),
    writes_sub_of_mem main_v23 rfl (by decide), writes_sub_of_mem main_c rfl (by decide), writes_sub_of_mem main_v24 rfl (by decide),
    writes_sub_of_mem main_v25 rfl (by decide), writes_sub_of_mem main_c_9 rfl (by decide), writes_sub_of_mem main_v26 rfl (by decide),
    writes_sub_of_mem main_v27 rfl (by decide), writes_sub_of_mem main_v28 rfl (by decide), writes_sub_of_mem main_v29 rfl (by decide),
    writes_sub_of_mem main_v30 rfl (by decide), writes_sub_of_mem main_cst_10 rfl (by decide), writes_sub_of_mem main_v31 rfl (by decide),
    writes_sub_of_mem main_v32 rfl (by decide), writes_sub_of_mem main_v33 rfl (by decide), writes_sub_of_mem main_v34 rfl (by decide),
    writes_sub_of_mem main_v35 rfl (by decide), writes_sub_of_mem main_v36 rfl (by decide)⟩

/-- The first layer's column means. -/
def s0d : List (HloOp τ sig (Elt F)) :=
  [ StableHlo.nullary main_cst_11 (constant S_ .f32 0x00000000#32),
    StableHlo.binary main_v36 main_cst_11 main_v37 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_12 (constant S_ .f32 0x47C35000#32),
    StableHlo.unary main_cst_12 main_v38 (broadcastInDim S128 ![] bcast_S_S128 : (⟨S_, .f32⟩ : BufTy).Contents (Elt F) → (⟨S128, .f32⟩ : BufTy).Contents (Elt F)),
    StableHlo.binary main_v37 main_v38 main_v39 (Host.divf : (⟨S128, .f32⟩ : BufTy).Contents (Elt F) → (⟨S128, .f32⟩ : BufTy).Contents (Elt F) → (⟨S128, .f32⟩ : BufTy).Contents (Elt F)) ]

/-- The buffers that slice writes. -/
def written_s0d : List (Ref sig .tc) :=
  [main_cst_11, main_v37, main_cst_12, main_v38, main_v39]

theorem s0d_sub : (s0d : List (HloOp τ sig (Elt F))).Forall fun op => op.bufs ⊆ tcRefs τ sig :=
  ⟨nullary_bufs_sub .., binary_bufs_sub .., nullary_bufs_sub .., unary_bufs_sub .., binary_bufs_sub ..⟩

theorem s0d_fresh : (s0d : List (HloOp τ sig (Elt F))).Forall fun op => op.fresh = ∅ :=
  ⟨rfl, rfl, rfl, rfl, rfl⟩

theorem s0d_writes : (s0d : List (HloOp τ sig (Elt F))).Forall fun op =>
    op.writes ⊆ (written_s0d.map (Proc.devRef (τ := τ) .tc)).toFinset :=
  ⟨writes_sub_of_mem main_cst_11 rfl (by decide), writes_sub_of_mem main_v37 rfl (by decide), writes_sub_of_mem main_cst_12 rfl (by decide),
    writes_sub_of_mem main_v38 rfl (by decide), writes_sub_of_mem main_v39 rfl (by decide)⟩

/-- The first layer's column variances (the variance function, with its selection, substituted). -/
def s0e : List (HloOp τ sig (Elt F)) :=
  [ StableHlo.nullary main_c_13 (constantI S_ 32 0#32),
    StableHlo.nullary main_call2_cst (constant S_ .f32 0x00000000#32 : (⟨S_, .f32⟩ : BufTy).Contents (Elt F)),
    StableHlo.binary main_v36 main_call2_cst main_call2_v0 (fun x v => Host.reduceAdd x v reducesTo_S100000x128_S128_d0 h_S_ : (⟨S100000x128, .f32⟩ : BufTy).Contents (Elt F) → (⟨S_, .f32⟩ : BufTy).Contents (Elt F) → (⟨S128, .f32⟩ : BufTy).Contents (Elt F)),
    StableHlo.unary main_call2_v0 main_call2_v1 (broadcastInDim S1x128 ![1] bcast_S128_S1x128_1 : (⟨S128, .f32⟩ : BufTy).Contents (Elt F) → (⟨S1x128, .f32⟩ : BufTy).Contents (Elt F)),
    StableHlo.nullary main_call2_cst_0 (constant S_ .f32 0x47C35000#32 : (⟨S_, .f32⟩ : BufTy).Contents (Elt F)),
    StableHlo.unary main_call2_cst_0 main_call2_v2 (broadcastInDim S1x128 ![] bcast_S_S1x128 : (⟨S_, .f32⟩ : BufTy).Contents (Elt F) → (⟨S1x128, .f32⟩ : BufTy).Contents (Elt F)),
    StableHlo.binary main_call2_v1 main_call2_v2 main_call2_v3 (Host.divf : (⟨S1x128, .f32⟩ : BufTy).Contents (Elt F) → (⟨S1x128, .f32⟩ : BufTy).Contents (Elt F) → (⟨S1x128, .f32⟩ : BufTy).Contents (Elt F)),
    StableHlo.unary main_call2_v3 main_call2_v4 (broadcastInDim S100000x128 ![0, 1] bcast_S1x128_S100000x128_0_1 : (⟨S1x128, .f32⟩ : BufTy).Contents (Elt F) → (⟨S100000x128, .f32⟩ : BufTy).Contents (Elt F)),
    StableHlo.binary main_v36 main_call2_v4 main_call2_v5 (subf : (⟨S100000x128, .f32⟩ : BufTy).Contents (Elt F) → (⟨S100000x128, .f32⟩ : BufTy).Contents (Elt F) → (⟨S100000x128, .f32⟩ : BufTy).Contents (Elt F)),
    StableHlo.binary main_call2_v5 main_call2_v5 main_call2_v6 (mulf : (⟨S100000x128, .f32⟩ : BufTy).Contents (Elt F) → (⟨S100000x128, .f32⟩ : BufTy).Contents (Elt F) → (⟨S100000x128, .f32⟩ : BufTy).Contents (Elt F)),
    StableHlo.unary main_c_13 main_call2_v7 (sitofp .f32 : (⟨S_, .i32⟩ : BufTy).Contents (Elt F) → (⟨S_, .f32⟩ : BufTy).Contents (Elt F)),
    StableHlo.nullary main_call2_cst_1 (constant S_ .f32 0x47C35000#32 : (⟨S_, .f32⟩ : BufTy).Contents (Elt F)),
    StableHlo.binary main_call2_cst_1 main_call2_v7 main_call2_v8 (subf : (⟨S_, .f32⟩ : BufTy).Contents (Elt F) → (⟨S_, .f32⟩ : BufTy).Contents (Elt F) → (⟨S_, .f32⟩ : BufTy).Contents (Elt F)),
    StableHlo.nullary main_call2_cst_2 (constant S_ .f32 0x00000000#32 : (⟨S_, .f32⟩ : BufTy).Contents (Elt F)),
    StableHlo.binary main_call2_v6 main_call2_cst_2 main_call2_v9 (fun x v => Host.reduceAdd x v reducesTo_S100000x128_S128_d0 h_S_ : (⟨S100000x128, .f32⟩ : BufTy).Contents (Elt F) → (⟨S_, .f32⟩ : BufTy).Contents (Elt F) → (⟨S128, .f32⟩ : BufTy).Contents (Elt F)),
    StableHlo.unary main_call2_v8 main_call2_v10 (broadcastInDim S128 ![] bcast_S_S128 : (⟨S_, .f32⟩ : BufTy).Contents (Elt F) → (⟨S128, .f32⟩ : BufTy).Contents (Elt F)),
    StableHlo.binary main_call2_v9 main_call2_v10 main_call2_v11 (Host.divf : (⟨S128, .f32⟩ : BufTy).Contents (Elt F) → (⟨S128, .f32⟩ : BufTy).Contents (Elt F) → (⟨S128, .f32⟩ : BufTy).Contents (Elt F)),
    StableHlo.nullary main_call2_cst_3 (constant S_ .f32 0x00000000#32 : (⟨S_, .f32⟩ : BufTy).Contents (Elt F)),
    StableHlo.binary main_call2_v8 main_call2_cst_3 main_call2_v12 (cmpf .ogt : (⟨S_, .f32⟩ : BufTy).Contents (Elt F) → (⟨S_, .f32⟩ : BufTy).Contents (Elt F) → (⟨S_, .i1⟩ : BufTy).Contents (Elt F)),
    StableHlo.nullary main_call2_cst_4 (constant S_ .f32 0x7FC00000#32 : (⟨S_, .f32⟩ : BufTy).Contents (Elt F)),
    StableHlo.unary main_call2_cst_4 main_call2_call0_v0 (id : (⟨S_, .f32⟩ : BufTy).Contents (Elt F) → (⟨S_, .f32⟩ : BufTy).Contents (Elt F)),
    StableHlo.unary main_call2_call0_v0 main_call2_call0_v1 (broadcastInDim S128 ![] bcast_S_S128 : (⟨S_, .f32⟩ : BufTy).Contents (Elt F) → (⟨S128, .f32⟩ : BufTy).Contents (Elt F)),
    StableHlo.ternary main_call2_v12 main_call2_v11 main_call2_call0_v1 main_v40 (fun p a b => select (broadcastInDim S128 ![] bcast_S_S128 p) a b : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- The buffers that slice writes. -/
def written_s0e : List (Ref sig .tc) :=
  [main_c_13, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v40]

theorem s0e_sub : (s0e : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub .., ternary_bufs_sub ..⟩

theorem s0e_fresh : (s0e : List (HloOp τ sig (Elt F))).Forall fun op => op.fresh = ∅ :=
  ⟨rfl, rfl, rfl, rfl, rfl, rfl, rfl, rfl,
    rfl, rfl, rfl, rfl, rfl, rfl, rfl, rfl,
    rfl, rfl, rfl, rfl, rfl, rfl, rfl⟩

theorem s0e_writes : (s0e : List (HloOp τ sig (Elt F))).Forall fun op =>
    op.writes ⊆ (written_s0e.map (Proc.devRef (τ := τ) .tc)).toFinset :=
  ⟨writes_sub_of_mem main_c_13 rfl (by decide), writes_sub_of_mem main_call2_cst rfl (by decide), writes_sub_of_mem main_call2_v0 rfl (by decide),
    writes_sub_of_mem main_call2_v1 rfl (by decide), writes_sub_of_mem main_call2_cst_0 rfl (by decide), writes_sub_of_mem main_call2_v2 rfl (by decide),
    writes_sub_of_mem main_call2_v3 rfl (by decide), writes_sub_of_mem main_call2_v4 rfl (by decide), writes_sub_of_mem main_call2_v5 rfl (by decide),
    writes_sub_of_mem main_call2_v6 rfl (by decide), writes_sub_of_mem main_call2_v7 rfl (by decide), writes_sub_of_mem main_call2_cst_1 rfl (by decide),
    writes_sub_of_mem main_call2_v8 rfl (by decide), writes_sub_of_mem main_call2_cst_2 rfl (by decide), writes_sub_of_mem main_call2_v9 rfl (by decide),
    writes_sub_of_mem main_call2_v10 rfl (by decide), writes_sub_of_mem main_call2_v11 rfl (by decide), writes_sub_of_mem main_call2_cst_3 rfl (by decide),
    writes_sub_of_mem main_call2_v12 rfl (by decide), writes_sub_of_mem main_call2_cst_4 rfl (by decide), writes_sub_of_mem main_call2_call0_v0 rfl (by decide),
    writes_sub_of_mem main_call2_call0_v1 rfl (by decide), writes_sub_of_mem main_v40 rfl (by decide)⟩

/-- The first layer's deviations from the column means. -/
def s0f : List (HloOp τ sig (Elt F)) :=
  [ StableHlo.unary main_v39 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v42 main_v43 (subf : (⟨S100000x128, .f32⟩ : BufTy).Contents (Elt F) → (⟨S100000x128, .f32⟩ : BufTy).Contents (Elt F) → (⟨S100000x128, .f32⟩ : BufTy).Contents (Elt F)) ]

/-- The buffers that slice writes. -/
def written_s0f : List (Ref sig .tc) :=
  [main_v41, main_v42, main_v43]

theorem s0f_sub : (s0f : List (HloOp τ sig (Elt F))).Forall fun op => op.bufs ⊆ tcRefs τ sig :=
  ⟨unary_bufs_sub .., unary_bufs_sub .., binary_bufs_sub ..⟩

theorem s0f_fresh : (s0f : List (HloOp τ sig (Elt F))).Forall fun op => op.fresh = ∅ :=
  ⟨rfl, rfl, rfl⟩

theorem s0f_writes : (s0f : List (HloOp τ sig (Elt F))).Forall fun op =>
    op.writes ⊆ (written_s0f.map (Proc.devRef (τ := τ) .tc)).toFinset :=
  ⟨writes_sub_of_mem main_v41 rfl (by decide), writes_sub_of_mem main_v42 rfl (by decide), writes_sub_of_mem main_v43 rfl (by decide)⟩

/-- The first layer's normalisation, scale, shift and rectifier. -/
def s1a : List (HloOp τ sig (Elt F)) :=
  [ StableHlo.nullary main_cst_14 (constant S_ .f32 0x3727C5AC#32),
    StableHlo.unary main_cst_14 main_v44 (broadcastInDim S128 ![] bcast_S_S128 : (⟨S_, .f32⟩ : BufTy).Contents (Elt F) → (⟨S128, .f32⟩ : BufTy).Contents (Elt F)),
    StableHlo.binary main_v40 main_v44 main_v45 (addf : (⟨S128, .f32⟩ : BufTy).Contents (Elt F) → (⟨S128, .f32⟩ : BufTy).Contents (Elt F) → (⟨S128, .f32⟩ : BufTy).Contents (Elt F)),
    StableHlo.unary main_v45 main_v46 (Host.rsqrt : (⟨S128, .f32⟩ : BufTy).Contents (Elt F) → (⟨S128, .f32⟩ : BufTy).Contents (Elt F)),
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v48 main_v49 (mulf : (⟨S100000x128, .f32⟩ : BufTy).Contents (Elt F) → (⟨S100000x128, .f32⟩ : BufTy).Contents (Elt F) → (⟨S100000x128, .f32⟩ : BufTy).Contents (Elt F)),
    StableHlo.unary main_arg7 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v51 main_v52 (mulf : (⟨S100000x128, .f32⟩ : BufTy).Contents (Elt F) → (⟨S100000x128, .f32⟩ : BufTy).Contents (Elt F) → (⟨S100000x128, .f32⟩ : BufTy).Contents (Elt F)),
    StableHlo.unary main_arg8 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v52 main_v54 main_v55 (addf : (⟨S100000x128, .f32⟩ : BufTy).Contents (Elt F) → (⟨S100000x128, .f32⟩ : BufTy).Contents (Elt F) → (⟨S100000x128, .f32⟩ : BufTy).Contents (Elt F)),
    StableHlo.nullary main_call3_cst (constant S_ .f32 0x00000000#32 : (⟨S_, .f32⟩ : BufTy).Contents (Elt F)),
    StableHlo.unary main_call3_cst main_call3_v0 (broadcastInDim S100000x128 ![] bcast_S_S100000x128 : (⟨S_, .f32⟩ : BufTy).Contents (Elt F) → (⟨S100000x128, .f32⟩ : BufTy).Contents (Elt F)),
    StableHlo.binary main_v55 main_call3_v0 main_v56 (maximumf : (⟨S100000x128, .f32⟩ : BufTy).Contents (Elt F) → (⟨S100000x128, .f32⟩ : BufTy).Contents (Elt F) → (⟨S100000x128, .f32⟩ : BufTy).Contents (Elt F)) ]

/-- The buffers that slice writes. -/
def written_s1a : List (Ref sig .tc) :=
  [main_cst_14, main_v44, main_v45, main_v46, main_v47, main_v48, main_v49, main_v50, main_v51, main_v52, main_v53, main_v54, main_v55, main_call3_cst, main_call3_v0, main_v56]

theorem s1a_sub : (s1a : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub .., unary_bufs_sub .., binary_bufs_sub ..⟩

theorem s1a_fresh : (s1a : List (HloOp τ sig (Elt F))).Forall fun op => op.fresh = ∅ :=
  ⟨rfl, rfl, rfl, rfl, rfl, rfl, rfl, rfl,
    rfl, rfl, rfl, rfl, rfl, rfl, rfl, rfl⟩

theorem s1a_writes : (s1a : List (HloOp τ sig (Elt F))).Forall fun op =>
    op.writes ⊆ (written_s1a.map (Proc.devRef (τ := τ) .tc)).toFinset :=
  ⟨writes_sub_of_mem main_cst_14 rfl (by decide), writes_sub_of_mem main_v44 rfl (by decide), writes_sub_of_mem main_v45 rfl (by decide),
    writes_sub_of_mem main_v46 rfl (by decide), writes_sub_of_mem main_v47 rfl (by decide), writes_sub_of_mem main_v48 rfl (by decide),
    writes_sub_of_mem main_v49 rfl (by decide), writes_sub_of_mem main_v50 rfl (by decide), writes_sub_of_mem main_v51 rfl (by decide),
    writes_sub_of_mem main_v52 rfl (by decide), writes_sub_of_mem main_v53 rfl (by decide), writes_sub_of_mem main_v54 rfl (by decide),
    writes_sub_of_mem main_v55 rfl (by decide), writes_sub_of_mem main_call3_cst rfl (by decide), writes_sub_of_mem main_call3_v0 rfl (by decide),
    writes_sub_of_mem main_v56 rfl (by decide)⟩

/-- The second layer's scaled product and aggregation. -/
def s1b : List (HloOp τ sig (Elt F)) :=
  [ StableHlo.unary main_v9 main_v57 (broadcastInDim S100000x1 ![0] bcast_S100000_S100000x1_0 : (⟨S100000, .f32⟩ : BufTy).Contents (Elt F) → (⟨S100000x1, .f32⟩ : BufTy).Contents (Elt F)),
    StableHlo.unary main_v57 main_v58 (broadcastInDim S100000x128 ![0, 1] bcast_S100000x1_S100000x128_0_1 : (⟨S100000x1, .f32⟩ : BufTy).Contents (Elt F) → (⟨S100000x128, .f32⟩ : BufTy).Contents (Elt F)),
    StableHlo.binary main_v56 main_v58 main_v59 (mulf : (⟨S100000x128, .f32⟩ : BufTy).Contents (Elt F) → (⟨S100000x128, .f32⟩ : BufTy).Contents (Elt F) → (⟨S100000x128, .f32⟩ : BufTy).Contents (Elt F)),
    StableHlo.binary main_v59 main_arg4 main_v60 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_15 (constantI S_ 32 0#32),
    StableHlo.unary main_c_15 main_v61 (broadcastInDim S1600000 ![] bcast_S_S1600000 : (⟨S_, .i32⟩ : BufTy).Contents (Elt F) → (⟨S1600000, .i32⟩ : BufTy).Contents (Elt F)),
    StableHlo.binary main_arg1 main_v61 main_v62 (cmpi .slt : (⟨S1600000, .i32⟩ : BufTy).Contents (Elt F) → (⟨S1600000, .i32⟩ : BufTy).Contents (Elt F) → (⟨S1600000, .i1⟩ : BufTy).Contents (Elt F)),
    StableHlo.nullary main_c_16 (constantI S_ 32 100000#32),
    StableHlo.unary main_c_16 main_v63 (broadcastInDim S1600000 ![] bcast_S_S1600000 : (⟨S_, .i32⟩ : BufTy).Contents (Elt F) → (⟨S1600000, .i32⟩ : BufTy).Contents (Elt F)),
    StableHlo.binary main_arg1 main_v63 main_v64 (addi : (⟨S1600000, .i32⟩ : BufTy).Contents (Elt F) → (⟨S1600000, .i32⟩ : BufTy).Contents (Elt F) → (⟨S1600000, .i32⟩ : BufTy).Contents (Elt F)),
    StableHlo.ternary main_v62 main_v64 main_arg1 main_v65 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v65 main_v66 (broadcastInDim S1600000x1 ![0] bcast_S1600000_S1600000x1_0 : (⟨S1600000, .i32⟩ : BufTy).Contents (Elt F) → (⟨S1600000x1, .i32⟩ : BufTy).Contents (Elt F)),
    StableHlo.binary main_v60 main_v66 main_v67 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_17 (constant S_ .f32 0x00000000#32),
    StableHlo.unary main_cst_17 main_v68 (broadcastInDim S100000x128 ![] bcast_S_S100000x128 : (⟨S_, .f32⟩ : BufTy).Contents (Elt F) → (⟨S100000x128, .f32⟩ : BufTy).Contents (Elt F)),
    StableHlo.unary main_arg2 main_v69 (broadcastInDim S1600000x1 ![0] bcast_S1600000_S1600000x1_0 : (⟨S1600000, .i32⟩ : BufTy).Contents (Elt F) → (⟨S1600000x1, .i32⟩ : BufTy).Contents (Elt F)),
    StableHlo.ternary main_v68 main_v69 main_v67 main_v70 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v19 main_v71 (broadcastInDim S100000x1 ![0] bcast_S100000_S100000x1_0 : (⟨S100000, .f32⟩ : BufTy).Contents (Elt F) → (⟨S100000x1, .f32⟩ : BufTy).Contents (Elt F)),
    StableHlo.unary main_v71 main_v72 (broadcastInDim S100000x128 ![0, 1] bcast_S100000x1_S100000x128_0_1 : (⟨S100000x1, .f32⟩ : BufTy).Contents (Elt F) → (⟨S100000x128, .f32⟩ : BufTy).Contents (Elt F)),
    StableHlo.binary main_v70 main_v72 main_v73 (mulf : (⟨S100000x128, .f32⟩ : BufTy).Contents (Elt F) → (⟨S100000x128, .f32⟩ : BufTy).Contents (Elt F) → (⟨S100000x128, .f32⟩ : BufTy).Contents (Elt F)) ]

/-- The buffers that slice writes. -/
def written_s1b : List (Ref sig .tc) :=
  [main_v57, main_v58, main_v59, main_v60, main_c_15, main_v61, main_v62, main_c_16, main_v63, main_v64, main_v65, main_v66, main_v67, main_cst_17, main_v68, main_v69, main_v70, main_v71, main_v72, main_v73]

theorem s1b_sub : (s1b : List (HloOp τ sig (Elt F))).Forall fun op => op.bufs ⊆ tcRefs τ sig :=
  ⟨unary_bufs_sub .., unary_bufs_sub .., binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub .., unary_bufs_sub .., unary_bufs_sub ..,
    ternary_bufs_sub .., unary_bufs_sub .., unary_bufs_sub .., binary_bufs_sub ..⟩

theorem s1b_fresh : (s1b : List (HloOp τ sig (Elt F))).Forall fun op => op.fresh = ∅ :=
  ⟨rfl, rfl, rfl, rfl, rfl, rfl, rfl, rfl,
    rfl, rfl, rfl, rfl, rfl, rfl, rfl, rfl,
    rfl, rfl, rfl, rfl⟩

theorem s1b_writes : (s1b : List (HloOp τ sig (Elt F))).Forall fun op =>
    op.writes ⊆ (written_s1b.map (Proc.devRef (τ := τ) .tc)).toFinset :=
  ⟨writes_sub_of_mem main_v57 rfl (by decide), writes_sub_of_mem main_v58 rfl (by decide), writes_sub_of_mem main_v59 rfl (by decide),
    writes_sub_of_mem main_v60 rfl (by decide), writes_sub_of_mem main_c_15 rfl (by decide), writes_sub_of_mem main_v61 rfl (by decide),
    writes_sub_of_mem main_v62 rfl (by decide), writes_sub_of_mem main_c_16 rfl (by decide), writes_sub_of_mem main_v63 rfl (by decide),
    writes_sub_of_mem main_v64 rfl (by decide), writes_sub_of_mem main_v65 rfl (by decide), writes_sub_of_mem main_v66 rfl (by decide),
    writes_sub_of_mem main_v67 rfl (by decide), writes_sub_of_mem main_cst_17 rfl (by decide), writes_sub_of_mem main_v68 rfl (by decide),
    writes_sub_of_mem main_v69 rfl (by decide), writes_sub_of_mem main_v70 rfl (by decide), writes_sub_of_mem main_v71 rfl (by decide),
    writes_sub_of_mem main_v72 rfl (by decide), writes_sub_of_mem main_v73 rfl (by decide)⟩

/-- The second layer's column means. -/
def s1c : List (HloOp τ sig (Elt F)) :=
  [ StableHlo.nullary main_cst_18 (constant S_ .f32 0x00000000#32),
    StableHlo.binary main_v73 main_cst_18 main_v74 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_19 (constant S_ .f32 0x47C35000#32),
    StableHlo.unary main_cst_19 main_v75 (broadcastInDim S128 ![] bcast_S_S128 : (⟨S_, .f32⟩ : BufTy).Contents (Elt F) → (⟨S128, .f32⟩ : BufTy).Contents (Elt F)),
    StableHlo.binary main_v74 main_v75 main_v76 (Host.divf : (⟨S128, .f32⟩ : BufTy).Contents (Elt F) → (⟨S128, .f32⟩ : BufTy).Contents (Elt F) → (⟨S128, .f32⟩ : BufTy).Contents (Elt F)) ]

/-- The buffers that slice writes. -/
def written_s1c : List (Ref sig .tc) :=
  [main_cst_18, main_v74, main_cst_19, main_v75, main_v76]

theorem s1c_sub : (s1c : List (HloOp τ sig (Elt F))).Forall fun op => op.bufs ⊆ tcRefs τ sig :=
  ⟨nullary_bufs_sub .., binary_bufs_sub .., nullary_bufs_sub .., unary_bufs_sub .., binary_bufs_sub ..⟩

theorem s1c_fresh : (s1c : List (HloOp τ sig (Elt F))).Forall fun op => op.fresh = ∅ :=
  ⟨rfl, rfl, rfl, rfl, rfl⟩

theorem s1c_writes : (s1c : List (HloOp τ sig (Elt F))).Forall fun op =>
    op.writes ⊆ (written_s1c.map (Proc.devRef (τ := τ) .tc)).toFinset :=
  ⟨writes_sub_of_mem main_cst_18 rfl (by decide), writes_sub_of_mem main_v74 rfl (by decide), writes_sub_of_mem main_cst_19 rfl (by decide),
    writes_sub_of_mem main_v75 rfl (by decide), writes_sub_of_mem main_v76 rfl (by decide)⟩

/-- The second layer's column variances. -/
def s1d : List (HloOp τ sig (Elt F)) :=
  [ StableHlo.nullary main_c_20 (constantI S_ 32 0#32),
    StableHlo.nullary main_call4_cst (constant S_ .f32 0x00000000#32 : (⟨S_, .f32⟩ : BufTy).Contents (Elt F)),
    StableHlo.binary main_v73 main_call4_cst main_call4_v0 (fun x v => Host.reduceAdd x v reducesTo_S100000x128_S128_d0 h_S_ : (⟨S100000x128, .f32⟩ : BufTy).Contents (Elt F) → (⟨S_, .f32⟩ : BufTy).Contents (Elt F) → (⟨S128, .f32⟩ : BufTy).Contents (Elt F)),
    StableHlo.unary main_call4_v0 main_call4_v1 (broadcastInDim S1x128 ![1] bcast_S128_S1x128_1 : (⟨S128, .f32⟩ : BufTy).Contents (Elt F) → (⟨S1x128, .f32⟩ : BufTy).Contents (Elt F)),
    StableHlo.nullary main_call4_cst_0 (constant S_ .f32 0x47C35000#32 : (⟨S_, .f32⟩ : BufTy).Contents (Elt F)),
    StableHlo.unary main_call4_cst_0 main_call4_v2 (broadcastInDim S1x128 ![] bcast_S_S1x128 : (⟨S_, .f32⟩ : BufTy).Contents (Elt F) → (⟨S1x128, .f32⟩ : BufTy).Contents (Elt F)),
    StableHlo.binary main_call4_v1 main_call4_v2 main_call4_v3 (Host.divf : (⟨S1x128, .f32⟩ : BufTy).Contents (Elt F) → (⟨S1x128, .f32⟩ : BufTy).Contents (Elt F) → (⟨S1x128, .f32⟩ : BufTy).Contents (Elt F)),
    StableHlo.unary main_call4_v3 main_call4_v4 (broadcastInDim S100000x128 ![0, 1] bcast_S1x128_S100000x128_0_1 : (⟨S1x128, .f32⟩ : BufTy).Contents (Elt F) → (⟨S100000x128, .f32⟩ : BufTy).Contents (Elt F)),
    StableHlo.binary main_v73 main_call4_v4 main_call4_v5 (subf : (⟨S100000x128, .f32⟩ : BufTy).Contents (Elt F) → (⟨S100000x128, .f32⟩ : BufTy).Contents (Elt F) → (⟨S100000x128, .f32⟩ : BufTy).Contents (Elt F)),
    StableHlo.binary main_call4_v5 main_call4_v5 main_call4_v6 (mulf : (⟨S100000x128, .f32⟩ : BufTy).Contents (Elt F) → (⟨S100000x128, .f32⟩ : BufTy).Contents (Elt F) → (⟨S100000x128, .f32⟩ : BufTy).Contents (Elt F)),
    StableHlo.unary main_c_20 main_call4_v7 (sitofp .f32 : (⟨S_, .i32⟩ : BufTy).Contents (Elt F) → (⟨S_, .f32⟩ : BufTy).Contents (Elt F)),
    StableHlo.nullary main_call4_cst_1 (constant S_ .f32 0x47C35000#32 : (⟨S_, .f32⟩ : BufTy).Contents (Elt F)),
    StableHlo.binary main_call4_cst_1 main_call4_v7 main_call4_v8 (subf : (⟨S_, .f32⟩ : BufTy).Contents (Elt F) → (⟨S_, .f32⟩ : BufTy).Contents (Elt F) → (⟨S_, .f32⟩ : BufTy).Contents (Elt F)),
    StableHlo.nullary main_call4_cst_2 (constant S_ .f32 0x00000000#32 : (⟨S_, .f32⟩ : BufTy).Contents (Elt F)),
    StableHlo.binary main_call4_v6 main_call4_cst_2 main_call4_v9 (fun x v => Host.reduceAdd x v reducesTo_S100000x128_S128_d0 h_S_ : (⟨S100000x128, .f32⟩ : BufTy).Contents (Elt F) → (⟨S_, .f32⟩ : BufTy).Contents (Elt F) → (⟨S128, .f32⟩ : BufTy).Contents (Elt F)),
    StableHlo.unary main_call4_v8 main_call4_v10 (broadcastInDim S128 ![] bcast_S_S128 : (⟨S_, .f32⟩ : BufTy).Contents (Elt F) → (⟨S128, .f32⟩ : BufTy).Contents (Elt F)),
    StableHlo.binary main_call4_v9 main_call4_v10 main_call4_v11 (Host.divf : (⟨S128, .f32⟩ : BufTy).Contents (Elt F) → (⟨S128, .f32⟩ : BufTy).Contents (Elt F) → (⟨S128, .f32⟩ : BufTy).Contents (Elt F)),
    StableHlo.nullary main_call4_cst_3 (constant S_ .f32 0x00000000#32 : (⟨S_, .f32⟩ : BufTy).Contents (Elt F)),
    StableHlo.binary main_call4_v8 main_call4_cst_3 main_call4_v12 (cmpf .ogt : (⟨S_, .f32⟩ : BufTy).Contents (Elt F) → (⟨S_, .f32⟩ : BufTy).Contents (Elt F) → (⟨S_, .i1⟩ : BufTy).Contents (Elt F)),
    StableHlo.nullary main_call4_cst_4 (constant S_ .f32 0x7FC00000#32 : (⟨S_, .f32⟩ : BufTy).Contents (Elt F)),
    StableHlo.unary main_call4_cst_4 main_call4_call0_v0 (id : (⟨S_, .f32⟩ : BufTy).Contents (Elt F) → (⟨S_, .f32⟩ : BufTy).Contents (Elt F)),
    StableHlo.unary main_call4_call0_v0 main_call4_call0_v1 (broadcastInDim S128 ![] bcast_S_S128 : (⟨S_, .f32⟩ : BufTy).Contents (Elt F) → (⟨S128, .f32⟩ : BufTy).Contents (Elt F)),
    StableHlo.ternary main_call4_v12 main_call4_v11 main_call4_call0_v1 main_v77 (fun p a b => select (broadcastInDim S128 ![] bcast_S_S128 p) a b : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- The buffers that slice writes. -/
def written_s1d : List (Ref sig .tc) :=
  [main_c_20, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v77]

theorem s1d_sub : (s1d : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub .., ternary_bufs_sub ..⟩

theorem s1d_fresh : (s1d : List (HloOp τ sig (Elt F))).Forall fun op => op.fresh = ∅ :=
  ⟨rfl, rfl, rfl, rfl, rfl, rfl, rfl, rfl,
    rfl, rfl, rfl, rfl, rfl, rfl, rfl, rfl,
    rfl, rfl, rfl, rfl, rfl, rfl, rfl⟩

theorem s1d_writes : (s1d : List (HloOp τ sig (Elt F))).Forall fun op =>
    op.writes ⊆ (written_s1d.map (Proc.devRef (τ := τ) .tc)).toFinset :=
  ⟨writes_sub_of_mem main_c_20 rfl (by decide), writes_sub_of_mem main_call4_cst rfl (by decide), writes_sub_of_mem main_call4_v0 rfl (by decide),
    writes_sub_of_mem main_call4_v1 rfl (by decide), writes_sub_of_mem main_call4_cst_0 rfl (by decide), writes_sub_of_mem main_call4_v2 rfl (by decide),
    writes_sub_of_mem main_call4_v3 rfl (by decide), writes_sub_of_mem main_call4_v4 rfl (by decide), writes_sub_of_mem main_call4_v5 rfl (by decide),
    writes_sub_of_mem main_call4_v6 rfl (by decide), writes_sub_of_mem main_call4_v7 rfl (by decide), writes_sub_of_mem main_call4_cst_1 rfl (by decide),
    writes_sub_of_mem main_call4_v8 rfl (by decide), writes_sub_of_mem main_call4_cst_2 rfl (by decide), writes_sub_of_mem main_call4_v9 rfl (by decide),
    writes_sub_of_mem main_call4_v10 rfl (by decide), writes_sub_of_mem main_call4_v11 rfl (by decide), writes_sub_of_mem main_call4_cst_3 rfl (by decide),
    writes_sub_of_mem main_call4_v12 rfl (by decide), writes_sub_of_mem main_call4_cst_4 rfl (by decide), writes_sub_of_mem main_call4_call0_v0 rfl (by decide),
    writes_sub_of_mem main_call4_call0_v1 rfl (by decide), writes_sub_of_mem main_v77 rfl (by decide)⟩

/-- The second layer's normalisation, scale, shift and rectifier. -/
def s1e : List (HloOp τ sig (Elt F)) :=
  [ StableHlo.unary main_v76 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v73 main_v79 main_v80 (subf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3727C5AC#32),
    StableHlo.unary main_cst_21 main_v81 (broadcastInDim S128 ![] bcast_S_S128 : (⟨S_, .f32⟩ : BufTy).Contents (Elt F) → (⟨S128, .f32⟩ : BufTy).Contents (Elt F)),
    StableHlo.binary main_v77 main_v81 main_v82 (addf : (⟨S128, .f32⟩ : BufTy).Contents (Elt F) → (⟨S128, .f32⟩ : BufTy).Contents (Elt F) → (⟨S128, .f32⟩ : BufTy).Contents (Elt F)),
    StableHlo.unary main_v82 main_v83 (Host.rsqrt : (⟨S128, .f32⟩ : BufTy).Contents (Elt F) → (⟨S128, .f32⟩ : BufTy).Contents (Elt F)),
    StableHlo.unary main_v83 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v85 main_v86 (mulf : (⟨S100000x128, .f32⟩ : BufTy).Contents (Elt F) → (⟨S100000x128, .f32⟩ : BufTy).Contents (Elt F) → (⟨S100000x128, .f32⟩ : BufTy).Contents (Elt F)),
    StableHlo.unary main_arg9 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S100000x128 ![0, 1] bcast_S1x128_S100000x128_0_1 : (⟨S1x128, .f32⟩ : BufTy).Contents (Elt F) → (⟨S100000x128, .f32⟩ : BufTy).Contents (Elt F)),
    StableHlo.binary main_v86 main_v88 main_v89 (mulf : (⟨S100000x128, .f32⟩ : BufTy).Contents (Elt F) → (⟨S100000x128, .f32⟩ : BufTy).Contents (Elt F) → (⟨S100000x128, .f32⟩ : BufTy).Contents (Elt F)),
    StableHlo.unary main_arg10 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S100000x128 ![0, 1] bcast_S1x128_S100000x128_0_1 : (⟨S1x128, .f32⟩ : BufTy).Contents (Elt F) → (⟨S100000x128, .f32⟩ : BufTy).Contents (Elt F)),
    StableHlo.binary main_v89 main_v91 main_v92 (addf : (⟨S100000x128, .f32⟩ : BufTy).Contents (Elt F) → (⟨S100000x128, .f32⟩ : BufTy).Contents (Elt F) → (⟨S100000x128, .f32⟩ : BufTy).Contents (Elt F)),
    StableHlo.nullary main_call5_cst (constant S_ .f32 0x00000000#32 : (⟨S_, .f32⟩ : BufTy).Contents (Elt F)),
    StableHlo.unary main_call5_cst main_call5_v0 (broadcastInDim S100000x128 ![] bcast_S_S100000x128 : (⟨S_, .f32⟩ : BufTy).Contents (Elt F) → (⟨S100000x128, .f32⟩ : BufTy).Contents (Elt F)),
    StableHlo.binary main_v92 main_call5_v0 main_v93 (maximumf : (⟨S100000x128, .f32⟩ : BufTy).Contents (Elt F) → (⟨S100000x128, .f32⟩ : BufTy).Contents (Elt F) → (⟨S100000x128, .f32⟩ : BufTy).Contents (Elt F)) ]

/-- The buffers that slice writes. -/
def written_s1e : List (Ref sig .tc) :=
  [main_v78, main_v79, main_v80, main_cst_21, main_v81, main_v82, main_v83, main_v84, main_v85, main_v86, main_v87, main_v88, main_v89, main_v90, main_v91, main_v92, main_call5_cst, main_call5_v0, main_v93]

theorem s1e_sub : (s1e : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub .., unary_bufs_sub .., binary_bufs_sub ..,
    nullary_bufs_sub .., unary_bufs_sub .., binary_bufs_sub ..⟩

theorem s1e_fresh : (s1e : List (HloOp τ sig (Elt F))).Forall fun op => op.fresh = ∅ :=
  ⟨rfl, rfl, rfl, rfl, rfl, rfl, rfl, rfl,
    rfl, rfl, rfl, rfl, rfl, rfl, rfl, rfl,
    rfl, rfl, rfl⟩

theorem s1e_writes : (s1e : List (HloOp τ sig (Elt F))).Forall fun op =>
    op.writes ⊆ (written_s1e.map (Proc.devRef (τ := τ) .tc)).toFinset :=
  ⟨writes_sub_of_mem main_v78 rfl (by decide), writes_sub_of_mem main_v79 rfl (by decide), writes_sub_of_mem main_v80 rfl (by decide),
    writes_sub_of_mem main_cst_21 rfl (by decide), writes_sub_of_mem main_v81 rfl (by decide), writes_sub_of_mem main_v82 rfl (by decide),
    writes_sub_of_mem main_v83 rfl (by decide), writes_sub_of_mem main_v84 rfl (by decide), writes_sub_of_mem main_v85 rfl (by decide),
    writes_sub_of_mem main_v86 rfl (by decide), writes_sub_of_mem main_v87 rfl (by decide), writes_sub_of_mem main_v88 rfl (by decide),
    writes_sub_of_mem main_v89 rfl (by decide), writes_sub_of_mem main_v90 rfl (by decide), writes_sub_of_mem main_v91 rfl (by decide),
    writes_sub_of_mem main_v92 rfl (by decide), writes_sub_of_mem main_call5_cst rfl (by decide), writes_sub_of_mem main_call5_v0 rfl (by decide),
    writes_sub_of_mem main_v93 rfl (by decide)⟩

/-- The out-degree norm broadcast over the rows for the output layer. -/
def s1f : List (HloOp τ sig (Elt F)) :=
  [ StableHlo.unary main_v9 main_v94 (broadcastInDim S100000x1 ![0] bcast_S100000_S100000x1_0 : (⟨S100000, .f32⟩ : BufTy).Contents (Elt F) → (⟨S100000x1, .f32⟩ : BufTy).Contents (Elt F)),
    StableHlo.unary main_v94 main_v95 (broadcastInDim S100000x128 ![0, 1] bcast_S100000x1_S100000x128_0_1 : (⟨S100000x1, .f32⟩ : BufTy).Contents (Elt F) → (⟨S100000x128, .f32⟩ : BufTy).Contents (Elt F)) ]

/-- The buffers that slice writes. -/
def written_s1f : List (Ref sig .tc) :=
  [main_v94, main_v95]

theorem s1f_sub : (s1f : List (HloOp τ sig (Elt F))).Forall fun op => op.bufs ⊆ tcRefs τ sig :=
  ⟨unary_bufs_sub .., unary_bufs_sub ..⟩

theorem s1f_fresh : (s1f : List (HloOp τ sig (Elt F))).Forall fun op => op.fresh = ∅ :=
  ⟨rfl, rfl⟩

theorem s1f_writes : (s1f : List (HloOp τ sig (Elt F))).Forall fun op =>
    op.writes ⊆ (written_s1f.map (Proc.devRef (τ := τ) .tc)).toFinset :=
  ⟨writes_sub_of_mem main_v94 rfl (by decide), writes_sub_of_mem main_v95 rfl (by decide)⟩

/-- The output layer: scaled product into 40 columns, aggregation, bias. -/
def s2a : List (HloOp τ sig (Elt F)) :=
  [ StableHlo.binary main_v93 main_v95 main_v96 (mulf : (⟨S100000x128, .f32⟩ : BufTy).Contents (Elt F) → (⟨S100000x128, .f32⟩ : BufTy).Contents (Elt F) → (⟨S100000x128, .f32⟩ : BufTy).Contents (Elt F)),
    StableHlo.binary main_v96 main_arg5 main_v97 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.nullary main_c_22 (constantI S_ 32 0#32),
    StableHlo.unary main_c_22 main_v98 (broadcastInDim S1600000 ![] bcast_S_S1600000 : (⟨S_, .i32⟩ : BufTy).Contents (Elt F) → (⟨S1600000, .i32⟩ : BufTy).Contents (Elt F)),
    StableHlo.binary main_arg1 main_v98 main_v99 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v100 (broadcastInDim S1600000 ![] bcast_S_S1600000 : (⟨S_, .i32⟩ : BufTy).Contents (Elt F) → (⟨S1600000, .i32⟩ : BufTy).Contents (Elt F)),
    StableHlo.binary main_arg1 main_v100 main_v101 (addi : (⟨S1600000, .i32⟩ : BufTy).Contents (Elt F) → (⟨S1600000, .i32⟩ : BufTy).Contents (Elt F) → (⟨S1600000, .i32⟩ : BufTy).Contents (Elt F)),
    StableHlo.ternary main_v99 main_v101 main_arg1 main_v102 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v102 main_v103 (broadcastInDim S1600000x1 ![0] bcast_S1600000_S1600000x1_0 : (⟨S1600000, .i32⟩ : BufTy).Contents (Elt F) → (⟨S1600000x1, .i32⟩ : BufTy).Contents (Elt F)),
    StableHlo.binary main_v97 main_v103 main_v104 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    StableHlo.nullary main_cst_24 (constant S_ .f32 0x00000000#32),
    StableHlo.unary main_cst_24 main_v105 (broadcastInDim S100000x40 ![] bcast_S_S100000x40 : (⟨S_, .f32⟩ : BufTy).Contents (Elt F) → (⟨S100000x40, .f32⟩ : BufTy).Contents (Elt F)),
    StableHlo.unary main_arg2 main_v106 (broadcastInDim S1600000x1 ![0] bcast_S1600000_S1600000x1_0 : (⟨S1600000, .i32⟩ : BufTy).Contents (Elt F) → (⟨S1600000x1, .i32⟩ : BufTy).Contents (Elt F)),
    StableHlo.ternary main_v105 main_v106 main_v104 main_v107 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    StableHlo.unary main_v19 main_v108 (broadcastInDim S100000x1 ![0] bcast_S100000_S100000x1_0 : (⟨S100000, .f32⟩ : BufTy).Contents (Elt F) → (⟨S100000x1, .f32⟩ : BufTy).Contents (Elt F)),
    StableHlo.unary main_v108 main_v109 (broadcastInDim S100000x40 ![0, 1] bcast_S100000x1_S100000x40_0_1 : (⟨S100000x1, .f32⟩ : BufTy).Contents (Elt F) → (⟨S100000x40, .f32⟩ : BufTy).Contents (Elt F)),
    StableHlo.binary main_v107 main_v109 main_v110 (mulf : (⟨S100000x40, .f32⟩ : BufTy).Contents (Elt F) → (⟨S100000x40, .f32⟩ : BufTy).Contents (Elt F) → (⟨S100000x40, .f32⟩ : BufTy).Contents (Elt F)),
    StableHlo.unary main_arg6 main_v111 (broadcastInDim S1x40 ![1] bcast_S40_S1x40_1 : (⟨S40, .f32⟩ : BufTy).Contents (Elt F) → (⟨S1x40, .f32⟩ : BufTy).Contents (Elt F)),
    StableHlo.unary main_v111 main_v112 (broadcastInDim S100000x40 ![0, 1] bcast_S1x40_S100000x40_0_1 : (⟨S1x40, .f32⟩ : BufTy).Contents (Elt F) → (⟨S100000x40, .f32⟩ : BufTy).Contents (Elt F)),
    StableHlo.binary main_v110 main_v112 main_v113 (addf : (⟨S100000x40, .f32⟩ : BufTy).Contents (Elt F) → (⟨S100000x40, .f32⟩ : BufTy).Contents (Elt F) → (⟨S100000x40, .f32⟩ : BufTy).Contents (Elt F)) ]

/-- The buffers that slice writes. -/
def written_s2a : List (Ref sig .tc) :=
  [main_v96, main_v97, main_c_22, main_v98, main_v99, main_c_23, main_v100, main_v101, main_v102, main_v103, main_v104, main_cst_24, main_v105, main_v106, main_v107, main_v108, main_v109, main_v110, main_v111, main_v112, main_v113]

theorem s2a_sub : (s2a : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub .., ternary_bufs_sub .., unary_bufs_sub ..,
    unary_bufs_sub .., binary_bufs_sub .., unary_bufs_sub .., unary_bufs_sub .., binary_bufs_sub ..⟩

theorem s2a_fresh : (s2a : List (HloOp τ sig (Elt F))).Forall fun op => op.fresh = ∅ :=
  ⟨rfl, rfl, rfl, rfl, rfl, rfl, rfl, rfl,
    rfl, rfl, rfl, rfl, rfl, rfl, rfl, rfl,
    rfl, rfl, rfl, rfl, rfl⟩

theorem s2a_writes : (s2a : List (HloOp τ sig (Elt F))).Forall fun op =>
    op.writes ⊆ (written_s2a.map (Proc.devRef (τ := τ) .tc)).toFinset :=
  ⟨writes_sub_of_mem main_v96 rfl (by decide), writes_sub_of_mem main_v97 rfl (by decide), writes_sub_of_mem main_c_22 rfl (by decide),
    writes_sub_of_mem main_v98 rfl (by decide), writes_sub_of_mem main_v99 rfl (by decide), writes_sub_of_mem main_c_23 rfl (by decide),
    writes_sub_of_mem main_v100 rfl (by decide), writes_sub_of_mem main_v101 rfl (by decide), writes_sub_of_mem main_v102 rfl (by decide),
    writes_sub_of_mem main_v103 rfl (by decide), writes_sub_of_mem main_v104 rfl (by decide), writes_sub_of_mem main_cst_24 rfl (by decide),
    writes_sub_of_mem main_v105 rfl (by decide), writes_sub_of_mem main_v106 rfl (by decide), writes_sub_of_mem main_v107 rfl (by decide),
    writes_sub_of_mem main_v108 rfl (by decide), writes_sub_of_mem main_v109 rfl (by decide), writes_sub_of_mem main_v110 rfl (by decide),
    writes_sub_of_mem main_v111 rfl (by decide), writes_sub_of_mem main_v112 rfl (by decide), writes_sub_of_mem main_v113 rfl (by decide)⟩

/-- @main's statements 1 … 60, the called bodies substituted. -/
abbrev ops0 : List (HloOp τ sig (Elt F)) := s0a ++ (s0b ++ (s0c ++ (s0d ++ (s0e ++ (s0f)))))

/-- @main's statements 61 … 120, the called bodies substituted. -/
abbrev ops1 : List (HloOp τ sig (Elt F)) := s1a ++ (s1b ++ (s1c ++ (s1d ++ (s1e ++ (s1f)))))

/-- @main's statements 121 … 142. -/
abbrev ops2 : List (HloOp τ sig (Elt F)) := s2a

set_option maxRecDepth 4096 in
/-- The window is the line of its slices: the called bodies unfolded at their calls, sequencing reassociated. -/
theorem part0_eq (c : Dev nD) : main_part0 (F := F) c = seq ops0 := by
  simp only [main_part0, fn_where.body, fn_var.body, fn_where_0.body, ops0, seq_append, s0a, s0b, s0c, s0d, s0e, s0f, seq, bind_assoc, pure_bind]
  rfl

set_option maxRecDepth 4096 in
/-- The window is the line of its slices: the called bodies unfolded at their calls, sequencing reassociated. -/
theorem part1_eq (c : Dev nD) : main_part1 (F := F) c = seq ops1 := by
  simp only [main_part1, fn_relu.body, fn_var.body, fn_where_0.body, ops1, seq_append, s1a, s1b, s1c, s1d, s1e, s1f, seq, bind_assoc, pure_bind]
  rfl

/-- The last window, having no call, is the line of its slice as it stands. -/
theorem part2_eq (c : Dev nD) : main_part2 (F := F) c = seq ops2 := rfl

/-- @main is the line of the three windows in order. -/
theorem main_eq (c : Dev nD) : main (F := F) c = seq (ops0 ++ (ops1 ++ ops2)) := by
  rw [seq_append ops0 (ops1 ++ ops2), seq_append ops1 ops2, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops0 ++ (ops1 ++ ops2) : List (HloOp τ sig (Elt F))).Forall fun op => op.bufs ⊆ tcRefs τ sig :=
  List.forall_append.2 ⟨List.forall_append.2 ⟨s0a_sub, List.forall_append.2 ⟨s0b_sub, List.forall_append.2 ⟨s0c_sub, List.forall_append.2 ⟨s0d_sub, List.forall_append.2 ⟨s0e_sub, s0f_sub⟩⟩⟩⟩⟩, List.forall_append.2 ⟨List.forall_append.2 ⟨s1a_sub, List.forall_append.2 ⟨s1b_sub, List.forall_append.2 ⟨s1c_sub, List.forall_append.2 ⟨s1d_sub, List.forall_append.2 ⟨s1e_sub, s1f_sub⟩⟩⟩⟩⟩, s2a_sub⟩⟩

theorem ops_fresh : ∀ op ∈ (ops0 ++ (ops1 ++ ops2) : List (HloOp τ sig (Elt F))), op.fresh = ∅ :=
  List.forall_iff_forall_mem.1
    (List.forall_append.2 ⟨List.forall_append.2 ⟨s0a_fresh, List.forall_append.2 ⟨s0b_fresh, List.forall_append.2 ⟨s0c_fresh, List.forall_append.2 ⟨s0d_fresh, List.forall_append.2 ⟨s0e_fresh, s0f_fresh⟩⟩⟩⟩⟩, List.forall_append.2 ⟨List.forall_append.2 ⟨s1a_fresh, List.forall_append.2 ⟨s1b_fresh, List.forall_append.2 ⟨s1c_fresh, List.forall_append.2 ⟨s1d_fresh, List.forall_append.2 ⟨s1e_fresh, s1f_fresh⟩⟩⟩⟩⟩, s2a_fresh⟩⟩)

/-- From any memory with zero counters every weakly fair execution of @main terminates with each buffer at
    the fold of the 191 operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after (ops0 ++ (ops1 ++ ops2)) (launchContents m c) (b : DevRef τ sig) :=
  run_seq scopedRefs_eq scopedSems_eq defs main (fun _ => ops0 ++ (ops1 ++ ops2)) main_eq (fun _ => ops_sub) m ρ
    (fun _ => ops_fresh)

end Cert.ReferenceIdeal.RefValue

end
-- ==== Proof.RefRun.lean ====
/-
  The reference program's run, read back as the graph-convolution network of the specification.

  The reference's @main is the straight line of thirteen slices of host operations, one per stage of the
  network. For an arbitrary valuation at a slice's entry, the buffer the slice is there to produce holds the
  specification's stage applied to the buffers the slice reads at entry — each such equation is the fold of a
  short list computed — and every buffer the slice does not write holds what it held. Chaining the thirteen
  readings along the line (from the last slice back to the first, each pending read rewritten by the slice's
  product or by its leaving the buffer alone), the result buffer after the whole line is the network applied to the eleven
  arguments' entry contents, and the arguments hold what they held; the run theorem for straight lines turns
  that into the statement about every weakly fair execution.
-/
import proofs.«162067_j41154376630597_1_alg».proof.Proof.RefRunLines
import proofs.«162067_j41154376630597_1_alg».proof.Proof.Spec

noncomputable section

namespace Cert.ReferenceIdeal.RefValue

open Idealize.ShloMosaic Idealize.ShloMosaic.TcCoe Idealize.SL.Sem Idealize.ShloMosaic.StableHlo
open Cert.ReferenceIdeal Cert.ReferenceIdeal.Facts₀ Cert.ReferenceIdeal.Facts
open Cert.Spec (FA IA)

variable [Cert.ReferenceIdeal.Facts]

/-- A valuation of the device's buffers over the extended reals. -/
abbrev Vl := Valuation τ sig (Elt Ideal)

/-- `max(0, d · (σ² + ε)^(-1/2) · γ + β)` for the deviations `d` from the column means: the specification's
    normalisation once the mean is subtracted. -/
def scaleShiftRelu (d : FA S100000x128) (var g b : FA S128) : FA S100000x128 :=
  maximumf
    (addf
      (mulf
        (mulf d
          (broadcastInDim S100000x128 ![0, 1] bcast_S1x128_S100000x128_0_1
            (Cert.Spec.asRow (Host.rsqrt (addf var (broadcastInDim S128 ![] bcast_S_S128 (constant S_ .f32 0x3727C5AC#32)))))))
        (broadcastInDim S100000x128 ![0, 1] bcast_S1x128_S100000x128_0_1 (Cert.Spec.asRow g)))
      (broadcastInDim S100000x128 ![0, 1] bcast_S1x128_S100000x128_0_1 (Cert.Spec.asRow b)))
    (broadcastInDim S100000x128 ![] bcast_S_S100000x128 (constant S_ .f32 0x00000000#32))

/-- A hidden layer's aggregate from the layer's input, the weights, the edges and the two degree norms. -/
def agg (h : FA S100000x128) (W : FA S128x128) (src dst : IA S1600000) (nS nD : FA S100000) : FA S100000x128 :=
  Cert.Spec.aggregate (Cert.Spec.scaleMatmul h (Cert.Spec.asColumn nS) W) src dst nD

/-- The output layer from the second hidden layer's output, the row scaling already broadcast. -/
def outLayer (h nB : FA S100000x128) (W2 : FA S128x40) (src dst : IA S1600000) (nD : FA S100000) (b2 : FA S40) : FA S100000x40 :=
  Cert.Spec.biasAdd
    (Cert.Spec.aggregate40 (Host.dotGeneral dot_S100000x128_S128x40_S100000x40_1_0_0_1_n_n none (mulf h nB) W2) src dst nD) b2

/-! ## Each slice's product, for any contents at its entry -/

set_option maxRecDepth 8192 in
set_option maxHeartbeats 2000000 in
/-- The first slice leaves the out-degree norm of the sources. -/
theorem s0a_val (V : Vl) : after (s0a (F := Ideal)) V (main_v9 : DevRef τ sig)
    = Cert.Spec.degNorm (V (main_arg1 : DevRef τ sig)) := by
  unfold s0a
  after_results_simp
  simp only [id_eq, agg, outLayer, scaleShiftRelu, Cert.Spec.degNorm, Cert.Spec.degree, Cert.Spec.asColumn, Cert.Spec.asRow, Cert.Spec.asRow40,
    Cert.Spec.scaleMatmul, Cert.Spec.gatherIdx, Cert.Spec.aggregate, Cert.Spec.aggregate40, Cert.Spec.colMean, Cert.Spec.varCount,
    Cert.Spec.colVar, Cert.Spec.bnRelu, Cert.Spec.biasAdd]
  first | done | rfl

set_option maxRecDepth 8192 in
set_option maxHeartbeats 2000000 in
/-- The second leaves the in-degree norm of the destinations. -/
theorem s0b_val (V : Vl) : after (s0b (F := Ideal)) V (main_v19 : DevRef τ sig)
    = Cert.Spec.degNorm (V (main_arg2 : DevRef τ sig)) := by
  unfold s0b
  after_results_simp
  simp only [id_eq, agg, outLayer, scaleShiftRelu, Cert.Spec.degNorm, Cert.Spec.degree, Cert.Spec.asColumn, Cert.Spec.asRow, Cert.Spec.asRow40,
    Cert.Spec.scaleMatmul, Cert.Spec.gatherIdx, Cert.Spec.aggregate, Cert.Spec.aggregate40, Cert.Spec.colMean, Cert.Spec.varCount,
    Cert.Spec.colVar, Cert.Spec.bnRelu, Cert.Spec.biasAdd]
  first | done | rfl

set_option maxRecDepth 8192 in
set_option maxHeartbeats 2000000 in
/-- The third leaves the first layer's aggregate of the features. -/
theorem s0c_val (V : Vl) : after (s0c (F := Ideal)) V (main_v36 : DevRef τ sig)
    = agg (V (main_arg0 : DevRef τ sig)) (V (main_arg3 : DevRef τ sig)) (V (main_arg1 : DevRef τ sig)) (V (main_arg2 : DevRef τ sig)) (V (main_v9 : DevRef τ sig)) (V (main_v19 : DevRef τ sig)) := by
  unfold s0c
  after_results_simp
  simp only [id_eq, agg, outLayer, scaleShiftRelu, Cert.Spec.degNorm, Cert.Spec.degree, Cert.Spec.asColumn, Cert.Spec.asRow, Cert.Spec.asRow40,
    Cert.Spec.scaleMatmul, Cert.Spec.gatherIdx, Cert.Spec.aggregate, Cert.Spec.aggregate40, Cert.Spec.colMean, Cert.Spec.varCount,
    Cert.Spec.colVar, Cert.Spec.bnRelu, Cert.Spec.biasAdd]
  first | done | rfl

set_option maxRecDepth 8192 in
set_option maxHeartbeats 2000000 in
/-- The column means of the aggregate. -/
theorem s0d_val (V : Vl) : after (s0d (F := Ideal)) V (main_v39 : DevRef τ sig)
    = Cert.Spec.colMean (V (main_v36 : DevRef τ sig)) := by
  unfold s0d
  after_results_simp
  simp only [id_eq, agg, outLayer, scaleShiftRelu, Cert.Spec.degNorm, Cert.Spec.degree, Cert.Spec.asColumn, Cert.Spec.asRow, Cert.Spec.asRow40,
    Cert.Spec.scaleMatmul, Cert.Spec.gatherIdx, Cert.Spec.aggregate, Cert.Spec.aggregate40, Cert.Spec.colMean, Cert.Spec.varCount,
    Cert.Spec.colVar, Cert.Spec.bnRelu, Cert.Spec.biasAdd]
  first | done | rfl

set_option maxRecDepth 8192 in
set_option maxHeartbeats 2000000 in
/-- The column variances of the aggregate. -/
theorem s0e_val (V : Vl) : after (s0e (F := Ideal)) V (main_v40 : DevRef τ sig)
    = Cert.Spec.colVar (V (main_v36 : DevRef τ sig)) := by
  unfold s0e
  after_results_simp
  simp only [id_eq, agg, outLayer, scaleShiftRelu, Cert.Spec.degNorm, Cert.Spec.degree, Cert.Spec.asColumn, Cert.Spec.asRow, Cert.Spec.asRow40,
    Cert.Spec.scaleMatmul, Cert.Spec.gatherIdx, Cert.Spec.aggregate, Cert.Spec.aggregate40, Cert.Spec.colMean, Cert.Spec.varCount,
    Cert.Spec.colVar, Cert.Spec.bnRelu, Cert.Spec.biasAdd]
  first | done | rfl

set_option maxRecDepth 8192 in
set_option maxHeartbeats 2000000 in
/-- The aggregate's deviations from its column means. -/
theorem s0f_val (V : Vl) : after (s0f (F := Ideal)) V (main_v43 : DevRef τ sig)
    = subf (V (main_v36 : DevRef τ sig)) (broadcastInDim S100000x128 ![0, 1] bcast_S1x128_S100000x128_0_1 (Cert.Spec.asRow (V (main_v39 : DevRef τ sig)))) := by
  unfold s0f
  after_results_simp
  simp only [id_eq, agg, outLayer, scaleShiftRelu, Cert.Spec.degNorm, Cert.Spec.degree, Cert.Spec.asColumn, Cert.Spec.asRow, Cert.Spec.asRow40,
    Cert.Spec.scaleMatmul, Cert.Spec.gatherIdx, Cert.Spec.aggregate, Cert.Spec.aggregate40, Cert.Spec.colMean, Cert.Spec.varCount,
    Cert.Spec.colVar, Cert.Spec.bnRelu, Cert.Spec.biasAdd]
  first | done | rfl

set_option maxRecDepth 8192 in
set_option maxHeartbeats 2000000 in
/-- The first hidden layer's output from the deviations, the variances, the scale and the shift. -/
theorem s1a_val (V : Vl) : after (s1a (F := Ideal)) V (main_v56 : DevRef τ sig)
    = scaleShiftRelu (V (main_v43 : DevRef τ sig)) (V (main_v40 : DevRef τ sig)) (V (main_arg7 : DevRef τ sig)) (V (main_arg8 : DevRef τ sig)) := by
  unfold s1a
  after_results_simp
  simp only [id_eq, agg, outLayer, scaleShiftRelu, Cert.Spec.degNorm, Cert.Spec.degree, Cert.Spec.asColumn, Cert.Spec.asRow, Cert.Spec.asRow40,
    Cert.Spec.scaleMatmul, Cert.Spec.gatherIdx, Cert.Spec.aggregate, Cert.Spec.aggregate40, Cert.Spec.colMean, Cert.Spec.varCount,
    Cert.Spec.colVar, Cert.Spec.bnRelu, Cert.Spec.biasAdd]
  first | done | rfl

set_option maxRecDepth 8192 in
set_option maxHeartbeats 2000000 in
/-- The second layer's aggregate of the first layer's output. -/
theorem s1b_val (V : Vl) : after (s1b (F := Ideal)) V (main_v73 : DevRef τ sig)
    = agg (V (main_v56 : DevRef τ sig)) (V (main_arg4 : DevRef τ sig)) (V (main_arg1 : DevRef τ sig)) (V (main_arg2 : DevRef τ sig)) (V (main_v9 : DevRef τ sig)) (V (main_v19 : DevRef τ sig)) := by
  unfold s1b
  after_results_simp
  simp only [id_eq, agg, outLayer, scaleShiftRelu, Cert.Spec.degNorm, Cert.Spec.degree, Cert.Spec.asColumn, Cert.Spec.asRow, Cert.Spec.asRow40,
    Cert.Spec.scaleMatmul, Cert.Spec.gatherIdx, Cert.Spec.aggregate, Cert.Spec.aggregate40, Cert.Spec.colMean, Cert.Spec.varCount,
    Cert.Spec.colVar, Cert.Spec.bnRelu, Cert.Spec.biasAdd]
  first | done | rfl

set_option maxRecDepth 8192 in
set_option maxHeartbeats 2000000 in
/-- Its column means. -/
theorem s1c_val (V : Vl) : after (s1c (F := Ideal)) V (main_v76 : DevRef τ sig)
    = Cert.Spec.colMean (V (main_v73 : DevRef τ sig)) := by
  unfold s1c
  after_results_simp
  simp only [id_eq, agg, outLayer, scaleShiftRelu, Cert.Spec.degNorm, Cert.Spec.degree, Cert.Spec.asColumn, Cert.Spec.asRow, Cert.Spec.asRow40,
    Cert.Spec.scaleMatmul, Cert.Spec.gatherIdx, Cert.Spec.aggregate, Cert.Spec.aggregate40, Cert.Spec.colMean, Cert.Spec.varCount,
    Cert.Spec.colVar, Cert.Spec.bnRelu, Cert.Spec.biasAdd]
  first | done | rfl

set_option maxRecDepth 8192 in
set_option maxHeartbeats 2000000 in
/-- Its column variances. -/
theorem s1d_val (V : Vl) : after (s1d (F := Ideal)) V (main_v77 : DevRef τ sig)
    = Cert.Spec.colVar (V (main_v73 : DevRef τ sig)) := by
  unfold s1d
  after_results_simp
  simp only [id_eq, agg, outLayer, scaleShiftRelu, Cert.Spec.degNorm, Cert.Spec.degree, Cert.Spec.asColumn, Cert.Spec.asRow, Cert.Spec.asRow40,
    Cert.Spec.scaleMatmul, Cert.Spec.gatherIdx, Cert.Spec.aggregate, Cert.Spec.aggregate40, Cert.Spec.colMean, Cert.Spec.varCount,
    Cert.Spec.colVar, Cert.Spec.bnRelu, Cert.Spec.biasAdd]
  first | done | rfl

set_option maxRecDepth 8192 in
set_option maxHeartbeats 2000000 in
/-- The second hidden layer's output. -/
theorem s1e_val (V : Vl) : after (s1e (F := Ideal)) V (main_v93 : DevRef τ sig)
    = Cert.Spec.bnRelu (V (main_v73 : DevRef τ sig)) (V (main_v76 : DevRef τ sig)) (V (main_v77 : DevRef τ sig)) (V (main_arg9 : DevRef τ sig)) (V (main_arg10 : DevRef τ sig)) := by
  unfold s1e
  after_results_simp
  simp only [id_eq, agg, outLayer, scaleShiftRelu, Cert.Spec.degNorm, Cert.Spec.degree, Cert.Spec.asColumn, Cert.Spec.asRow, Cert.Spec.asRow40,
    Cert.Spec.scaleMatmul, Cert.Spec.gatherIdx, Cert.Spec.aggregate, Cert.Spec.aggregate40, Cert.Spec.colMean, Cert.Spec.varCount,
    Cert.Spec.colVar, Cert.Spec.bnRelu, Cert.Spec.biasAdd]
  first | done | rfl

set_option maxRecDepth 8192 in
set_option maxHeartbeats 2000000 in
/-- The out-degree norm as a column, broadcast over the 128 columns. -/
theorem s1f_val (V : Vl) : after (s1f (F := Ideal)) V (main_v95 : DevRef τ sig)
    = broadcastInDim S100000x128 ![0, 1] bcast_S100000x1_S100000x128_0_1 (Cert.Spec.asColumn (V (main_v9 : DevRef τ sig))) := by
  unfold s1f
  after_results_simp
  simp only [id_eq, agg, outLayer, scaleShiftRelu, Cert.Spec.degNorm, Cert.Spec.degree, Cert.Spec.asColumn, Cert.Spec.asRow, Cert.Spec.asRow40,
    Cert.Spec.scaleMatmul, Cert.Spec.gatherIdx, Cert.Spec.aggregate, Cert.Spec.aggregate40, Cert.Spec.colMean, Cert.Spec.varCount,
    Cert.Spec.colVar, Cert.Spec.bnRelu, Cert.Spec.biasAdd]
  first | done | rfl

set_option maxRecDepth 8192 in
set_option maxHeartbeats 2000000 in
/-- The output layer of the second layer's output. -/
theorem s2a_val (V : Vl) : after (s2a (F := Ideal)) V (main_v113 : DevRef τ sig)
    = outLayer (V (main_v93 : DevRef τ sig)) (V (main_v95 : DevRef τ sig)) (V (main_arg5 : DevRef τ sig)) (V (main_arg1 : DevRef τ sig)) (V (main_arg2 : DevRef τ sig)) (V (main_v19 : DevRef τ sig)) (V (main_arg6 : DevRef τ sig)) := by
  unfold s2a
  after_results_simp
  simp only [id_eq, agg, outLayer, scaleShiftRelu, Cert.Spec.degNorm, Cert.Spec.degree, Cert.Spec.asColumn, Cert.Spec.asRow, Cert.Spec.asRow40,
    Cert.Spec.scaleMatmul, Cert.Spec.gatherIdx, Cert.Spec.aggregate, Cert.Spec.aggregate40, Cert.Spec.colMean, Cert.Spec.varCount,
    Cert.Spec.colVar, Cert.Spec.bnRelu, Cert.Spec.biasAdd]
  first | done | rfl

/-! ## What a slice does not write it leaves -/

theorem s0a_keep (V : Vl) {b : Ref sig .tc} (hb : b ∉ written_s0a) :
    after (s0a (F := Ideal)) V (no_index (Proc.devRef .tc b)) = V (Proc.devRef .tc b) :=
  after_of_writes_sub s0a V s0a_writes hb

theorem s0b_keep (V : Vl) {b : Ref sig .tc} (hb : b ∉ written_s0b) :
    after (s0b (F := Ideal)) V (no_index (Proc.devRef .tc b)) = V (Proc.devRef .tc b) :=
  after_of_writes_sub s0b V s0b_writes hb

theorem s0c_keep (V : Vl) {b : Ref sig .tc} (hb : b ∉ written_s0c) :
    after (s0c (F := Ideal)) V (no_index (Proc.devRef .tc b)) = V (Proc.devRef .tc b) :=
  after_of_writes_sub s0c V s0c_writes hb

theorem s0d_keep (V : Vl) {b : Ref sig .tc} (hb : b ∉ written_s0d) :
    after (s0d (F := Ideal)) V (no_index (Proc.devRef .tc b)) = V (Proc.devRef .tc b) :=
  after_of_writes_sub s0d V s0d_writes hb

theorem s0e_keep (V : Vl) {b : Ref sig .tc} (hb : b ∉ written_s0e) :
    after (s0e (F := Ideal)) V (no_index (Proc.devRef .tc b)) = V (Proc.devRef .tc b) :=
  after_of_writes_sub s0e V s0e_writes hb

theorem s0f_keep (V : Vl) {b : Ref sig .tc} (hb : b ∉ written_s0f) :
    after (s0f (F := Ideal)) V (no_index (Proc.devRef .tc b)) = V (Proc.devRef .tc b) :=
  after_of_writes_sub s0f V s0f_writes hb

theorem s1a_keep (V : Vl) {b : Ref sig .tc} (hb : b ∉ written_s1a) :
    after (s1a (F := Ideal)) V (no_index (Proc.devRef .tc b)) = V (Proc.devRef .tc b) :=
  after_of_writes_sub s1a V s1a_writes hb

theorem s1b_keep (V : Vl) {b : Ref sig .tc} (hb : b ∉ written_s1b) :
    after (s1b (F := Ideal)) V (no_index (Proc.devRef .tc b)) = V (Proc.devRef .tc b) :=
  after_of_writes_sub s1b V s1b_writes hb

theorem s1c_keep (V : Vl) {b : Ref sig .tc} (hb : b ∉ written_s1c) :
    after (s1c (F := Ideal)) V (no_index (Proc.devRef .tc b)) = V (Proc.devRef .tc b) :=
  after_of_writes_sub s1c V s1c_writes hb

theorem s1d_keep (V : Vl) {b : Ref sig .tc} (hb : b ∉ written_s1d) :
    after (s1d (F := Ideal)) V (no_index (Proc.devRef .tc b)) = V (Proc.devRef .tc b) :=
  after_of_writes_sub s1d V s1d_writes hb

theorem s1e_keep (V : Vl) {b : Ref sig .tc} (hb : b ∉ written_s1e) :
    after (s1e (F := Ideal)) V (no_index (Proc.devRef .tc b)) = V (Proc.devRef .tc b) :=
  after_of_writes_sub s1e V s1e_writes hb

theorem s1f_keep (V : Vl) {b : Ref sig .tc} (hb : b ∉ written_s1f) :
    after (s1f (F := Ideal)) V (no_index (Proc.devRef .tc b)) = V (Proc.devRef .tc b) :=
  after_of_writes_sub s1f V s1f_writes hb

theorem s2a_keep (V : Vl) {b : Ref sig .tc} (hb : b ∉ written_s2a) :
    after (s2a (F := Ideal)) V (no_index (Proc.devRef .tc b)) = V (Proc.devRef .tc b) :=
  after_of_writes_sub s2a V s2a_writes hb

/-! ## The readings chained along the line -/

set_option maxRecDepth 8192 in
set_option maxHeartbeats 4000000 in
/-- The result buffer after the whole line is the network of the eleven arguments' entry contents. -/
theorem fold_v113 (V : Vl) : after (ops0 ++ (ops1 ++ ops2) : List (HloOp τ sig (Elt Ideal))) V (main_v113 : DevRef τ sig)
    = Cert.Spec.gcn (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  simp only [ops0, ops1, ops2, after_app]
  rw [s2a_val, s1f_keep _ (b := main_v93) (by decide), s1f_val,
    s1f_keep _ (b := main_arg5) (by decide), s1f_keep _ (b := main_arg1) (by decide), s1f_keep _ (b := main_arg2) (by decide),
    s1f_keep _ (b := main_v19) (by decide), s1f_keep _ (b := main_arg6) (by decide), s1e_val,
    s1e_keep _ (b := main_v9) (by decide), s1e_keep _ (b := main_arg5) (by decide), s1e_keep _ (b := main_arg1) (by decide),
    s1e_keep _ (b := main_arg2) (by decide), s1e_keep _ (b := main_v19) (by decide), s1e_keep _ (b := main_arg6) (by decide),
    s1d_keep _ (b := main_v73) (by decide), s1d_keep _ (b := main_v76) (by decide), s1d_val,
    s1d_keep _ (b := main_arg9) (by decide), s1d_keep _ (b := main_arg10) (by decide), s1d_keep _ (b := main_v9) (by decide),
    s1d_keep _ (b := main_arg5) (by decide), s1d_keep _ (b := main_arg1) (by decide), s1d_keep _ (b := main_arg2) (by decide),
    s1d_keep _ (b := main_v19) (by decide), s1d_keep _ (b := main_arg6) (by decide), s1c_keep _ (b := main_v73) (by decide),
    s1c_val, s1c_keep _ (b := main_arg9) (by decide), s1c_keep _ (b := main_arg10) (by decide),
    s1c_keep _ (b := main_v9) (by decide), s1c_keep _ (b := main_arg5) (by decide), s1c_keep _ (b := main_arg1) (by decide),
    s1c_keep _ (b := main_arg2) (by decide), s1c_keep _ (b := main_v19) (by decide), s1c_keep _ (b := main_arg6) (by decide),
    s1b_val, s1b_keep _ (b := main_arg9) (by decide), s1b_keep _ (b := main_arg10) (by decide),
    s1b_keep _ (b := main_v9) (by decide), s1b_keep _ (b := main_arg5) (by decide), s1b_keep _ (b := main_arg1) (by decide),
    s1b_keep _ (b := main_arg2) (by decide), s1b_keep _ (b := main_v19) (by decide), s1b_keep _ (b := main_arg6) (by decide),
    s1a_val, s1a_keep _ (b := main_arg4) (by decide), s1a_keep _ (b := main_arg1) (by decide),
    s1a_keep _ (b := main_arg2) (by decide), s1a_keep _ (b := main_v9) (by decide), s1a_keep _ (b := main_v19) (by decide),
    s1a_keep _ (b := main_arg9) (by decide), s1a_keep _ (b := main_arg10) (by decide), s1a_keep _ (b := main_arg5) (by decide),
    s1a_keep _ (b := main_arg6) (by decide), s0f_val, s0f_keep _ (b := main_v40) (by decide),
    s0f_keep _ (b := main_arg7) (by decide), s0f_keep _ (b := main_arg8) (by decide), s0f_keep _ (b := main_arg4) (by decide),
    s0f_keep _ (b := main_arg1) (by decide), s0f_keep _ (b := main_arg2) (by decide), s0f_keep _ (b := main_v9) (by decide),
    s0f_keep _ (b := main_v19) (by decide), s0f_keep _ (b := main_arg9) (by decide), s0f_keep _ (b := main_arg10) (by decide),
    s0f_keep _ (b := main_arg5) (by decide), s0f_keep _ (b := main_arg6) (by decide), s0e_keep _ (b := main_v36) (by decide),
    s0e_keep _ (b := main_v39) (by decide), s0e_val, s0e_keep _ (b := main_arg7) (by decide),
    s0e_keep _ (b := main_arg8) (by decide), s0e_keep _ (b := main_arg4) (by decide), s0e_keep _ (b := main_arg1) (by decide),
    s0e_keep _ (b := main_arg2) (by decide), s0e_keep _ (b := main_v9) (by decide), s0e_keep _ (b := main_v19) (by decide),
    s0e_keep _ (b := main_arg9) (by decide), s0e_keep _ (b := main_arg10) (by decide), s0e_keep _ (b := main_arg5) (by decide),
    s0e_keep _ (b := main_arg6) (by decide), s0d_keep _ (b := main_v36) (by decide), s0d_val,
    s0d_keep _ (b := main_arg7) (by decide), s0d_keep _ (b := main_arg8) (by decide), s0d_keep _ (b := main_arg4) (by decide),
    s0d_keep _ (b := main_arg1) (by decide), s0d_keep _ (b := main_arg2) (by decide), s0d_keep _ (b := main_v9) (by decide),
    s0d_keep _ (b := main_v19) (by decide), s0d_keep _ (b := main_arg9) (by decide), s0d_keep _ (b := main_arg10) (by decide),
    s0d_keep _ (b := main_arg5) (by decide), s0d_keep _ (b := main_arg6) (by decide), s0c_val,
    s0c_keep _ (b := main_arg7) (by decide), s0c_keep _ (b := main_arg8) (by decide), s0c_keep _ (b := main_arg4) (by decide),
    s0c_keep _ (b := main_arg1) (by decide), s0c_keep _ (b := main_arg2) (by decide), s0c_keep _ (b := main_v9) (by decide),
    s0c_keep _ (b := main_v19) (by decide), s0c_keep _ (b := main_arg9) (by decide), s0c_keep _ (b := main_arg10) (by decide),
    s0c_keep _ (b := main_arg5) (by decide), s0c_keep _ (b := main_arg6) (by decide), s0b_keep _ (b := main_arg0) (by decide),
    s0b_keep _ (b := main_arg3) (by decide), s0b_keep _ (b := main_arg1) (by decide), s0b_keep _ (b := main_arg2) (by decide),
    s0b_keep _ (b := main_v9) (by decide), s0b_val, s0b_keep _ (b := main_arg7) (by decide),
    s0b_keep _ (b := main_arg8) (by decide), s0b_keep _ (b := main_arg4) (by decide), s0b_keep _ (b := main_arg9) (by decide),
    s0b_keep _ (b := main_arg10) (by decide), s0b_keep _ (b := main_arg5) (by decide), s0b_keep _ (b := main_arg6) (by decide),
    s0a_keep _ (b := main_arg0) (by decide), s0a_keep _ (b := main_arg3) (by decide), s0a_keep _ (b := main_arg1) (by decide),
    s0a_keep _ (b := main_arg2) (by decide), s0a_val, s0a_keep _ (b := main_arg7) (by decide),
    s0a_keep _ (b := main_arg8) (by decide), s0a_keep _ (b := main_arg4) (by decide), s0a_keep _ (b := main_arg9) (by decide),
    s0a_keep _ (b := main_arg10) (by decide), s0a_keep _ (b := main_arg5) (by decide), s0a_keep _ (b := main_arg6) (by decide)]
  simp only [Cert.Spec.gcn, Cert.Spec.layer, Cert.Spec.bnRelu, Cert.Spec.scaleMatmul40, agg, outLayer, scaleShiftRelu]
  first | done | rfl

theorem fold_arg0 (V : Vl) :
    after (ops0 ++ (ops1 ++ ops2) : List (HloOp τ sig (Elt Ideal))) V (main_arg0 : DevRef τ sig) = V (main_arg0 : DevRef τ sig) := by
  simp only [ops0, ops1, ops2, after_app]
  rw [s2a_keep _ (b := main_arg0) (by decide), s1f_keep _ (b := main_arg0) (by decide), s1e_keep _ (b := main_arg0) (by decide),
    s1d_keep _ (b := main_arg0) (by decide), s1c_keep _ (b := main_arg0) (by decide), s1b_keep _ (b := main_arg0) (by decide),
    s1a_keep _ (b := main_arg0) (by decide), s0f_keep _ (b := main_arg0) (by decide), s0e_keep _ (b := main_arg0) (by decide),
    s0d_keep _ (b := main_arg0) (by decide), s0c_keep _ (b := main_arg0) (by decide), s0b_keep _ (b := main_arg0) (by decide),
    s0a_keep _ (b := main_arg0) (by decide)]

theorem fold_arg1 (V : Vl) :
    after (ops0 ++ (ops1 ++ ops2) : List (HloOp τ sig (Elt Ideal))) V (main_arg1 : DevRef τ sig) = V (main_arg1 : DevRef τ sig) := by
  simp only [ops0, ops1, ops2, after_app]
  rw [s2a_keep _ (b := main_arg1) (by decide), s1f_keep _ (b := main_arg1) (by decide), s1e_keep _ (b := main_arg1) (by decide),
    s1d_keep _ (b := main_arg1) (by decide), s1c_keep _ (b := main_arg1) (by decide), s1b_keep _ (b := main_arg1) (by decide),
    s1a_keep _ (b := main_arg1) (by decide), s0f_keep _ (b := main_arg1) (by decide), s0e_keep _ (b := main_arg1) (by decide),
    s0d_keep _ (b := main_arg1) (by decide), s0c_keep _ (b := main_arg1) (by decide), s0b_keep _ (b := main_arg1) (by decide),
    s0a_keep _ (b := main_arg1) (by decide)]

theorem fold_arg2 (V : Vl) :
    after (ops0 ++ (ops1 ++ ops2) : List (HloOp τ sig (Elt Ideal))) V (main_arg2 : DevRef τ sig) = V (main_arg2 : DevRef τ sig) := by
  simp only [ops0, ops1, ops2, after_app]
  rw [s2a_keep _ (b := main_arg2) (by decide), s1f_keep _ (b := main_arg2) (by decide), s1e_keep _ (b := main_arg2) (by decide),
    s1d_keep _ (b := main_arg2) (by decide), s1c_keep _ (b := main_arg2) (by decide), s1b_keep _ (b := main_arg2) (by decide),
    s1a_keep _ (b := main_arg2) (by decide), s0f_keep _ (b := main_arg2) (by decide), s0e_keep _ (b := main_arg2) (by decide),
    s0d_keep _ (b := main_arg2) (by decide), s0c_keep _ (b := main_arg2) (by decide), s0b_keep _ (b := main_arg2) (by decide),
    s0a_keep _ (b := main_arg2) (by decide)]

theorem fold_arg3 (V : Vl) :
    after (ops0 ++ (ops1 ++ ops2) : List (HloOp τ sig (Elt Ideal))) V (main_arg3 : DevRef τ sig) = V (main_arg3 : DevRef τ sig) := by
  simp only [ops0, ops1, ops2, after_app]
  rw [s2a_keep _ (b := main_arg3) (by decide), s1f_keep _ (b := main_arg3) (by decide), s1e_keep _ (b := main_arg3) (by decide),
    s1d_keep _ (b := main_arg3) (by decide), s1c_keep _ (b := main_arg3) (by decide), s1b_keep _ (b := main_arg3) (by decide),
    s1a_keep _ (b := main_arg3) (by decide), s0f_keep _ (b := main_arg3) (by decide), s0e_keep _ (b := main_arg3) (by decide),
    s0d_keep _ (b := main_arg3) (by decide), s0c_keep _ (b := main_arg3) (by decide), s0b_keep _ (b := main_arg3) (by decide),
    s0a_keep _ (b := main_arg3) (by decide)]

theorem fold_arg4 (V : Vl) :
    after (ops0 ++ (ops1 ++ ops2) : List (HloOp τ sig (Elt Ideal))) V (main_arg4 : DevRef τ sig) = V (main_arg4 : DevRef τ sig) := by
  simp only [ops0, ops1, ops2, after_app]
  rw [s2a_keep _ (b := main_arg4) (by decide), s1f_keep _ (b := main_arg4) (by decide), s1e_keep _ (b := main_arg4) (by decide),
    s1d_keep _ (b := main_arg4) (by decide), s1c_keep _ (b := main_arg4) (by decide), s1b_keep _ (b := main_arg4) (by decide),
    s1a_keep _ (b := main_arg4) (by decide), s0f_keep _ (b := main_arg4) (by decide), s0e_keep _ (b := main_arg4) (by decide),
    s0d_keep _ (b := main_arg4) (by decide), s0c_keep _ (b := main_arg4) (by decide), s0b_keep _ (b := main_arg4) (by decide),
    s0a_keep _ (b := main_arg4) (by decide)]

theorem fold_arg5 (V : Vl) :
    after (ops0 ++ (ops1 ++ ops2) : List (HloOp τ sig (Elt Ideal))) V (main_arg5 : DevRef τ sig) = V (main_arg5 : DevRef τ sig) := by
  simp only [ops0, ops1, ops2, after_app]
  rw [s2a_keep _ (b := main_arg5) (by decide), s1f_keep _ (b := main_arg5) (by decide), s1e_keep _ (b := main_arg5) (by decide),
    s1d_keep _ (b := main_arg5) (by decide), s1c_keep _ (b := main_arg5) (by decide), s1b_keep _ (b := main_arg5) (by decide),
    s1a_keep _ (b := main_arg5) (by decide), s0f_keep _ (b := main_arg5) (by decide), s0e_keep _ (b := main_arg5) (by decide),
    s0d_keep _ (b := main_arg5) (by decide), s0c_keep _ (b := main_arg5) (by decide), s0b_keep _ (b := main_arg5) (by decide),
    s0a_keep _ (b := main_arg5) (by decide)]

theorem fold_arg6 (V : Vl) :
    after (ops0 ++ (ops1 ++ ops2) : List (HloOp τ sig (Elt Ideal))) V (main_arg6 : DevRef τ sig) = V (main_arg6 : DevRef τ sig) := by
  simp only [ops0, ops1, ops2, after_app]
  rw [s2a_keep _ (b := main_arg6) (by decide), s1f_keep _ (b := main_arg6) (by decide), s1e_keep _ (b := main_arg6) (by decide),
    s1d_keep _ (b := main_arg6) (by decide), s1c_keep _ (b := main_arg6) (by decide), s1b_keep _ (b := main_arg6) (by decide),
    s1a_keep _ (b := main_arg6) (by decide), s0f_keep _ (b := main_arg6) (by decide), s0e_keep _ (b := main_arg6) (by decide),
    s0d_keep _ (b := main_arg6) (by decide), s0c_keep _ (b := main_arg6) (by decide), s0b_keep _ (b := main_arg6) (by decide),
    s0a_keep _ (b := main_arg6) (by decide)]

theorem fold_arg7 (V : Vl) :
    after (ops0 ++ (ops1 ++ ops2) : List (HloOp τ sig (Elt Ideal))) V (main_arg7 : DevRef τ sig) = V (main_arg7 : DevRef τ sig) := by
  simp only [ops0, ops1, ops2, after_app]
  rw [s2a_keep _ (b := main_arg7) (by decide), s1f_keep _ (b := main_arg7) (by decide), s1e_keep _ (b := main_arg7) (by decide),
    s1d_keep _ (b := main_arg7) (by decide), s1c_keep _ (b := main_arg7) (by decide), s1b_keep _ (b := main_arg7) (by decide),
    s1a_keep _ (b := main_arg7) (by decide), s0f_keep _ (b := main_arg7) (by decide), s0e_keep _ (b := main_arg7) (by decide),
    s0d_keep _ (b := main_arg7) (by decide), s0c_keep _ (b := main_arg7) (by decide), s0b_keep _ (b := main_arg7) (by decide),
    s0a_keep _ (b := main_arg7) (by decide)]

theorem fold_arg8 (V : Vl) :
    after (ops0 ++ (ops1 ++ ops2) : List (HloOp τ sig (Elt Ideal))) V (main_arg8 : DevRef τ sig) = V (main_arg8 : DevRef τ sig) := by
  simp only [ops0, ops1, ops2, after_app]
  rw [s2a_keep _ (b := main_arg8) (by decide), s1f_keep _ (b := main_arg8) (by decide), s1e_keep _ (b := main_arg8) (by decide),
    s1d_keep _ (b := main_arg8) (by decide), s1c_keep _ (b := main_arg8) (by decide), s1b_keep _ (b := main_arg8) (by decide),
    s1a_keep _ (b := main_arg8) (by decide), s0f_keep _ (b := main_arg8) (by decide), s0e_keep _ (b := main_arg8) (by decide),
    s0d_keep _ (b := main_arg8) (by decide), s0c_keep _ (b := main_arg8) (by decide), s0b_keep _ (b := main_arg8) (by decide),
    s0a_keep _ (b := main_arg8) (by decide)]

theorem fold_arg9 (V : Vl) :
    after (ops0 ++ (ops1 ++ ops2) : List (HloOp τ sig (Elt Ideal))) V (main_arg9 : DevRef τ sig) = V (main_arg9 : DevRef τ sig) := by
  simp only [ops0, ops1, ops2, after_app]
  rw [s2a_keep _ (b := main_arg9) (by decide), s1f_keep _ (b := main_arg9) (by decide), s1e_keep _ (b := main_arg9) (by decide),
    s1d_keep _ (b := main_arg9) (by decide), s1c_keep _ (b := main_arg9) (by decide), s1b_keep _ (b := main_arg9) (by decide),
    s1a_keep _ (b := main_arg9) (by decide), s0f_keep _ (b := main_arg9) (by decide), s0e_keep _ (b := main_arg9) (by decide),
    s0d_keep _ (b := main_arg9) (by decide), s0c_keep _ (b := main_arg9) (by decide), s0b_keep _ (b := main_arg9) (by decide),
    s0a_keep _ (b := main_arg9) (by decide)]

theorem fold_arg10 (V : Vl) :
    after (ops0 ++ (ops1 ++ ops2) : List (HloOp τ sig (Elt Ideal))) V (main_arg10 : DevRef τ sig) = V (main_arg10 : DevRef τ sig) := by
  simp only [ops0, ops1, ops2, after_app]
  rw [s2a_keep _ (b := main_arg10) (by decide), s1f_keep _ (b := main_arg10) (by decide), s1e_keep _ (b := main_arg10) (by decide),
    s1d_keep _ (b := main_arg10) (by decide), s1c_keep _ (b := main_arg10) (by decide), s1b_keep _ (b := main_arg10) (by decide),
    s1a_keep _ (b := main_arg10) (by decide), s0f_keep _ (b := main_arg10) (by decide), s0e_keep _ (b := main_arg10) (by decide),
    s0d_keep _ (b := main_arg10) (by decide), s0c_keep _ (b := main_arg10) (by decide), s0b_keep _ (b := main_arg10) (by decide),
    s0a_keep _ (b := main_arg10) (by decide)]

/-- From any memory with zero counters every weakly fair execution of the reference terminates with the result
    buffer at the network of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v113)
        = Cert.Spec.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v113).trans (fold_v113 (launchContents m c)),
      (h c main_arg0).trans (fold_arg0 (launchContents m c)),
      (h c main_arg1).trans (fold_arg1 (launchContents m c)),
      (h c main_arg2).trans (fold_arg2 (launchContents m c)),
      (h c main_arg3).trans (fold_arg3 (launchContents m c)),
      (h c main_arg4).trans (fold_arg4 (launchContents m c)),
      (h c main_arg5).trans (fold_arg5 (launchContents m c)),
      (h c main_arg6).trans (fold_arg6 (launchContents m c)),
      (h c main_arg7).trans (fold_arg7 (launchContents m c)),
      (h c main_arg8).trans (fold_arg8 (launchContents m c)),
      (h c main_arg9).trans (fold_arg9 (launchContents m c)),
      (h c main_arg10).trans (fold_arg10 (launchContents m c))⟩)
    (run_fold m ρ)

end Cert.ReferenceIdeal.RefValue

end
-- ==== Proof.lean ====
/-
  A three-layer graph convolution network on 100000 nodes and 1600000 edges: per layer the node features are
  scaled by the out-degree norm, multiplied by the layer's weight, gathered along the edges' sources and added into
  their destinations, and scaled by the in-degree norm; the two hidden layers are then normalised column by column
  (batch statistics over all nodes), scaled, shifted and rectified, and the output layer adds a bias.

  The kernel program computes the scale-and-multiply, the normalise-and-rectify and the bias steps in six kernel
  regions, each over 20 blocks of 5000 rows, with the degree norms, the aggregation and the column statistics as
  host operations between them; the reference computes everything as host operations. At the ideal instance (floats
  extended reals, a change of float format the identity) a region's blocks tile one whole-array function, a
  block-wise matrix product into a zero accumulator is the host's contraction read row by row, and the remaining
  host operations are the same on both sides: both results are the one function `Cert.Spec.gcn` of the eleven
  argument arrays. No law of the extended reals beyond reading both products as the same sum over the 128 contracted
  indices is used, so the precondition (finite inputs) is never opened. The ideal pass rewrote nothing in the
  kernel, so the idealization claim is trivial.
-/
import proofs.«162067_j41154376630597_1_alg».proof.Defs
import proofs.«162067_j41154376630597_1_alg».proof.Proof.Gen.Kernel
import proofs.«162067_j41154376630597_1_alg».proof.Proof.Gen.Kernel.Skeleton
import proofs.«162067_j41154376630597_1_alg».proof.Proof.Gen.Kernel.Launch
import proofs.«162067_j41154376630597_1_alg».proof.Proof.Gen.Kernel.Points
import proofs.«162067_j41154376630597_1_alg».proof.Proof.Gen.Kernel.Frame
import proofs.«162067_j41154376630597_1_alg».proof.Proof.Gen.KernelIdeal
import proofs.«162067_j41154376630597_1_alg».proof.Proof.Gen.KernelIdeal.Skeleton
import proofs.«162067_j41154376630597_1_alg».proof.Proof.Gen.KernelIdeal.Launch
import proofs.«162067_j41154376630597_1_alg».proof.Proof.Gen.KernelIdeal.Points
import proofs.«162067_j41154376630597_1_alg».proof.Proof.Gen.KernelIdeal.Frame
import proofs.«162067_j41154376630597_1_alg».proof.Proof.Gen.ReferenceIdeal
import proofs.«162067_j41154376630597_1_alg».proof.Proof.Gen.Pre_finite_inputs
import proofs.«162067_j41154376630597_1_alg».proof.Proof.KRun
import proofs.«162067_j41154376630597_1_alg».proof.Proof.KVal
import proofs.«162067_j41154376630597_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs and leaves its arguments: the generated frame. -/
theorem frame_kernel : Cert.frame_Kernel := fun m ρ _ => Cert.Kernel.Gen.frame m ρ
/-- The idealized kernel runs and leaves its arguments: the generated frame. -/
theorem frame_kernelIdeal : Cert.frame_KernelIdeal := fun m ρ _ => Cert.KernelIdeal.Gen.frame m ρ
/-- The reference runs and leaves its arguments: its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- Both idealized programs end with the network of the (agreeing) arguments in their result buffers. -/
theorem algebraic : Cert.algebraic_KernelIdeal_ReferenceIdeal := by
  intro m ρ m' ρ' _ hagree
  refine ⟨fun c => Cert.Spec.gcn
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)), ?_, ?_⟩
  · refine (θ_run Cert.KernelIdeal.defs _ _).mono (fun r h c => ⟨(h c).1.trans ?_, (h c).2⟩)
      (Cert.KernelIdeal.KRun.run_valued (F := Ideal) m ρ)
    exact Cert.KernelIdeal.KVal.result m ρ c
  · refine (θ_run Cert.ReferenceIdeal.defs _ _).mono (fun r h c => ⟨(h c).1.trans ?_, (h c).2⟩)
      (Cert.ReferenceIdeal.RefValue.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
